-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S8000000 : Shape := ⟨1, ![8000000]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel
  bcast_S_S8000000 : S_.BroadcastsInDim S8000000 (![] : Fin 0 → Fin S8000000.rank)
  reducesTo_S8000000_S_d0 : S8000000.ReducesTo [0] S_

variable [Facts]

def fn_part2 {F : FTy → Type} [FloatOps F] (main_arg9 : IVec S8000000 32) (main_v32 : IVec S_ 1) (main_c_12 : IVec S_ 32) : IVec S_ 1 :=
  let main_v33 : IVec S8000000 32 := broadcastInDim S8000000 ![] bcast_S_S8000000 main_c_12
  let main_v34 : IVec S8000000 1 := cmpi .sge main_arg9 main_v33
  let main_c_13 : IVec S_ 1 := constantI S_ 1 1#1
  let main_v35 : IVec S_ 1 := (fun x v => Host.reduce IntOp.andi x v reducesTo_S8000000_S_d0 h_S_) main_v34 main_c_13
  let main_v36 : IVec S_ 1 := andi main_v32 main_v35
  main_v36

def fn_part1 {F : FTy → Type} [FloatOps F] (main_arg4 : FVec F S1000000 .f32) (main_arg5 : FVec F S1000000 .f32) (main_arg7 : IVec S8000000 32) (main_arg9 : IVec S8000000 32) (main_v13 : IVec S_ 1) (main_v16 : IVec S1000000 1) : IVec S_ 1 :=
  let main_c_5 : IVec S_ 1 := constantI S_ 1 1#1
  let main_v17 : IVec S_ 1 := (fun x v => Host.reduce IntOp.andi x v reducesTo_S1000000_S_d0 h_S_) main_v16 main_c_5
  let main_v18 : IVec S_ 1 := andi main_v13 main_v17
  let main_v19 : FVec F S1000000 .f32 := Host.absf main_arg4
  let main_cst_6 : FVec F S_ .f32 := constant S_ .f32 0x7F800000#32
  let main_v20 : FVec F S1000000 .f32 := broadcastInDim S1000000 ![] bcast_S_S1000000 main_cst_6
  let main_v21 : IVec S1000000 1 := cmpf .olt main_v19 main_v20
  let main_c_7 : IVec S_ 1 := constantI S_ 1 1#1
  let main_v22 : IVec S_ 1 := (fun x v => Host.reduce IntOp.andi x v reducesTo_S1000000_S_d0 h_S_) main_v21 main_c_7
  let main_v23 : IVec S_ 1 := andi main_v18 main_v22
  let main_v24 : FVec F S1000000 .f32 := Host.absf main_arg5
  let main_cst_8 : FVec F S_ .f32 := constant S_ .f32 0x7F800000#32
  let main_v25 : FVec F S1000000 .f32 := broadcastInDim S1000000 ![] bcast_S_S1000000 main_cst_8
  let main_v26 : IVec S1000000 1 := cmpf .olt main_v24 main_v25
  let main_c_9 : IVec S_ 1 := constantI S_ 1 1#1
  let main_v27 : IVec S_ 1 := (fun x v => Host.reduce IntOp.andi x v reducesTo_S1000000_S_d0 h_S_) main_v26 main_c_9
  let main_v28 : IVec S_ 1 := andi main_v23 main_v27
  let main_c_10 : IVec S_ 32 := constantI S_ 32 0#32
  let main_v29 : IVec S8000000 32 := broadcastInDim S8000000 ![] bcast_S_S8000000 main_c_10
  let main_v30 : IVec S8000000 1 := cmpi .sge main_arg7 main_v29
  let main_c_11 : IVec S_ 1 := constantI S_ 1 1#1
  let main_v31 : IVec S_ 1 := (fun x v => Host.reduce IntOp.andi x v reducesTo_S8000000_S_d0 h_S_) main_v30 main_c_11
  let main_v32 : IVec S_ 1 := andi main_v28 main_v31
  let main_c_12 : IVec S_ 32 := constantI S_ 32 0#32
  fn_part2 (F := F) main_arg9 main_v32 main_c_12

def fn {F : FTy → Type} [FloatOps F] (main_arg0 : FVec F S1000000 .f32) (main_arg1 : FVec F S8000000 .f32) (main_arg2 : FVec F S8000000 .f32) (main_arg3 : FVec F S1000000 .f32) (main_arg4 : FVec F S1000000 .f32) (main_arg5 : FVec F S1000000 .f32) (main_arg6 : IVec S8000000 32) (main_arg7 : IVec S8000000 32) (main_arg8 : IVec S8000000 32) (main_arg9 : IVec S8000000 32) : IVec S_ 1 :=
  let main_v0 : FVec F S1000000 .f32 := Host.absf main_arg0
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  let main_c : IVec S_ 1 := constantI S_ 1 1#1
  let main_v3 : IVec S_ 1 := (fun x v => Host.reduce IntOp.andi x v reducesTo_S1000000_S_d0 h_S_) main_v2 main_c
  let main_v4 : FVec F S8000000 .f32 := Host.absf main_arg1
  let main_cst_0 : FVec F S_ .f32 := constant S_ .f32 0x7F800000#32
  let main_v5 : FVec F S8000000 .f32 := broadcastInDim S8000000 ![] bcast_S_S8000000 main_cst_0
  let main_v6 : IVec S8000000 1 := cmpf .olt main_v4 main_v5
  let main_c_1 : IVec S_ 1 := constantI S_ 1 1#1
  let main_v7 : IVec S_ 1 := (fun x v => Host.reduce IntOp.andi x v reducesTo_S8000000_S_d0 h_S_) main_v6 main_c_1
  let main_v8 : IVec S_ 1 := andi main_v3 main_v7
  let main_v9 : FVec F S8000000 .f32 := Host.absf main_arg2
  let main_cst_2 : FVec F S_ .f32 := constant S_ .f32 0x7F800000#32
  let main_v10 : FVec F S8000000 .f32 := broadcastInDim S8000000 ![] bcast_S_S8000000 main_cst_2
  let main_v11 : IVec S8000000 1 := cmpf .olt main_v9 main_v10
  let main_c_3 : IVec S_ 1 := constantI S_ 1 1#1
  let main_v12 : IVec S_ 1 := (fun x v => Host.reduce IntOp.andi x v reducesTo_S8000000_S_d0 h_S_) main_v11 main_c_3
  let main_v13 : IVec S_ 1 := andi main_v8 main_v12
  let main_v14 : FVec F S1000000 .f32 := Host.absf main_arg3
  let main_cst_4 : FVec F S_ .f32 := constant S_ .f32 0x7F800000#32
  let main_v15 : FVec F S1000000 .f32 := broadcastInDim S1000000 ![] bcast_S_S1000000 main_cst_4
  let main_v16 : IVec S1000000 1 := cmpf .olt main_v14 main_v15
  fn_part1 (F := F) main_arg4 main_arg5 main_arg7 main_arg9 main_v13 main_v16
-- ==== Kernel.lean ====
abbrev S1000000 : Shape := ⟨1, ![1000000]⟩
abbrev S8000000 : Shape := ⟨1, ![8000000]⟩
abbrev S_ : Shape := ⟨0, ![]⟩
abbrev S8000000x1 : Shape := ⟨2, ![8000000, 1]⟩
abbrev S15625x512 : Shape := ⟨2, ![15625, 512]⟩
abbrev S1024x512 : Shape := ⟨2, ![1024, 512]⟩
abbrev S8000000x2 : Shape := ⟨2, ![8000000, 2]⟩
abbrev S1000000x2 : Shape := ⟨2, ![1000000, 2]⟩
abbrev S1000000x1 : Shape := ⟨2, ![1000000, 1]⟩
abbrev S1048576 : Shape := ⟨1, ![1048576]⟩
abbrev S1024x1024 : Shape := ⟨2, ![1024, 1024]⟩
abbrev S256x1024 : Shape := ⟨2, ![256, 1024]⟩

abbrev nBuf : Space → Nat
  | .hbm => 97
  | .vmem => 30
  | .smem => 0
  | _ => 0

abbrev bufTy : (tb : Table) → Fin (tcTables nBuf tb) → BufTy
  | .hbm, ⟨0, _⟩ => ⟨S1000000, .f32⟩
  | .hbm, ⟨1, _⟩ => ⟨S8000000, .f32⟩
  | .hbm, ⟨2, _⟩ => ⟨S8000000, .f32⟩
  | .hbm, ⟨3, _⟩ => ⟨S1000000, .f32⟩
  | .hbm, ⟨4, _⟩ => ⟨S1000000, .f32⟩
  | .hbm, ⟨5, _⟩ => ⟨S1000000, .f32⟩
  | .hbm, ⟨6, _⟩ => ⟨S8000000, .i32⟩
  | .hbm, ⟨7, _⟩ => ⟨S8000000, .i32⟩
  | .hbm, ⟨8, _⟩ => ⟨S8000000, .i32⟩
  | .hbm, ⟨9, _⟩ => ⟨S8000000, .i32⟩
  | .hbm, ⟨10, _⟩ => ⟨S_, .i32⟩
  | .hbm, ⟨11, _⟩ => ⟨S8000000, .i32⟩
  | .hbm, ⟨12, _⟩ => ⟨S8000000, .i1⟩
  | .hbm, ⟨13, _⟩ => ⟨S_, .i32⟩
  | .hbm, ⟨14, _⟩ => ⟨S8000000, .i32⟩
  | .hbm, ⟨15, _⟩ => ⟨S8000000, .i32⟩
  | .hbm, ⟨16, _⟩ => ⟨S8000000, .i32⟩
  | .hbm, ⟨17, _⟩ => ⟨S8000000x1, .i32⟩
  | .hbm, ⟨18, _⟩ => ⟨S8000000, .f32⟩
  | .hbm, ⟨19, _⟩ => ⟨S_, .i32⟩
  | .hbm, ⟨20, _⟩ => ⟨S8000000, .i32⟩
  | .hbm, ⟨21, _⟩ => ⟨S8000000, .i1⟩
  | .hbm, ⟨22, _⟩ => ⟨S_, .i32⟩
  | .hbm, ⟨23, _⟩ => ⟨S8000000, .i32⟩
  | .hbm, ⟨24, _⟩ => ⟨S8000000, .i32⟩
  | .hbm, ⟨25, _⟩ => ⟨S8000000, .i32⟩
  | .hbm, ⟨26, _⟩ => ⟨S8000000x1, .i32⟩
  | .hbm, ⟨27, _⟩ => ⟨S8000000, .f32⟩
  | .hbm, ⟨28, _⟩ => ⟨S15625x512, .f32⟩
  | .hbm, ⟨29, _⟩ => ⟨S15625x512, .f32⟩
  | .hbm, ⟨30, _⟩ => ⟨S15625x512, .f32⟩
  | .hbm, ⟨31, _⟩ => ⟨S8000000, .f32⟩
  | .hbm, ⟨32, _⟩ => ⟨S15625x512, .f32⟩
  | .hbm, ⟨33, _⟩ => ⟨S15625x512, .f32⟩
  | .hbm, ⟨34, _⟩ => ⟨S15625x512, .f32⟩
  | .hbm, ⟨35, _⟩ => ⟨S8000000, .f32⟩
  | .hbm, ⟨36, _⟩ => ⟨S_, .f32⟩
  | .hbm, ⟨37, _⟩ => ⟨S8000000, .f32⟩
  | .hbm, ⟨38, _⟩ => ⟨S8000000x1, .f32⟩
  | .hbm, ⟨39, _⟩ => ⟨S8000000x1, .f32⟩
  | .hbm, ⟨40, _⟩ => ⟨S8000000x2, .f32⟩
  | .hbm, ⟨41, _⟩ => ⟨S_, .f32⟩
  | .hbm, ⟨42, _⟩ => ⟨S8000000, .f32⟩
  | .hbm, ⟨43, _⟩ => ⟨S8000000x1, .f32⟩
  | .hbm, ⟨44, _⟩ => ⟨S8000000x1, .f32⟩
  | .hbm, ⟨45, _⟩ => ⟨S8000000x2, .f32⟩
  | .hbm, ⟨46, _⟩ => ⟨S_, .f32⟩
  | .hbm, ⟨47, _⟩ => ⟨S1000000x2, .f32⟩
  | .hbm, ⟨48, _⟩ => ⟨S8000000x1, .i32⟩
  | .hbm, ⟨49, _⟩ => ⟨S1000000x2, .f32⟩
  | .hbm, ⟨50, _⟩ => ⟨S_, .f32⟩
  | .hbm, ⟨51, _⟩ => ⟨S1000000x2, .f32⟩
  | .hbm, ⟨52, _⟩ => ⟨S8000000x1, .i32⟩
  | .hbm, ⟨53, _⟩ => ⟨S1000000x2, .f32⟩
  | .hbm, ⟨54, _⟩ => ⟨S1000000x1, .f32⟩
  | .hbm, ⟨55, _⟩ => ⟨S1000000, .f32⟩
  | .hbm, ⟨56, _⟩ => ⟨S1000000x1, .f32⟩
  | .hbm, ⟨57, _⟩ => ⟨S1000000, .f32⟩
  | .hbm, ⟨58, _⟩ => ⟨S1000000x1, .f32⟩
  | .hbm, ⟨59, _⟩ => ⟨S1000000, .f32⟩
  | .hbm, ⟨60, _⟩ => ⟨S1000000x1, .f32⟩
  | .hbm, ⟨61, _⟩ => ⟨S1000000, .f32⟩
  | .hbm, ⟨62, _⟩ => ⟨S_, .i32⟩
  | .hbm, ⟨63, _⟩ => ⟨S_, .f32⟩
  | .hbm, ⟨64, _⟩ => ⟨S1048576, .f32⟩
  | .hbm, ⟨65, _⟩ => ⟨S1024x1024, .f32⟩
  | .hbm, ⟨66, _⟩ => ⟨S_, .i32⟩
  | .hbm, ⟨67, _⟩ => ⟨S_, .f32⟩
  | .hbm, ⟨68, _⟩ => ⟨S1048576, .f32⟩
  | .hbm, ⟨69, _⟩ => ⟨S1024x1024, .f32⟩
  | .hbm, ⟨70, _⟩ => ⟨S_, .i32⟩
  | .hbm, ⟨71, _⟩ => ⟨S_, .f32⟩
  | .hbm, ⟨72, _⟩ => ⟨S1048576, .f32⟩
  | .hbm, ⟨73, _⟩ => ⟨S1024x1024, .f32⟩
  | .hbm, ⟨74, _⟩ => ⟨S_, .i32⟩
  | .hbm, ⟨75, _⟩ => ⟨S_, .f32⟩
  | .hbm, ⟨76, _⟩ => ⟨S1048576, .f32⟩
  | .hbm, ⟨77, _⟩ => ⟨S1024x1024, .f32⟩
  | .hbm, ⟨78, _⟩ => ⟨S_, .i32⟩
  | .hbm, ⟨79, _⟩ => ⟨S_, .f32⟩
  | .hbm, ⟨80, _⟩ => ⟨S1048576, .f32⟩
  | .hbm, ⟨81, _⟩ => ⟨S1024x1024, .f32⟩
  | .hbm, ⟨82, _⟩ => ⟨S_, .i32⟩
  | .hbm, ⟨83, _⟩ => ⟨S_, .f32⟩
  | .hbm, ⟨84, _⟩ => ⟨S1048576, .f32⟩
  | .hbm, ⟨85, _⟩ => ⟨S1024x1024, .f32⟩
  | .hbm, ⟨86, _⟩ => ⟨S_, .i32⟩
  | .hbm, ⟨87, _⟩ => ⟨S_, .f32⟩
  | .hbm, ⟨88, _⟩ => ⟨S1048576, .f32⟩
  | .hbm, ⟨89, _⟩ => ⟨S1024x1024, .f32⟩
  | .hbm, ⟨90, _⟩ => ⟨S_, .i32⟩
  | .hbm, ⟨91, _⟩ => ⟨S_, .f32⟩
  | .hbm, ⟨92, _⟩ => ⟨S1048576, .f32⟩
  | .hbm, ⟨93, _⟩ => ⟨S1024x1024, .f32⟩
  | .hbm, ⟨94, _⟩ => ⟨S1024x1024, .f32⟩
  | .hbm, ⟨95, _⟩ => ⟨S1048576, .f32⟩
  | .hbm, ⟨96, _⟩ => ⟨S1000000, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | _, _ => ⟨S1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_6 : Ref sig .tc := ⟨.hbm, 62, rfl⟩
abbrev main_call0_v0 : Ref sig .tc := ⟨.hbm, 63, rfl⟩
abbrev main_v44 : Ref sig .tc := ⟨.hbm, 64, rfl⟩
abbrev main_v45 : Ref sig .tc := ⟨.hbm, 65, rfl⟩
abbrev main_c_7 : Ref sig .tc := ⟨.hbm, 66, rfl⟩
abbrev main_call1_v0 : Ref sig .tc := ⟨.hbm, 67, rfl⟩
abbrev main_v46 : Ref sig .tc := ⟨.hbm, 68, rfl⟩
abbrev main_v47 : Ref sig .tc := ⟨.hbm, 69, rfl⟩
abbrev main_c_8 : Ref sig .tc := ⟨.hbm, 70, rfl⟩
abbrev main_call2_v0 : Ref sig .tc := ⟨.hbm, 71, rfl⟩
abbrev main_v48 : Ref sig .tc := ⟨.hbm, 72, rfl⟩
abbrev main_v49 : Ref sig .tc := ⟨.hbm, 73, rfl⟩
abbrev main_c_9 : Ref sig .tc := ⟨.hbm, 74, rfl⟩
abbrev main_call3_v0 : Ref sig .tc := ⟨.hbm, 75, rfl⟩
abbrev main_v50 : Ref sig .tc := ⟨.hbm, 76, rfl⟩
abbrev main_v51 : Ref sig .tc := ⟨.hbm, 77, rfl⟩
abbrev main_c_10 : Ref sig .tc := ⟨.hbm, 78, rfl⟩
abbrev main_call4_v0 : Ref sig .tc := ⟨.hbm, 79, rfl⟩
abbrev main_v52 : Ref sig .tc := ⟨.hbm, 80, rfl⟩
abbrev main_v53 : Ref sig .tc := ⟨.hbm, 81, rfl⟩
abbrev main_c_11 : Ref sig .tc := ⟨.hbm, 82, rfl⟩
abbrev main_call5_v0 : Ref sig .tc := ⟨.hbm, 83, rfl⟩
abbrev main_v54 : Ref sig .tc := ⟨.hbm, 84, rfl⟩
abbrev main_v55 : Ref sig .tc := ⟨.hbm, 85, rfl⟩
abbrev main_c_12 : Ref sig .tc := ⟨.hbm, 86, rfl⟩
abbrev main_call6_v0 : Ref sig .tc := ⟨.hbm, 87, rfl⟩
abbrev main_v56 : Ref sig .tc := ⟨.hbm, 88, rfl⟩
abbrev main_v57 : Ref sig .tc := ⟨.hbm, 89, rfl⟩
abbrev main_c_13 : Ref sig .tc := ⟨.hbm, 90, rfl⟩
abbrev main_call7_v0 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg6_1 : Ref sig .tc := ⟨.vmem, 25, rfl⟩
abbrev cc2_stg7_0 : Ref sig .tc := ⟨.vmem, 26, rfl⟩
abbrev cc2_stg7_1 : Ref sig .tc := ⟨.vmem, 27, rfl⟩
abbrev cc2_stg8_0 : Ref sig .tc := ⟨.vmem, 28, rfl⟩
abbrev cc2_stg8_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc2_sem5_0 : DmaSem sig := 22
abbrev cc2_sem5_1 : DmaSem sig := 23
abbrev cc2_sem6_0 : DmaSem sig := 24
abbrev cc2_sem6_1 : DmaSem sig := 25
abbrev cc2_sem7_0 : DmaSem sig := 26
abbrev cc2_sem7_1 : DmaSem sig := 27
abbrev cc2_sem8_0 : DmaSem sig := 28
abbrev cc2_sem8_1 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S256x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S256x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  bcast_S_S8000000 : S_.BroadcastsInDim S8000000 (![] : Fin 0 → Fin S8000000.rank)
  bcast_S8000000_S8000000x1_0 : S8000000.BroadcastsInDim S8000000x1 (![0] : Fin 1 → Fin S8000000x1.rank)
  shapeCasts_S8000000_S15625x512 : S8000000.ShapeCasts S15625x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S15625x512_S8000000 : S15625x512.ShapeCasts S8000000
  concatenates_S8000000x1_S8000000x1_S8000000x2_d1 : Shape.Concatenates [S8000000x1, S8000000x1] S8000000x2 1
  bcast_S_S1000000x2 : S_.BroadcastsInDim S1000000x2 (![] : Fin 0 → Fin S1000000x2.rank)
  slices_S1000000x2_S1000000x1_0_0 : S1000000x2.Slices ![0, 0] S1000000x1
  shapeCasts_S1000000x1_S1000000 : S1000000x1.ShapeCasts S1000000
  slices_S1000000x2_S1000000x1_0_1 : S1000000x2.Slices ![0, 1] S1000000x1
  pads_S1000000_S1048576_0485760 : S1000000.Pads (![0] : Fin 1 → Nat) ![48576] ![0] S1048576
  h_S_ : 0 < S_.numel
  shapeCasts_S1048576_S1024x1024 : S1048576.ShapeCasts S1024x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  shapeCasts_S1024x1024_S1048576 : S1024x1024.ShapeCasts S1048576
  slices_S1048576_S1000000_0 : S1048576.Slices ![0] S1000000
  gather_S1000000_S8000000x1_S8000000_n_0_n_n_0_1_1_wf : GatherDims.WF S1000000 S8000000x1 S8000000 [] [0] [] [0] [] 1 ![1]
  scatter_S1000000x2_S8000000x1_S8000000x2_1_0_0_1_wf : ScatterDims.WF S1000000x2 S8000000x1 S8000000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1024x512.size a < S15625x512.size a
  hwx0_0 : ∀ i : grid0.Coords, EltTy.bits .f32 = 32 ∨ (Rect.unit (s := S15625x512) (fun a => cc0_transform_0 i a * S1024x512.size a) (fun a => (Pipeline.Clip.of (cc0_transform_0 i a) (S1024x512.size a) (S15625x512.size a)).extent (S1024x512.size a)) fun a => Pipeline.Clip.inb (Pipeline.Clip.ok_of (hstart0_0 i a))).WholeWords (EltTy.packing .f32)
  hwxs0_0 : ∀ i : grid0.Coords, EltTy.bits .f32 = 32 ∨ (Rect.unit (s := S1024x512) (fun _ => 0) (fun a => (Pipeline.Clip.of (cc0_transform_0 i a) (S1024x512.size a) (S15625x512.size a)).extent (S1024x512.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1024x512.size a < S15625x512.size a
  hwx0_1 : ∀ i : grid0.Coords, EltTy.bits .f32 = 32 ∨ (Rect.unit (s := S15625x512) (fun a => cc0_transform_1 i a * S1024x512.size a) (fun a => (Pipeline.Clip.of (cc0_transform_1 i a) (S1024x512.size a) (S15625x512.size a)).extent (S1024x512.size a)) fun a => Pipeline.Clip.inb (Pipeline.Clip.ok_of (hstart0_1 i a))).WholeWords (EltTy.packing .f32)
  hwxs0_1 : ∀ i : grid0.Coords, EltTy.bits .f32 = 32 ∨ (Rect.unit (s := S1024x512) (fun _ => 0) (fun a => (Pipeline.Clip.of (cc0_transform_1 i a) (S1024x512.size a) (S15625x512.size a)).extent (S1024x512.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1024x512.size a < S15625x512.size a
  hwx0_2 : ∀ i : grid0.Coords, EltTy.bits .f32 = 32 ∨ (Rect.unit (s := S15625x512) (fun a => cc0_transform_2 i a * S1024x512.size a) (fun a => (Pipeline.Clip.of (cc0_transform_2 i a) (S1024x512.size a) (S15625x512.size a)).extent (S1024x512.size a)) fun a => Pipeline.Clip.inb (Pipeline.Clip.ok_of (hstart0_2 i a))).WholeWords (EltTy.packing .f32)
  hwxs0_2 : ∀ i : grid0.Coords, EltTy.bits .f32 = 32 ∨ (Rect.unit (s := S1024x512) (fun _ => 0) (fun a => (Pipeline.Clip.of (cc0_transform_2 i a) (S1024x512.size a) (S15625x512.size a)).extent (S1024x512.size a)) fun a => (Nat.zero_add _).trans_le (Pipeline.Clip.extent_le (Pipeline.Clip.ok_of (hstart0_2 i a)))).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S1024x512.size a < S15625x512.size a
  hwx1_0 : ∀ i : grid1.Coords, EltTy.bits .f32 = 32 ∨ (Rect.unit (s := S15625x512) (fun a => cc1_transform_0 i a * S1024x512.size a) (fun a => (Pipeline.Clip.of (cc1_transform_0 i a) (S1024x512.size a) (S15625x512.size a)).extent (S1024x512.size a)) fun a => Pipeline.Clip.inb (Pipeline.Clip.ok_of (hstart1_0 i a))).WholeWords (EltTy.packing .f32)
  hwxs1_0 : ∀ i : grid1.Coords, EltTy.bits .f32 = 32 ∨ (Rect.unit (s := S1024x512) (fun _ => 0) (fun a => (Pipeline.Clip.of (cc1_transform_0 i a) (S1024x512.size a) (S15625x512.size a)).extent (S1024x512.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S1024x512.size a < S15625x512.size a
  hwx1_1 : ∀ i : grid1.Coords, EltTy.bits .f32 = 32 ∨ (Rect.unit (s := S15625x512) (fun a => cc1_transform_1 i a * S1024x512.size a) (fun a => (Pipeline.Clip.of (cc1_transform_1 i a) (S1024x512.size a) (S15625x512.size a)).extent (S1024x512.size a)) fun a => Pipeline.Clip.inb (Pipeline.Clip.ok_of (hstart1_1 i a))).WholeWords (EltTy.packing .f32)
  hwxs1_1 : ∀ i : grid1.Coords, EltTy.bits .f32 = 32 ∨ (Rect.unit (s := S1024x512) (fun _ => 0) (fun a => (Pipeline.Clip.of (cc1_transform_1 i a) (S1024x512.size a) (S15625x512.size a)).extent (S1024x512.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1024x512.size a < S15625x512.size a
  hwx1_2 : ∀ i : grid1.Coords, EltTy.bits .f32 = 32 ∨ (Rect.unit (s := S15625x512) (fun a => cc1_transform_2 i a * S1024x512.size a) (fun a => (Pipeline.Clip.of (cc1_transform_2 i a) (S1024x512.size a) (S15625x512.size a)).extent (S1024x512.size a)) fun a => Pipeline.Clip.inb (Pipeline.Clip.ok_of (hstart1_2 i a))).WholeWords (EltTy.packing .f32)
  hwxs1_2 : ∀ i : grid1.Coords, EltTy.bits .f32 = 32 ∨ (Rect.unit (s := S1024x512) (fun _ => 0) (fun a => (Pipeline.Clip.of (cc1_transform_2 i a) (S1024x512.size a) (S15625x512.size a)).extent (S1024x512.size a)) fun a => (Nat.zero_add _).trans_le (Pipeline.Clip.extent_le (Pipeline.Clip.ok_of (hstart1_2 i a)))).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x1024.size a ≤ S1024x1024.size a
  hwx2_0 : ∀ i : grid2.Coords, EltTy.bits .f32 = 32 ∨ (Rect.block (s := S1024x1024) S256x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x1024.size a ≤ S1024x1024.size a
  hwx2_1 : ∀ i : grid2.Coords, EltTy.bits .f32 = 32 ∨ (Rect.block (s := S1024x1024) S256x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x1024.size a ≤ S1024x1024.size a
  hwx2_2 : ∀ i : grid2.Coords, EltTy.bits .f32 = 32 ∨ (Rect.block (s := S1024x1024) S256x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x1024.size a ≤ S1024x1024.size a
  hwx2_3 : ∀ i : grid2.Coords, EltTy.bits .f32 = 32 ∨ (Rect.block (s := S1024x1024) S256x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x1024.size a ≤ S1024x1024.size a
  hwx2_4 : ∀ i : grid2.Coords, EltTy.bits .f32 = 32 ∨ (Rect.block (s := S1024x1024) S256x1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S256x1024.size a ≤ S1024x1024.size a
  hwx2_5 : ∀ i : grid2.Coords, EltTy.bits .f32 = 32 ∨ (Rect.block (s := S1024x1024) S256x1024.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S256x1024.size a ≤ S1024x1024.size a
  hwx2_6 : ∀ i : grid2.Coords, EltTy.bits .f32 = 32 ∨ (Rect.block (s := S1024x1024) S256x1024.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S256x1024.size a ≤ S1024x1024.size a
  hwx2_7 : ∀ i : grid2.Coords, EltTy.bits .f32 = 32 ∨ (Rect.block (s := S1024x1024) S256x1024.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S256x1024.size a ≤ S1024x1024.size a
  hwx2_8 : ∀ i : grid2.Coords, EltTy.bits .f32 = 32 ∨ (Rect.block (s := S1024x1024) S256x1024.size (cc2_transform_8 i) (hinb2_8 i)).WholeWords (EltTy.packing .f32)

variable [Facts₀]

def gather_S1000000_S8000000x1_S8000000_n_0_n_n_0_1_1 : GatherDims S1000000 S8000000x1 S8000000 where
  offsetDims := []
  collapsedSliceDims := [0]
  operandBatchingDims := []
  startIndicesBatchingDims := []
  startIndexMap := [0]
  indexVectorDim := 1
  sliceSizes := ![1]
  wf := gather_S1000000_S8000000x1_S8000000_n_0_n_n_0_1_1_wf
def scatter_S1000000x2_S8000000x1_S8000000x2_1_0_0_1 : ScatterDims S1000000x2 S8000000x1 S8000000x2 where
  updateWindowDims := [1]
  insertedWindowDims := [0]
  scatterDimsToOperandDims := [0]
  indexVectorDim := 1
  wf := scatter_S1000000x2_S8000000x1_S8000000x2_1_0_0_1_wf

abbrev win0_0 : Pipeline.Window sig grid0 :=
  Pipeline.Window.ofSpecClip (Memref.whole main_v14) S1024x512.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v15) S1024x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v16) S1024x512.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpecClip (Memref.whole main_v18) S1024x512.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v19) S1024x512.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v20) S1024x512.size cc1_transform_2 reads1_2 true false 2 stage1_2 sem1_2
    hrank1 hreads1_2 hstart1_2 nbuf1_2 (Memref.isWhole_whole _) hwx1_2 hwxs1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S256x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v49) S256x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v51) S256x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v53) S256x1024.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v55) S256x1024.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v57) S256x1024.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v59) S256x1024.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v60) S256x1024.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S1000000 : Shape := ⟨1, ![1000000]⟩
abbrev S8000000 : Shape := ⟨1, ![8000000]⟩
abbrev S_ : Shape := ⟨0, ![]⟩
abbrev S8000000x1 : Shape := ⟨2, ![8000000, 1]⟩

abbrev nBuf : Space → Nat
  | .hbm => 85
  | .vmem => 0
  | .smem => 0
  | _ => 0

abbrev bufTy : (tb : Table) → Fin (tcTables nBuf tb) → BufTy
  | .hbm, ⟨0, _⟩ => ⟨S1000000, .f32⟩
  | .hbm, ⟨1, _⟩ => ⟨S8000000, .f32⟩
  | .hbm, ⟨2, _⟩ => ⟨S8000000, .f32⟩
  | .hbm, ⟨3, _⟩ => ⟨S1000000, .f32⟩
  | .hbm, ⟨4, _⟩ => ⟨S1000000, .f32⟩
  | .hbm, ⟨5, _⟩ => ⟨S1000000, .f32⟩
  | .hbm, ⟨6, _⟩ => ⟨S8000000, .i32⟩
  | .hbm, ⟨7, _⟩ => ⟨S8000000, .i32⟩
  | .hbm, ⟨8, _⟩ => ⟨S8000000, .i32⟩
  | .hbm, ⟨9, _⟩ => ⟨S8000000, .i32⟩
  | .hbm, ⟨10, _⟩ => ⟨S_, .i32⟩
  | .hbm, ⟨11, _⟩ => ⟨S8000000, .i32⟩
  | .hbm, ⟨12, _⟩ => ⟨S8000000, .i1⟩
  | .hbm, ⟨13, _⟩ => ⟨S_, .i32⟩
  | .hbm, ⟨14, _⟩ => ⟨S8000000, .i32⟩
  | .hbm, ⟨15, _⟩ => ⟨S8000000, .i32⟩
  | .hbm, ⟨16, _⟩ => ⟨S8000000, .i32⟩
  | .hbm, ⟨17, _⟩ => ⟨S8000000x1, .i32⟩
  | .hbm, ⟨18, _⟩ => ⟨S8000000, .f32⟩
  | .hbm, ⟨19, _⟩ => ⟨S_, .f32⟩
  | .hbm, ⟨20, _⟩ => ⟨S8000000, .f32⟩
  | .hbm, ⟨21, _⟩ => ⟨S8000000, .f32⟩
  | .hbm, ⟨22, _⟩ => ⟨S8000000, .f32⟩
  | .hbm, ⟨23, _⟩ => ⟨S_, .i32⟩
  | .hbm, ⟨24, _⟩ => ⟨S8000000, .i32⟩
  | .hbm, ⟨25, _⟩ => ⟨S8000000, .i1⟩
  | .hbm, ⟨26, _⟩ => ⟨S_, .i32⟩
  | .hbm, ⟨27, _⟩ => ⟨S8000000, .i32⟩
  | .hbm, ⟨28, _⟩ => ⟨S8000000, .i32⟩
  | .hbm, ⟨29, _⟩ => ⟨S8000000, .i32⟩
  | .hbm, ⟨30, _⟩ => ⟨S8000000x1, .i32⟩
  | .hbm, ⟨31, _⟩ => ⟨S8000000, .f32⟩
  | .hbm, ⟨32, _⟩ => ⟨S_, .f32⟩
  | .hbm, ⟨33, _⟩ => ⟨S8000000, .f32⟩
  | .hbm, ⟨34, _⟩ => ⟨S8000000, .f32⟩
  | .hbm, ⟨35, _⟩ => ⟨S8000000, .f32⟩
  | .hbm, ⟨36, _⟩ => ⟨S_, .f32⟩
  | .hbm, ⟨37, _⟩ => ⟨S1000000, .f32⟩
  | .hbm, ⟨38, _⟩ => ⟨S8000000x1, .i32⟩
  | .hbm, ⟨39, _⟩ => ⟨S1000000, .f32⟩
  | .hbm, ⟨40, _⟩ => ⟨S_, .f32⟩
  | .hbm, ⟨41, _⟩ => ⟨S1000000, .f32⟩
  | .hbm, ⟨42, _⟩ => ⟨S8000000x1, .i32⟩
  | .hbm, ⟨43, _⟩ => ⟨S1000000, .f32⟩
  | .hbm, ⟨44, _⟩ => ⟨S_, .i1⟩
  | .hbm, ⟨45, _⟩ => ⟨S1000000, .i1⟩
  | .hbm, ⟨46, _⟩ => ⟨S_, .i32⟩
  | .hbm, ⟨47, _⟩ => ⟨S8000000, .i32⟩
  | .hbm, ⟨48, _⟩ => ⟨S8000000, .i1⟩
  | .hbm, ⟨49, _⟩ => ⟨S_, .i32⟩
  | .hbm, ⟨50, _⟩ => ⟨S8000000, .i32⟩
  | .hbm, ⟨51, _⟩ => ⟨S8000000, .i32⟩
  | .hbm, ⟨52, _⟩ => ⟨S8000000, .i32⟩
  | .hbm, ⟨53, _⟩ => ⟨S8000000x1, .i32⟩
  | .hbm, ⟨54, _⟩ => ⟨S_, .i1⟩
  | .hbm, ⟨55, _⟩ => ⟨S8000000, .i1⟩
  | .hbm, ⟨56, _⟩ => ⟨S1000000, .i1⟩
  | .hbm, ⟨57, _⟩ => ⟨S_, .i1⟩
  | .hbm, ⟨58, _⟩ => ⟨S1000000, .i1⟩
  | .hbm, ⟨59, _⟩ => ⟨S_, .i32⟩
  | .hbm, ⟨60, _⟩ => ⟨S8000000, .i32⟩
  | .hbm, ⟨61, _⟩ => ⟨S8000000, .i1⟩
  | .hbm, ⟨62, _⟩ => ⟨S_, .i32⟩
  | .hbm, ⟨63, _⟩ => ⟨S8000000, .i32⟩
  | .hbm, ⟨64, _⟩ => ⟨S8000000, .i32⟩
  | .hbm, ⟨65, _⟩ => ⟨S8000000, .i32⟩
  | .hbm, ⟨66, _⟩ => ⟨S8000000x1, .i32⟩
  | .hbm, ⟨67, _⟩ => ⟨S_, .i1⟩
  | .hbm, ⟨68, _⟩ => ⟨S8000000, .i1⟩
  | .hbm, ⟨69, _⟩ => ⟨S1000000, .i1⟩
  | .hbm, ⟨70, _⟩ => ⟨S1000000, .i1⟩
  | .hbm, ⟨71, _⟩ => ⟨S_, .f32⟩
  | .hbm, ⟨72, _⟩ => ⟨S1000000, .f32⟩
  | .hbm, ⟨73, _⟩ => ⟨S1000000, .f32⟩
  | .hbm, ⟨74, _⟩ => ⟨S_, .f32⟩
  | .hbm, ⟨75, _⟩ => ⟨S1000000, .f32⟩
  | .hbm, ⟨76, _⟩ => ⟨S1000000, .f32⟩
  | .hbm, ⟨77, _⟩ => ⟨S1000000, .f32⟩
  | .hbm, ⟨78, _⟩ => ⟨S_, .f32⟩
  | .hbm, ⟨79, _⟩ => ⟨S1000000, .f32⟩
  | .hbm, ⟨80, _⟩ => ⟨S1000000, .f32⟩
  | .hbm, ⟨81, _⟩ => ⟨S1000000, .f32⟩
  | .hbm, ⟨82, _⟩ => ⟨S1000000, .f32⟩
  | .hbm, ⟨83, _⟩ => ⟨S1000000, .f32⟩
  | .hbm, ⟨84, _⟩ => ⟨S1000000, .f32⟩
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_c_7 : Ref sig .tc := ⟨.hbm, 46, rfl⟩
abbrev main_v27 : Ref sig .tc := ⟨.hbm, 47, rfl⟩
abbrev main_v28 : Ref sig .tc := ⟨.hbm, 48, rfl⟩
abbrev main_c_8 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_9 : Ref sig .tc := ⟨.hbm, 54, rfl⟩
abbrev main_v33 : Ref sig .tc := ⟨.hbm, 55, rfl⟩
abbrev main_v34 : Ref sig .tc := ⟨.hbm, 56, rfl⟩
abbrev main_c_10 : Ref sig .tc := ⟨.hbm, 57, rfl⟩
abbrev main_v35 : Ref sig .tc := ⟨.hbm, 58, rfl⟩
abbrev main_c_11 : Ref sig .tc := ⟨.hbm, 59, rfl⟩
abbrev main_v36 : Ref sig .tc := ⟨.hbm, 60, rfl⟩
abbrev main_v37 : Ref sig .tc := ⟨.hbm, 61, rfl⟩
abbrev main_c_12 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_13 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_14 : Ref sig .tc := ⟨.hbm, 71, rfl⟩
abbrev main_call0_v0 : Ref sig .tc := ⟨.hbm, 72, rfl⟩
abbrev main_v45 : Ref sig .tc := ⟨.hbm, 73, rfl⟩
abbrev main_cst_15 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_16 : Ref sig .tc := ⟨.hbm, 78, rfl⟩
abbrev main_call1_v0 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩

abbrev nD : Nat := 1
abbrev τ : Topo := Topo.v7x

variable {F : FTy → Type} [FloatOps F]

class Facts₀ : Prop where
  bcast_S_S8000000 : S_.BroadcastsInDim S8000000 (![] : Fin 0 → Fin S8000000.rank)
  bcast_S8000000_S8000000x1_0 : S8000000.BroadcastsInDim S8000000x1 (![0] : Fin 1 → Fin S8000000x1.rank)
  bcast_S_S1000000 : S_.BroadcastsInDim S1000000 (![] : Fin 0 → Fin S1000000.rank)
  gather_S1000000_S8000000x1_S8000000_n_0_n_n_0_1_1_wf : GatherDims.WF S1000000 S8000000x1 S8000000 [] [0] [] [0] [] 1 ![1]
  scatter_S1000000_S8000000x1_S8000000_n_0_0_1_wf : ScatterDims.WF S1000000 S8000000x1 S8000000 [] [0] [0] 1

variable [Facts₀]

def gather_S1000000_S8000000x1_S8000000_n_0_n_n_0_1_1 : GatherDims S1000000 S8000000x1 S8000000 where
  offsetDims := []
  collapsedSliceDims := [0]
  operandBatchingDims := []
  startIndicesBatchingDims := []
  startIndexMap := [0]
  indexVectorDim := 1
  sliceSizes := ![1]
  wf := gather_S1000000_S8000000x1_S8000000_n_0_n_n_0_1_1_wf
def scatter_S1000000_S8000000x1_S8000000_n_0_0_1 : ScatterDims S1000000 S8000000x1 S8000000 where
  updateWindowDims := []
  insertedWindowDims := [0]
  scatterDimsToOperandDims := [0]
  indexVectorDim := 1
  wf := scatter_S1000000_S8000000x1_S8000000_n_0_0_1_wf

class Facts : Prop extends Facts₀ where

variable [Facts]
-- ==== Proof.KwCommon.lean ====
/-
  What the two edge kernels compute on one pair of words, at any float instance: the gain times the square of the
  gathered state.
-/
import proofs.«135522_j14551349199581_2_alg».proof.Proof.Gen.Kernel

noncomputable section

namespace Cert.Kernel.Hand

open Idealize.ShloMosaic

variable {F : FTy → Type} [FloatOps F]

/-- One edge's contribution from its gain and gathered state, on words of any float instance. -/
def edgeW (k g : Elt F .f32) : Elt F .f32 := FloatOps.mulf k (FloatOps.mulf g g)

end Cert.Kernel.Hand

end
-- ==== Proof.KwRegion0.lean ====
/-
  Kernel region 0 (one edge list's contributions k * (g * g) over a [15625, 512] array in sixteen blocks of 1024
  rows), at any float instance and any buffer contents `V` at its entry. The last block overhangs the array: of
  its 1024 rows only 265 are inside, the transfers are cut to those, and what the staging buffers hold on the other
  rows is not determined. The proof data therefore states each staging buffer only on the rows inside the array —
  the gains' block, the gathered states' block, and rowwise the product k * (g * g) — and fills the rest with a
  fixed word that nothing reads; the body obligation is the one for windows stated on their moved part only.
-/
import proofs.«135522_j14551349199581_2_alg».proof.Proof.KwCommon
import proofs.«135522_j14551349199581_2_alg».proof.Proof.Gen.Kernel.Launch
import proofs.«135522_j14551349199581_2_alg».proof.Proof.Gen.Kernel.Skeleton
import proofs.«135522_j14551349199581_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks, inside the array -/

/-- The gains' block at point `t` as the fetch reads it: its part inside the array. -/
def kblk0 (c : Dev nD) (t : Fin cfg0.N) : (win0_0.xblock (grid0.coords t)).Idx → Elt F .f32 :=
  (win0_0.blk t).view.read (Elt F) (V c (Pipeline.arrRef spec0 0))
/-- The gathered states' block likewise (the two windows' index maps and cuts agree). -/
def gblk0 (c : Dev nD) (t : Fin cfg0.N) : (win0_0.xblock (grid0.coords t)).Idx → Elt F .f32 :=
  (win0_1.blk t).view.read (Elt F) (V c (Pipeline.arrRef spec0 1))

/-- The word the proof data puts on the rows past the array's end (nothing reads it). -/
def pad0 : S1024x512.Idx → Elt F .f32 := fun _ => Scalar.ofBits .f32 0#32

/-- The three staging buffers after the body at point `t`, on the rows inside the array. -/
def kfull0 (c : Dev nD) (t : Fin cfg0.N) : S1024x512.Idx → Elt F .f32 :=
  win0_0.fill (grid0.coords t) pad0 (kblk0 V c t)
def gfull0 (c : Dev nD) (t : Fin cfg0.N) : S1024x512.Idx → Elt F .f32 :=
  win0_0.fill (grid0.coords t) pad0 (gblk0 V c t)
def ofull0 (c : Dev nD) (t : Fin cfg0.N) : S1024x512.Idx → Elt F .f32 :=
  win0_0.fill (grid0.coords t) pad0 (fun j => edgeW (kblk0 V c t j) (gblk0 V c t j))

/-- The body's one rectangle: the whole staging block. -/
abbrev r0 : Rect S1024x512 := Rect.unit (s := S1024x512) ![0, 0] S1024x512.size inb_S1024x512_S1024x512_0_0

/-- The result's staging buffer after the body, from the two input buffers (gains, gathered states): its one store. -/
def out0 (x0 x1 : Vec F S1024x512 .f32) : Vec F S1024x512 .f32 :=
  View.canon [⟨r0, k0_pay1 (View.ld x1 r0) (View.ld x0 r0)⟩]

/-- The store covers the buffer. -/
theorem cover0 (p0 : Vec F S1024x512 .f32) (y : S1024x512.Idx) :
    ∃ pc ∈ ([⟨r0, p0⟩] : List (View.Piece (Elt F) S1024x512 .f32)), y ∈ pc.1.set :=
  View.cover_of_tiled [⟨r0, p0⟩] S1024x512.size (by rfl) y

/-- What the one store leaves, entry by entry: the product of the gain with the square of the gathered state. -/
theorem out0_apply (x0 x1 : Vec F S1024x512 .f32) (j : S1024x512.Idx) : out0 x0 x1 j = edgeW (x0 j) (x1 j) := by
  have hz : (![0, 0] : Fin 2 → Nat) = fun _ => 0 := funext fun a => by fin_cases a <;> rfl
  unfold out0
  rw [View.canon_unit_zero hz]
  simp only [View.ld_unit_zero (S := S1024x512) hz]
  unfold k0_pay1
  simp only [shapeCast_self]
  rfl

/-! ## The body's triple -/

set_option maxHeartbeats 4000000 in
/-- The body on whole staging memrefs — the two inputs' at contents `x0`, `x1`, the result's at anything — runs to the
    continuation holding the inputs' as they were and the result's at `out0 x0 x1`. -/
theorem sound_kernel0 (c : Dev nD) (E : Set ℕ) (i : grid0.Coords)
    (a1 : Memref sig .tc .vmem S1024x512 .f32) (h1 : a1.IsWhole) (a2 : Memref sig .tc .vmem S1024x512 .f32) (h2 : a2.IsWhole)
    (a3 : Memref sig .tc .vmem S1024x512 .f32) (h3 : a3.IsWhole)
    (x0 x1 : Vec F S1024x512 .f32) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1
            ∗ owns (c : Thread nD τ) a3 fullShare (out0 x0 x1)) -∗ K ⟨⟩))
      ⊢ wp frame (wpE (defs₀ (F := F)) Variants.none c none) E (cc0__edge_pow_kernel i a1 h1 a2 h2 a3 h3) K := by
  simp only [cc0__edge_pow_kernel_eq_skeleton]; unfold cc0__edge_pow_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-! ## The pipeline's proof data -/

/-- The proof data of the pipeline on core `c`: the arrays as the region finds them; after the body at point `t` the
    three staging buffers at `kfull0`, `gfull0`, `ofull0`; the invariant holds the scoped buffers no window stages and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => kfull0 V c t
    | ⟨1, _⟩ => gfull0 V c t
    | ⟨2, _⟩ => ofull0 V c t
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = kfull0 V c t := by dsimp only [dat0]
theorem after0_1 (c : Dev nD) (t : Fin cfg0.N) : (dat0 V c).after 1 t = gfull0 V c t := by dsimp only [dat0]
theorem after0_2 (c : Dev nD) (t : Fin cfg0.N) : (dat0 V c).after 2 t = ofull0 V c t := by dsimp only [dat0]

/-- What the body finds in the inputs' buffers, just fetched: the block on the rows inside the array, `d` elsewhere. -/
theorem before0_0 (c : Dev nD) (t : Fin cfg0.N) (d) :
    (dat0 V c).before (0 : Fin 3) t d = win0_0.fill (grid0.coords t) d (kblk0 V c t) :=
  ((dat0 V c).before_fetched 0 t (fetch0_0 t) d).trans (by unfold Dat.fetched Dat.blockOf kblk0; rw [A_eq0]; try rfl)
theorem before0_1 (c : Dev nD) (t : Fin cfg0.N) (d) :
    (dat0 V c).before (1 : Fin 3) t d = win0_0.fill (grid0.coords t) d (gblk0 V c t) :=
  ((dat0 V c).before_fetched 1 t (fetch0_1 t) d).trans (by unfold Dat.fetched Dat.blockOf gblk0; rw [A_eq0]; try rfl)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns: each buffer stated on the part its transfers move, anything elsewhere. -/
def bodyPost0 (c : Dev nD) (t : Fin cfg0.N) : sProp 𝕄 :=
  iprop((dat0 V c).Φ t.succ ∗ (dat0 V c).owesAt () t.succ
    ∗ (∃ d, owns (c : Thread nD τ) (st0_0 t) fullShare
        ((cfg0.win 0).fill (cfg0.grid.coords t) d ((cfg0.win 0).cut (cfg0.grid.coords t) ((dat0 V c).after 0 t))))
    ∗ (∃ d, owns (c : Thread nD τ) (st0_1 t) fullShare
        ((cfg0.win 1).fill (cfg0.grid.coords t) d ((cfg0.win 1).cut (cfg0.grid.coords t) ((dat0 V c).after 1 t))))
    ∗ (∃ d, owns (c : Thread nD τ) (st0_2 t) fullShare
        ((cfg0.win 2).fill (cfg0.grid.coords t) d ((cfg0.win 2).cut (cfg0.grid.coords t) ((dat0 V c).after 2 t)))))

set_option maxHeartbeats 4000000 in
/-- The body at any point: the inputs' buffers hold their blocks filled out past the array's end with whatever was
    there; the body stores, entry by entry, the product of the two; on the rows inside the array that is the proof
    data's block, which is all the obligation states. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  rw [before0_0 V c t d0, before0_1 V c t d1]
  iapply (sound_kernel0 c Set.univ _ _ _ _ _ _ _ (win0_0.fill (grid0.coords t) d0 (kblk0 V c t))
    (win0_0.fill (grid0.coords t) d1 (gblk0 V c t)) _)
  isplitl [H0]; · iexact H0
  isplitl [H1]; · iexact H1
  isplitl [H2]; · iexists _; iexact H2
  iintro ⟨H0, H1, H2⟩
  isplitl [HΦ]; · iexact HΦ
  isplitl [Ho]; · iexact Ho
  have hk : win0_0.cut (grid0.coords t) (kfull0 V c t) = kblk0 V c t := win0_0.cut_fill _ _ _
  have hg : win0_0.cut (grid0.coords t) (gfull0 V c t) = gblk0 V c t := win0_0.cut_fill _ _ _
  have ho : win0_0.cut (grid0.coords t) (ofull0 V c t) = fun j => edgeW (kblk0 V c t j) (gblk0 V c t j) :=
    win0_0.cut_fill _ _ _
  have hpay : out0 (win0_0.fill (grid0.coords t) d0 (kblk0 V c t)) (win0_0.fill (grid0.coords t) d1 (gblk0 V c t))
      = win0_0.fill (grid0.coords t) (fun j => edgeW (d0 j) (d1 j)) (fun j => edgeW (kblk0 V c t j) (gblk0 V c t j)) := by
    funext j; rw [out0_apply]; unfold Window.fill; split <;> rfl
  isplitl [H0]
  · iexists d0
    change _ ⊢ owns (c : Thread nD τ) (st0_0 t) fullShare (win0_0.fill (grid0.coords t) d0 (win0_0.cut (grid0.coords t) (kfull0 V c t)))
    rw [hk]; try iexact H0
  isplitl [H1]
  · iexists d1
    change _ ⊢ owns (c : Thread nD τ) (st0_1 t) fullShare (win0_0.fill (grid0.coords t) d1 (win0_0.cut (grid0.coords t) (gfull0 V c t)))
    rw [hg]; try iexact H1
  · iexists (fun j => edgeW (d0 j) (d1 j))
    change _ ⊢ owns (c : Thread nD τ) (st0_2 t) fullShare (win0_0.fill (grid0.coords t) (fun j => edgeW (d0 j) (d1 j))
      (win0_0.cut (grid0.coords t) (ofull0 V c t)))
    rw [ho, ← hpay]; try iexact H2

/-- The library's body obligation, at every point, in the form for windows stated on their moved part. -/
theorem body_obligation0 (c : Dev nD) : BodyObligationLoose (dat0 (F := F) V c) (defs₀ (F := F)) Variants.none () Set.univ := fun t => by
  rw [bigSep_W0, bigSep_W0]
  simp only
  exact sound_body0 V c t

end Cert.Kernel.Hand

end
-- ==== Proof.KwRegion1.lean ====
/-
  Kernel region 1 (one edge list's contributions k * (g * g) over a [15625, 512] array in sixteen blocks of 1024
  rows), at any float instance and any buffer contents `V` at its entry. The last block overhangs the array: of
  its 1024 rows only 265 are inside, the transfers are cut to those, and what the staging buffers hold on the other
  rows is not determined. The proof data therefore states each staging buffer only on the rows inside the array —
  the gains' block, the gathered states' block, and rowwise the product k * (g * g) — and fills the rest with a
  fixed word that nothing reads; the body obligation is the one for windows stated on their moved part only.
-/
import proofs.«135522_j14551349199581_2_alg».proof.Proof.KwCommon
import proofs.«135522_j14551349199581_2_alg».proof.Proof.Gen.Kernel.Launch
import proofs.«135522_j14551349199581_2_alg».proof.Proof.Gen.Kernel.Skeleton
import proofs.«135522_j14551349199581_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks, inside the array -/

/-- The gains' block at point `t` as the fetch reads it: its part inside the array. -/
def kblk1 (c : Dev nD) (t : Fin cfg1.N) : (win1_0.xblock (grid1.coords t)).Idx → Elt F .f32 :=
  (win1_0.blk t).view.read (Elt F) (V c (Pipeline.arrRef spec1 0))
/-- The gathered states' block likewise (the two windows' index maps and cuts agree). -/
def gblk1 (c : Dev nD) (t : Fin cfg1.N) : (win1_0.xblock (grid1.coords t)).Idx → Elt F .f32 :=
  (win1_1.blk t).view.read (Elt F) (V c (Pipeline.arrRef spec1 1))

/-- The word the proof data puts on the rows past the array's end (nothing reads it). -/
def pad1 : S1024x512.Idx → Elt F .f32 := fun _ => Scalar.ofBits .f32 0#32

/-- The three staging buffers after the body at point `t`, on the rows inside the array. -/
def kfull1 (c : Dev nD) (t : Fin cfg1.N) : S1024x512.Idx → Elt F .f32 :=
  win1_0.fill (grid1.coords t) pad1 (kblk1 V c t)
def gfull1 (c : Dev nD) (t : Fin cfg1.N) : S1024x512.Idx → Elt F .f32 :=
  win1_0.fill (grid1.coords t) pad1 (gblk1 V c t)
def ofull1 (c : Dev nD) (t : Fin cfg1.N) : S1024x512.Idx → Elt F .f32 :=
  win1_0.fill (grid1.coords t) pad1 (fun j => edgeW (kblk1 V c t j) (gblk1 V c t j))

/-- The body's one rectangle: the whole staging block. -/
abbrev r1 : Rect S1024x512 := Rect.unit (s := S1024x512) ![0, 0] S1024x512.size inb_S1024x512_S1024x512_0_0

/-- The result's staging buffer after the body, from the two input buffers (gains, gathered states): its one store. -/
def out1 (x0 x1 : Vec F S1024x512 .f32) : Vec F S1024x512 .f32 :=
  View.canon [⟨r1, k1_pay1 (View.ld x1 r1) (View.ld x0 r1)⟩]

/-- The store covers the buffer. -/
theorem cover1 (p0 : Vec F S1024x512 .f32) (y : S1024x512.Idx) :
    ∃ pc ∈ ([⟨r1, p0⟩] : List (View.Piece (Elt F) S1024x512 .f32)), y ∈ pc.1.set :=
  View.cover_of_tiled [⟨r1, p0⟩] S1024x512.size (by rfl) y

/-- What the one store leaves, entry by entry: the product of the gain with the square of the gathered state. -/
theorem out1_apply (x0 x1 : Vec F S1024x512 .f32) (j : S1024x512.Idx) : out1 x0 x1 j = edgeW (x0 j) (x1 j) := by
  have hz : (![0, 0] : Fin 2 → Nat) = fun _ => 0 := funext fun a => by fin_cases a <;> rfl
  unfold out1
  rw [View.canon_unit_zero hz]
  simp only [View.ld_unit_zero (S := S1024x512) hz]
  unfold k1_pay1
  simp only [shapeCast_self]
  rfl

/-! ## The body's triple -/

set_option maxHeartbeats 4000000 in
/-- The body on whole staging memrefs — the two inputs' at contents `x0`, `x1`, the result's at anything — runs to the
    continuation holding the inputs' as they were and the result's at `out1 x0 x1`. -/
theorem sound_kernel1 (c : Dev nD) (E : Set ℕ) (i : grid1.Coords)
    (a1 : Memref sig .tc .vmem S1024x512 .f32) (h1 : a1.IsWhole) (a2 : Memref sig .tc .vmem S1024x512 .f32) (h2 : a2.IsWhole)
    (a3 : Memref sig .tc .vmem S1024x512 .f32) (h3 : a3.IsWhole)
    (x0 x1 : Vec F S1024x512 .f32) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1
            ∗ owns (c : Thread nD τ) a3 fullShare (out1 x0 x1)) -∗ K ⟨⟩))
      ⊢ wp frame (wpE (defs₀ (F := F)) Variants.none c none) E (cc1__edge_pow_kernel i a1 h1 a2 h2 a3 h3) K := by
  simp only [cc1__edge_pow_kernel_eq_skeleton]; unfold cc1__edge_pow_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-! ## The pipeline's proof data -/

/-- The proof data of the pipeline on core `c`: the arrays as the region finds them; after the body at point `t` the
    three staging buffers at `kfull1`, `gfull1`, `ofull1`; the invariant holds the scoped buffers no window stages and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => kfull1 V c t
    | ⟨1, _⟩ => gfull1 V c t
    | ⟨2, _⟩ => ofull1 V c t
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = kfull1 V c t := by dsimp only [dat1]
theorem after1_1 (c : Dev nD) (t : Fin cfg1.N) : (dat1 V c).after 1 t = gfull1 V c t := by dsimp only [dat1]
theorem after1_2 (c : Dev nD) (t : Fin cfg1.N) : (dat1 V c).after 2 t = ofull1 V c t := by dsimp only [dat1]

/-- What the body finds in the inputs' buffers, just fetched: the block on the rows inside the array, `d` elsewhere. -/
theorem before1_0 (c : Dev nD) (t : Fin cfg1.N) (d) :
    (dat1 V c).before (0 : Fin 3) t d = win1_0.fill (grid1.coords t) d (kblk1 V c t) :=
  ((dat1 V c).before_fetched 0 t (fetch1_0 t) d).trans (by unfold Dat.fetched Dat.blockOf kblk1; rw [A_eq1]; try rfl)
theorem before1_1 (c : Dev nD) (t : Fin cfg1.N) (d) :
    (dat1 V c).before (1 : Fin 3) t d = win1_0.fill (grid1.coords t) d (gblk1 V c t) :=
  ((dat1 V c).before_fetched 1 t (fetch1_1 t) d).trans (by unfold Dat.fetched Dat.blockOf gblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: each buffer stated on the part its transfers move, anything elsewhere. -/
def bodyPost1 (c : Dev nD) (t : Fin cfg1.N) : sProp 𝕄 :=
  iprop((dat1 V c).Φ t.succ ∗ (dat1 V c).owesAt () t.succ
    ∗ (∃ d, owns (c : Thread nD τ) (st1_0 t) fullShare
        ((cfg1.win 0).fill (cfg1.grid.coords t) d ((cfg1.win 0).cut (cfg1.grid.coords t) ((dat1 V c).after 0 t))))
    ∗ (∃ d, owns (c : Thread nD τ) (st1_1 t) fullShare
        ((cfg1.win 1).fill (cfg1.grid.coords t) d ((cfg1.win 1).cut (cfg1.grid.coords t) ((dat1 V c).after 1 t))))
    ∗ (∃ d, owns (c : Thread nD τ) (st1_2 t) fullShare
        ((cfg1.win 2).fill (cfg1.grid.coords t) d ((cfg1.win 2).cut (cfg1.grid.coords t) ((dat1 V c).after 2 t)))))

set_option maxHeartbeats 4000000 in
/-- The body at any point: the inputs' buffers hold their blocks filled out past the array's end with whatever was
    there; the body stores, entry by entry, the product of the two; on the rows inside the array that is the proof
    data's block, which is all the obligation states. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  rw [before1_0 V c t d0, before1_1 V c t d1]
  iapply (sound_kernel1 c Set.univ _ _ _ _ _ _ _ (win1_0.fill (grid1.coords t) d0 (kblk1 V c t))
    (win1_0.fill (grid1.coords t) d1 (gblk1 V c t)) _)
  isplitl [H0]; · iexact H0
  isplitl [H1]; · iexact H1
  isplitl [H2]; · iexists _; iexact H2
  iintro ⟨H0, H1, H2⟩
  isplitl [HΦ]; · iexact HΦ
  isplitl [Ho]; · iexact Ho
  have hk : win1_0.cut (grid1.coords t) (kfull1 V c t) = kblk1 V c t := win1_0.cut_fill _ _ _
  have hg : win1_0.cut (grid1.coords t) (gfull1 V c t) = gblk1 V c t := win1_0.cut_fill _ _ _
  have ho : win1_0.cut (grid1.coords t) (ofull1 V c t) = fun j => edgeW (kblk1 V c t j) (gblk1 V c t j) :=
    win1_0.cut_fill _ _ _
  have hpay : out1 (win1_0.fill (grid1.coords t) d0 (kblk1 V c t)) (win1_0.fill (grid1.coords t) d1 (gblk1 V c t))
      = win1_0.fill (grid1.coords t) (fun j => edgeW (d0 j) (d1 j)) (fun j => edgeW (kblk1 V c t j) (gblk1 V c t j)) := by
    funext j; rw [out1_apply]; unfold Window.fill; split <;> rfl
  isplitl [H0]
  · iexists d0
    change _ ⊢ owns (c : Thread nD τ) (st1_0 t) fullShare (win1_0.fill (grid1.coords t) d0 (win1_0.cut (grid1.coords t) (kfull1 V c t)))
    rw [hk]; try iexact H0
  isplitl [H1]
  · iexists d1
    change _ ⊢ owns (c : Thread nD τ) (st1_1 t) fullShare (win1_0.fill (grid1.coords t) d1 (win1_0.cut (grid1.coords t) (gfull1 V c t)))
    rw [hg]; try iexact H1
  · iexists (fun j => edgeW (d0 j) (d1 j))
    change _ ⊢ owns (c : Thread nD τ) (st1_2 t) fullShare (win1_0.fill (grid1.coords t) (fun j => edgeW (d0 j) (d1 j))
      (win1_0.cut (grid1.coords t) (ofull1 V c t)))
    rw [ho, ← hpay]; try iexact H2

/-- The library's body obligation, at every point, in the form for windows stated on their moved part. -/
theorem body_obligation1 (c : Dev nD) : BodyObligationLoose (dat1 (F := F) V c) (defs₀ (F := F)) Variants.none () Set.univ := fun t => by
  rw [bigSep_W1, bigSep_W1]
  simp only
  exact sound_body1 V c t

end Cert.Kernel.Hand

end
-- ==== Proof.KwRegion2.lean ====
/-
  The third kernel region (the per-node combine over eight [1024, 1024] arrays in four blocks of 256 rows), at any
  float instance and any buffer contents `V` at its entry: each window's block at a grid point, what the body
  leaves in the result's staging buffer (one whole store of the body's arithmetic on the eight whole loads), the
  body's triple, the pipeline's proof data and its body obligation at every point. No window is cut (256 divides
  1024), every input is fetched at every point and the result is written back at every point.
-/
import proofs.«135522_j14551349199581_2_alg».proof.Proof.Gen.Kernel.Launch
import proofs.«135522_j14551349199581_2_alg».proof.Proof.Gen.Kernel.Skeleton
import proofs.«135522_j14551349199581_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The body's one rectangle: the whole staging block. -/
abbrev r2 : Rect S256x1024 := Rect.unit (s := S256x1024) ![0, 0] S256x1024.size inb_S256x1024_S256x1024_0_0

/-- The result's staging buffer after the body, from the eight input blocks (in window order: x, nu, decay, growth,
    the two sums, the two counts): its one store. -/
def out2 (x0 x1 x2 x3 x4 x5 x6 x7 : Vec F S256x1024 .f32) : Vec F S256x1024 .f32 :=
  View.canon [⟨r2, k2_pay1 (View.ld x4 r2) (View.ld x5 r2) (View.ld x6 r2) (View.ld x7 r2) (View.ld x1 r2) (View.ld x2 r2)
    (View.ld x0 r2) (View.ld x3 r2)⟩]

/-- The store covers the buffer. -/
theorem cover2 (p0 : Vec F S256x1024 .f32) (y : S256x1024.Idx) :
    ∃ pc ∈ ([⟨r2, p0⟩] : List (View.Piece (Elt F) S256x1024 .f32)), y ∈ pc.1.set :=
  View.cover_of_tiled [⟨r2, p0⟩] S256x1024.size (by rfl) y

/-! ## The body's triple -/

set_option maxHeartbeats 4000000 in
/-- The body on whole staging memrefs — the eight inputs' at contents `x0 … x7`, the result's at anything — runs to
    the continuation holding the inputs' as they were and the result's at `out2` of them. -/
theorem sound_kernel2 (c : Dev nD) (E : Set ℕ) (i : grid2.Coords)
    (a1 : Memref sig .tc .vmem S256x1024 .f32) (h1 : a1.IsWhole) (a2 : Memref sig .tc .vmem S256x1024 .f32) (h2 : a2.IsWhole)
    (a3 : Memref sig .tc .vmem S256x1024 .f32) (h3 : a3.IsWhole) (a4 : Memref sig .tc .vmem S256x1024 .f32) (h4 : a4.IsWhole)
    (a5 : Memref sig .tc .vmem S256x1024 .f32) (h5 : a5.IsWhole) (a6 : Memref sig .tc .vmem S256x1024 .f32) (h6 : a6.IsWhole)
    (a7 : Memref sig .tc .vmem S256x1024 .f32) (h7 : a7.IsWhole) (a8 : Memref sig .tc .vmem S256x1024 .f32) (h8 : a8.IsWhole)
    (a9 : Memref sig .tc .vmem S256x1024 .f32) (h9 : a9.IsWhole)
    (x0 x1 x2 x3 x4 x5 x6 x7 : Vec F S256x1024 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ owns (c : Thread nD τ) a8 fullShare x7 ∗ (∃ d, owns (c : Thread nD τ) a9 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare x6 ∗ owns (c : Thread nD τ) a8 fullShare x7
            ∗ owns (c : Thread nD τ) a9 fullShare (out2 x0 x1 x2 x3 x4 x5 x6 x7)) -∗ K ⟨⟩))
      ⊢ wp frame (wpE (defs₀ (F := F)) Variants.none c none) E (cc2__combine_kernel i a1 h1 a2 h2 a3 h3 a4 h4 a5 h5 a6 h6 a7 h7 a8 h8 a9 h9) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2 _)

/-! ## The pipeline's proof data -/

/-- The proof data of the pipeline on core `c`: the arrays as the region finds them; after the body at point `t`
    each input's buffer at its block and the result's at `out2` of the eight input blocks; the invariant holds the
    scoped buffers no window stages and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2 (iblk2 V c 0 t) (iblk2 V c 1 t) (iblk2 V c 2 t) (iblk2 V c 3 t) (iblk2 V c 4 t) (iblk2 V c 5 t)
        (iblk2 V c 6 t) (iblk2 V c 7 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t
    = out2 (iblk2 V c 0 t) (iblk2 V c 1 t) (iblk2 V c 2 t) (iblk2 V c 3 t) (iblk2 V c 4 t) (iblk2 V c 5 t) (iblk2 V c 6 t) (iblk2 V c 7 t) := by
  dsimp only [dat2]

/-- Each input's current staging buffer holds its block at every point: it is fetched at every point, and an uncut
    window's fetch fills the whole buffer with the block. -/
theorem before2_0 (c : Dev nD) (t : Fin cfg2.N) (d) : (dat2 V c).before 0 t d = iblk2 V c 0 t :=
  ((dat2 V c).before_fetched 0 t (fetch2_0 t) d).trans (by unfold Dat.fetched Dat.blockOf iblk2; rw [A_eq2]; try rfl)
theorem before2_1 (c : Dev nD) (t : Fin cfg2.N) (d) : (dat2 V c).before 1 t d = iblk2 V c 1 t :=
  ((dat2 V c).before_fetched 1 t (fetch2_1 t) d).trans (by unfold Dat.fetched Dat.blockOf iblk2; rw [A_eq2]; try rfl)
theorem before2_2 (c : Dev nD) (t : Fin cfg2.N) (d) : (dat2 V c).before 2 t d = iblk2 V c 2 t :=
  ((dat2 V c).before_fetched 2 t (fetch2_2 t) d).trans (by unfold Dat.fetched Dat.blockOf iblk2; rw [A_eq2]; try rfl)
theorem before2_3 (c : Dev nD) (t : Fin cfg2.N) (d) : (dat2 V c).before 3 t d = iblk2 V c 3 t :=
  ((dat2 V c).before_fetched 3 t (fetch2_3 t) d).trans (by unfold Dat.fetched Dat.blockOf iblk2; rw [A_eq2]; try rfl)
theorem before2_4 (c : Dev nD) (t : Fin cfg2.N) (d) : (dat2 V c).before 4 t d = iblk2 V c 4 t :=
  ((dat2 V c).before_fetched 4 t (fetch2_4 t) d).trans (by unfold Dat.fetched Dat.blockOf iblk2; rw [A_eq2]; try rfl)
theorem before2_5 (c : Dev nD) (t : Fin cfg2.N) (d) : (dat2 V c).before 5 t d = iblk2 V c 5 t :=
  ((dat2 V c).before_fetched 5 t (fetch2_5 t) d).trans (by unfold Dat.fetched Dat.blockOf iblk2; rw [A_eq2]; try rfl)
theorem before2_6 (c : Dev nD) (t : Fin cfg2.N) (d) : (dat2 V c).before 6 t d = iblk2 V c 6 t :=
  ((dat2 V c).before_fetched 6 t (fetch2_6 t) d).trans (by unfold Dat.fetched Dat.blockOf iblk2; rw [A_eq2]; try rfl)
theorem before2_7 (c : Dev nD) (t : Fin cfg2.N) (d) : (dat2 V c).before 7 t d = iblk2 V c 7 t :=
  ((dat2 V c).before_fetched 7 t (fetch2_7 t) d).trans (by unfold Dat.fetched Dat.blockOf iblk2; rw [A_eq2]; try rfl)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

set_option maxHeartbeats 4000000 in
/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t)
    (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KwFrame.lean ====
/-
  The kernel program's run, assembled. Between the items of @main (stretches of host operations and the three kernel
  regions) each core holds every unscoped buffer at a valuation: the launch contents, then each host stretch applied,
  and at each region the result array replaced by what the region's write-backs leave (the pipeline's final array).
  The three regions are segments entered from and left at these valuations; the conditional frame of the generated
  module then gives the run: every weakly fair execution terminates with the arguments as launched.
-/
import proofs.«135522_j14551349199581_2_alg».proof.Proof.KwRegion0
import proofs.«135522_j14551349199581_2_alg».proof.Proof.KwRegion1
import proofs.«135522_j14551349199581_2_alg».proof.Proof.KwRegion2
import proofs.«135522_j14551349199581_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- A valuation read at the TensorCore's references (what a region's proof data take). -/
abbrev tcOf (W : Dev nD → Valuation τ sig (Elt F)) : (c : Dev nD) → (b : Ref sig .tc) → Buf (Elt F) ((c : Thread nD τ).loc b) :=
  fun c b => W c b

/-- Before region 0: the launch contents after the first host stretch. -/
abbrev U1 (c : Dev nD) : Valuation τ sig (Elt F) := Gen.V1 m c
/-- What region 0 leaves in its result array. -/
def o16 (c : Dev nD) : Buf (Elt F) ((c : Thread nD τ).loc main_v16) := (dat0 (tcOf (U1 m)) c).arrAt 2 cfg0.N
/-- After region 0. -/
abbrev U2 (c : Dev nD) : Valuation τ sig (Elt F) := Function.update (U1 m c) main_v16 (o16 m c)
/-- Before region 1. -/
abbrev U3 (c : Dev nD) : Valuation τ sig (Elt F) := StableHlo.after hostOps1 (U2 m c)
/-- What region 1 leaves in its result array. -/
def o20 (c : Dev nD) : Buf (Elt F) ((c : Thread nD τ).loc main_v20) := (dat1 (tcOf (U3 m)) c).arrAt 2 cfg1.N
/-- After region 1. -/
abbrev U4 (c : Dev nD) : Valuation τ sig (Elt F) := Function.update (U3 m c) main_v20 (o20 m c)
/-- Before region 2: the seventeen host stretches between the second and third region applied in order. -/
abbrev U21 (c : Dev nD) : Valuation τ sig (Elt F) :=
  StableHlo.after hostOps2_16 (StableHlo.after hostOps2_15 (StableHlo.after hostOps2_14 (StableHlo.after hostOps2_13
    (StableHlo.after hostOps2_12 (StableHlo.after hostOps2_11 (StableHlo.after hostOps2_10 (StableHlo.after hostOps2_9
    (StableHlo.after hostOps2_8 (StableHlo.after hostOps2_7 (StableHlo.after hostOps2_6 (StableHlo.after hostOps2_5
    (StableHlo.after hostOps2_4 (StableHlo.after hostOps2_3 (StableHlo.after hostOps2_2 (StableHlo.after hostOps2_1
    (StableHlo.after hostOps2 (U4 m c)))))))))))))))))
/-- What region 2 leaves in its result array. -/
def o60 (c : Dev nD) : Buf (Elt F) ((c : Thread nD τ).loc main_v60) := (dat2 (tcOf (U21 m)) c).arrAt 8 cfg2.N
/-- After region 2. -/
abbrev U22 (c : Dev nD) : Valuation τ sig (Elt F) := Function.update (U21 m c) main_v60 (o60 m c)

/-- What the regions leave, as the generated valuations ask for it: after a region, the whole valuation after it. -/
def outsH : Outs (F := F) := fun J r c =>
  match J with
  | 2 => U2 m c r
  | 4 => U4 m c r
  | 22 => U22 m c r
  | _ => U1 m c r

/-- The generated valuations at these contents are the ones above. -/
theorem V2_eq (c : Dev nD) : Gen.V2 m (outsH m) c = U2 m c := by
  show Function.update (U1 m c) main_v16 (Function.update (U1 m c) main_v16 (o16 m c) main_v16) = _
  rw [Function.update_self]
theorem V3_eq (c : Dev nD) : Gen.V3 m (outsH m) c = U3 m c := by
  show StableHlo.after hostOps1 (Gen.V2 m (outsH m) c) = _
  rw [V2_eq]
theorem V4_eq (c : Dev nD) : Gen.V4 m (outsH m) c = U4 m c := by
  show Function.update (Gen.V3 m (outsH m) c) main_v20 (Function.update (U3 m c) main_v20 (o20 m c) main_v20) = _
  rw [V3_eq, Function.update_self]
theorem V21_eq (c : Dev nD) : Gen.V21 m (outsH m) c = U21 m c := by
  show StableHlo.after hostOps2_16 (StableHlo.after hostOps2_15 (StableHlo.after hostOps2_14 (StableHlo.after hostOps2_13
    (StableHlo.after hostOps2_12 (StableHlo.after hostOps2_11 (StableHlo.after hostOps2_10 (StableHlo.after hostOps2_9
    (StableHlo.after hostOps2_8 (StableHlo.after hostOps2_7 (StableHlo.after hostOps2_6 (StableHlo.after hostOps2_5
    (StableHlo.after hostOps2_4 (StableHlo.after hostOps2_3 (StableHlo.after hostOps2_2 (StableHlo.after hostOps2_1
    (StableHlo.after hostOps2 (Gen.V4 m (outsH m) c))))))))))))))))) = _
  rw [V4_eq]
theorem V22_eq (c : Dev nD) : Gen.V22 m (outsH m) c = U22 m c := by
  show Function.update (Gen.V21 m (outsH m) c) main_v60 (Function.update (U21 m c) main_v60 (o60 m c) main_v60) = _
  rw [V21_eq, Function.update_self]

/-! ## The proof data family and the thread state -/

/-- Every pipeline's proof data, each at its region's entry contents (a literal match on the pipeline's index). -/
def pdatsH : (p : Fin 3) → (c : Dev nD) → Dat τ (Elt F) Unit ℕ (UR sig nD τ) ℕ (cfgs p) c
  | ⟨0, _⟩ => fun c => dat0 (tcOf (U1 m)) c
  | ⟨1, _⟩ => fun c => dat1 (tcOf (U3 m)) c
  | ⟨2, _⟩ => fun c => dat2 (tcOf (U21 m)) c

/-- No core owes another anything: no level is assigned. -/
abbrev LH : GSem nD τ sig → Finset Unit := fun _ => ∅
abbrev lvH : GSem nD τ sig → Unit → ℕ := fun _ _ => 0

/-- What rides beside the buffers through every segment: the generator register at some state, and nothing owed. -/
abbrev RH (c : Dev nD) : sProp 𝕄 := iprop((∃ r, prngReg c r) ∗ ∃ W, owes (c : Thread nD τ) (0 : CellTallies nD τ sig Unit) W)

/-- The body obligations in the form the regions' records take. -/
theorem hbody0 (c : Dev nD) : BodyObligationLoose (pdatsH m 0 c) (defs₀ (F := F)) Variants.none () Set.univ :=
  body_obligation0 (tcOf (U1 m)) c
theorem hbody1 (c : Dev nD) : BodyObligationLoose (pdatsH m 1 c) (defs₀ (F := F)) Variants.none () Set.univ :=
  body_obligation1 (tcOf (U3 m)) c
theorem hbody2 (c : Dev nD) : BodyObligationLoose (pdatsH m 2 c) (defs₀ (F := F)) Variants.none () Set.univ :=
  (body_obligation2 (tcOf (U21 m)) c).loose

/-! ## Each region's arrays at its exit: the inputs as entered, the result at what the write-backs leave -/

theorem hF0 (c : Dev nD) : ∀ w : Fin cfg0.W, (pdatsH m 0 c).arrAt w cfg0.N = tcOf (U2 m) c (Pipeline.arrRef spec0 w)
  | ⟨0, _⟩ => ((dat0 (tcOf (U1 m)) c).arrAt_in 0 rfl _).trans ((A_eq0 (tcOf (U1 m)) c 0).trans
      (Function.update_of_ne (StableHlo.devRef_ne_of_ne (by decide)) _ _).symm)
  | ⟨1, _⟩ => ((dat0 (tcOf (U1 m)) c).arrAt_in 1 rfl _).trans ((A_eq0 (tcOf (U1 m)) c 1).trans
      (Function.update_of_ne (StableHlo.devRef_ne_of_ne (by decide)) _ _).symm)
  | ⟨2, _⟩ => by show _ = Function.update (U1 m c) main_v16 (o16 m c) main_v16; rw [Function.update_self]; rfl
theorem hrest0 (c : Dev nD) : ∀ b, b ∉ Finset.univ.image (Pipeline.arrRef spec0) → tcOf (U2 m) c b = tcOf (U1 m) c b :=
  fun b hb => Function.update_of_ne (StableHlo.devRef_ne_of_ne fun e => hb (Finset.mem_image.mpr ⟨2, Finset.mem_univ _, e.symm⟩)) _ _

theorem hF1 (c : Dev nD) : ∀ w : Fin cfg1.W, (pdatsH m 1 c).arrAt w cfg1.N = tcOf (U4 m) c (Pipeline.arrRef spec1 w)
  | ⟨0, _⟩ => ((dat1 (tcOf (U3 m)) c).arrAt_in 0 rfl _).trans ((A_eq1 (tcOf (U3 m)) c 0).trans
      (Function.update_of_ne (StableHlo.devRef_ne_of_ne (by decide)) _ _).symm)
  | ⟨1, _⟩ => ((dat1 (tcOf (U3 m)) c).arrAt_in 1 rfl _).trans ((A_eq1 (tcOf (U3 m)) c 1).trans
      (Function.update_of_ne (StableHlo.devRef_ne_of_ne (by decide)) _ _).symm)
  | ⟨2, _⟩ => by show _ = Function.update (U3 m c) main_v20 (o20 m c) main_v20; rw [Function.update_self]; rfl
theorem hrest1 (c : Dev nD) : ∀ b, b ∉ Finset.univ.image (Pipeline.arrRef spec1) → tcOf (U4 m) c b = tcOf (U3 m) c b :=
  fun b hb => Function.update_of_ne (StableHlo.devRef_ne_of_ne fun e => hb (Finset.mem_image.mpr ⟨2, Finset.mem_univ _, e.symm⟩)) _ _

set_option maxHeartbeats 4000000 in
theorem hF2 (c : Dev nD) : ∀ w : Fin cfg2.W, (pdatsH m 2 c).arrAt w cfg2.N = tcOf (U22 m) c (Pipeline.arrRef spec2 w)
  | ⟨0, _⟩ => ((dat2 (tcOf (U21 m)) c).arrAt_in 0 rfl _).trans ((A_eq2 (tcOf (U21 m)) c 0).trans
      (Function.update_of_ne (StableHlo.devRef_ne_of_ne (by decide)) _ _).symm)
  | ⟨1, _⟩ => ((dat2 (tcOf (U21 m)) c).arrAt_in 1 rfl _).trans ((A_eq2 (tcOf (U21 m)) c 1).trans
      (Function.update_of_ne (StableHlo.devRef_ne_of_ne (by decide)) _ _).symm)
  | ⟨2, _⟩ => ((dat2 (tcOf (U21 m)) c).arrAt_in 2 rfl _).trans ((A_eq2 (tcOf (U21 m)) c 2).trans
      (Function.update_of_ne (StableHlo.devRef_ne_of_ne (by decide)) _ _).symm)
  | ⟨3, _⟩ => ((dat2 (tcOf (U21 m)) c).arrAt_in 3 rfl _).trans ((A_eq2 (tcOf (U21 m)) c 3).trans
      (Function.update_of_ne (StableHlo.devRef_ne_of_ne (by decide)) _ _).symm)
  | ⟨4, _⟩ => ((dat2 (tcOf (U21 m)) c).arrAt_in 4 rfl _).trans ((A_eq2 (tcOf (U21 m)) c 4).trans
      (Function.update_of_ne (StableHlo.devRef_ne_of_ne (by decide)) _ _).symm)
  | ⟨5, _⟩ => ((dat2 (tcOf (U21 m)) c).arrAt_in 5 rfl _).trans ((A_eq2 (tcOf (U21 m)) c 5).trans
      (Function.update_of_ne (StableHlo.devRef_ne_of_ne (by decide)) _ _).symm)
  | ⟨6, _⟩ => ((dat2 (tcOf (U21 m)) c).arrAt_in 6 rfl _).trans ((A_eq2 (tcOf (U21 m)) c 6).trans
      (Function.update_of_ne (StableHlo.devRef_ne_of_ne (by decide)) _ _).symm)
  | ⟨7, _⟩ => ((dat2 (tcOf (U21 m)) c).arrAt_in 7 rfl _).trans ((A_eq2 (tcOf (U21 m)) c 7).trans
      (Function.update_of_ne (StableHlo.devRef_ne_of_ne (by decide)) _ _).symm)
  | ⟨8, _⟩ => by show _ = Function.update (U21 m c) main_v60 (o60 m c) main_v60; rw [Function.update_self]; rfl
theorem hrest2 (c : Dev nD) : ∀ b, b ∉ Finset.univ.image (Pipeline.arrRef spec2) → tcOf (U22 m) c b = tcOf (U21 m) c b :=
  fun b hb => Function.update_of_ne (StableHlo.devRef_ne_of_ne fun e => hb (Finset.mem_image.mpr ⟨8, Finset.mem_univ _, e.symm⟩)) _ _

/-! ## The regions as segments -/

-- a library lemma stated over the pinned configuration unifies with the printed one only when unification may unfold
-- plain definitions in a metavariable's type
set_option backward.isDefEq.respectTransparency.types false in
/-- Region 0 over the thread state: entered from every unscoped buffer at `U1`, left at `U2`. Its arrays are split
    out of the unscoped buffers at entry and put back at their exit contents; the generator register goes into the
    pipeline's invariant and comes back; nothing is owed; the kernel has no semaphore of its own. -/
def reg0 : Pipeline.RegionSeg (pcfgs (F := F)) adm (pdatsH m) () defs₀ Variants.none LH lvH 0 where
  win := launch0.win.to₀
  block_pos := launch0.block_pos
  stage_whole := launch0.stage_whole
  K := PEmpty
  osem k := k.elim
  ho := Pipeline.OwnSemFacts.none _
  hbody c := hbody0 m c
  hwaits := Pipeline.hwaits_of_owed_zero _ _ _ _ LH lvH 0 fun _ _ => rfl
  pre c := iprop(StableHlo.held (c : Thread nD τ) (Pipeline.ucRefs τ sig) (U1 m c) ∗ RH c)
  post c := iprop(StableHlo.held (c : Thread nD τ) (Pipeline.ucRefs τ sig) (U2 m c) ∗ RH c)
  X c := iprop(∃ r, prngReg c r)
  Y c := iprop(∃ r, prngReg c r)
  Z c := Pipeline.unscopedRest (Ix := Unit) (Name := ℕ) (U := UR sig nD τ) (Lvl := ℕ) spec0 c (tcOf (U1 m) c)
  hentry c := by
    rw [Pipeline.ownSems0_none]
    have hsplit := Pipeline.arrays_of_unscopedBufs (p := 0) (pcfgs (F := F)) adm (pdatsH m) launch0.win launch0.arr_whole c
      ((pdatsH m 0 c).share_full fun _ => rfl) (tcOf (U1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m) ((pdatsH m 0 c).share_full fun _ => rfl)
      (tcOf (U1 m) c) (tcOf (U2 m) c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `U3`, left at `U4`. Its arrays are split
    out of the unscoped buffers at entry and put back at their exit contents; the generator register goes into the
    pipeline's invariant and comes back; nothing is owed; the kernel has no semaphore of its own. -/
def reg1 : Pipeline.RegionSeg (pcfgs (F := F)) adm (pdatsH m) () defs₀ Variants.none LH lvH 1 where
  win := launch1.win.to₀
  block_pos := launch1.block_pos
  stage_whole := launch1.stage_whole
  K := PEmpty
  osem k := k.elim
  ho := Pipeline.OwnSemFacts.none _
  hbody c := hbody1 m c
  hwaits := Pipeline.hwaits_of_owed_zero _ _ _ _ LH lvH 1 fun _ _ => rfl
  pre c := iprop(StableHlo.held (c : Thread nD τ) (Pipeline.ucRefs τ sig) (U3 m c) ∗ RH c)
  post c := iprop(StableHlo.held (c : Thread nD τ) (Pipeline.ucRefs τ sig) (U4 m c) ∗ RH c)
  X c := iprop(∃ r, prngReg c r)
  Y c := iprop(∃ r, prngReg c r)
  Z c := Pipeline.unscopedRest (Ix := Unit) (Name := ℕ) (U := UR sig nD τ) (Lvl := ℕ) spec1 c (tcOf (U3 m) c)
  hentry c := by
    rw [Pipeline.ownSems0_none]
    have hsplit := Pipeline.arrays_of_unscopedBufs (p := 1) (pcfgs (F := F)) adm (pdatsH m) launch1.win launch1.arr_whole c
      ((pdatsH m 1 c).share_full fun _ => rfl) (tcOf (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m) ((pdatsH m 1 c).share_full fun _ => rfl)
      (tcOf (U3 m) c) (tcOf (U4 m) c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at `U21`, left at `U22`. Its arrays are split
    out of the unscoped buffers at entry and put back at their exit contents; the generator register goes into the
    pipeline's invariant and comes back; nothing is owed; the kernel has no semaphore of its own. -/
def reg2 : Pipeline.RegionSeg (pcfgs (F := F)) adm (pdatsH m) () defs₀ Variants.none LH lvH 2 where
  win := launch2.win.to₀
  block_pos := launch2.block_pos
  stage_whole := launch2.stage_whole
  K := PEmpty
  osem k := k.elim
  ho := Pipeline.OwnSemFacts.none _
  hbody c := hbody2 m c
  hwaits := Pipeline.hwaits_of_owed_zero _ _ _ _ LH lvH 2 fun _ _ => rfl
  pre c := iprop(StableHlo.held (c : Thread nD τ) (Pipeline.ucRefs τ sig) (U21 m c) ∗ RH c)
  post c := iprop(StableHlo.held (c : Thread nD τ) (Pipeline.ucRefs τ sig) (U22 m c) ∗ RH c)
  X c := iprop(∃ r, prngReg c r)
  Y c := iprop(∃ r, prngReg c r)
  Z c := Pipeline.unscopedRest (Ix := Unit) (Name := ℕ) (U := UR sig nD τ) (Lvl := ℕ) spec2 c (tcOf (U21 m) c)
  hentry c := by
    rw [Pipeline.ownSems0_none]
    have hsplit := Pipeline.arrays_of_unscopedBufs (p := 2) (pcfgs (F := F)) adm (pdatsH m) launch2.win launch2.arr_whole c
      ((pdatsH m 2 c).share_full fun _ => rfl) (tcOf (U21 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdatsH m) ((pdatsH m 2 c).share_full fun _ => rfl)
      (tcOf (U21 m) c) (tcOf (U22 m) c) ((pdatsH m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

variable (ρ : Dev nD → PrngReg)

/-- The launch's ghost element: every staging cell's owner at round 0 and a duty token per transfer. -/
abbrev u0H : UR sig nD τ := initOf (Pipeline.cells cfgs cellOf_inj) (Pipeline.launchToks cfgs cellOf_inj)

/-- The launch element is the pipelines' and nothing else is needed per core. -/
theorem hu0H : (ownU u0H : sProp 𝕄) ⊢ |={Set.univ}=> iprop(BI.own (emb₁ (initOf (Pipeline.cells cfgs cellOf_inj)
    (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- One core's share of the launch makes what rides beside its buffers: its generator register, and nothing owed. -/
theorem rest_of_launch (c : Dev nD) :
    (iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)) : sProp 𝕄) ⊢ RH c := by
  iintro ⟨-, HO, -, Hp, -⟩
  isplitl [Hp]; · iexists _; iexact Hp
  iexists ∅; iexact HO

/-- The launch makes the rest state on every core at once. -/
theorem hE0H : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts LH lvH)
      ⊢ (|={Set.univ}=> bigSep Finset.univ (fun c : Dev nD => RH c) : sProp 𝕄) := by
  have hall : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
      ⊢ (bigSep Finset.univ (fun c : Dev nD => RH c) : sProp 𝕄) := bigSep_mono fun c _ => rest_of_launch ρ c
  iintro ⟨H, -⟩
  imodintro
  iapply hall
  iexact H

/-- The rest state ends owing nothing. -/
theorem hE3H (c : Dev nD) : RH c ⊢ (iprop(∃ W, owes (c : Thread nD τ) (0 : CellTallies nD τ sig Unit) W) : sProp 𝕄) := by
  iintro ⟨-, HO⟩; iexact HO

-- the conditional frame's implicit arguments are found by unifying its conclusion with this one
set_option backward.isDefEq.respectTransparency.types false in
/-- THE FRAME, at any float instance: from any memory with zero counters every weakly fair execution of @main
    terminates, nothing faulting, with each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Gen.frame_cond m emb₁ () Variants.none LH lvH (fun _ _ => rfl) ρ (outsH m) (pdatsH m) 0 (fun _ => iprop(emp)) u0H hu0H
    (fun _ c => RH c) (hE0H ρ) hE3H
    (reg0 m) (fun c => .rfl) (fun c => by rw [V2_eq]; exact .rfl)
    (reg1 m) (fun c => by rw [V3_eq]; exact .rfl) (fun c => by rw [V4_eq]; exact .rfl)
    (reg2 m) (fun c => by rw [V21_eq]; exact .rfl) (fun c => by rw [V22_eq]; exact .rfl)

end Cert.Kernel.Hand

end
-- ==== Proof.KiCommon.lean ====
/-
  What the two edge kernels compute on one pair of words, at any float instance: the gain times the square of the
  gathered state.
-/
import proofs.«135522_j14551349199581_2_alg».proof.Proof.Gen.KernelIdeal

noncomputable section

namespace Cert.KernelIdeal.Hand

open Idealize.ShloMosaic

variable {F : FTy → Type} [FloatOps F]

/-- One edge's contribution from its gain and gathered state, on words of any float instance. -/
def edgeW (k g : Elt F .f32) : Elt F .f32 := FloatOps.mulf k (FloatOps.mulf g g)

end Cert.KernelIdeal.Hand

end
-- ==== Proof.KiRegion0.lean ====
/-
  Kernel region 0 (one edge list's contributions k * (g * g) over a [15625, 512] array in sixteen blocks of 1024
  rows), at any float instance and any buffer contents `V` at its entry. The last block overhangs the array: of
  its 1024 rows only 265 are inside, the transfers are cut to those, and what the staging buffers hold on the other
  rows is not determined. The proof data therefore states each staging buffer only on the rows inside the array —
  the gains' block, the gathered states' block, and rowwise the product k * (g * g) — and fills the rest with a
  fixed word that nothing reads; the body obligation is the one for windows stated on their moved part only.
-/
import proofs.«135522_j14551349199581_2_alg».proof.Proof.KiCommon
import proofs.«135522_j14551349199581_2_alg».proof.Proof.Gen.KernelIdeal.Launch
import proofs.«135522_j14551349199581_2_alg».proof.Proof.Gen.KernelIdeal.Skeleton
import proofs.«135522_j14551349199581_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks, inside the array -/

/-- The gains' block at point `t` as the fetch reads it: its part inside the array. -/
def kblk0 (c : Dev nD) (t : Fin cfg0.N) : (win0_0.xblock (grid0.coords t)).Idx → Elt F .f32 :=
  (win0_0.blk t).view.read (Elt F) (V c (Pipeline.arrRef spec0 0))
/-- The gathered states' block likewise (the two windows' index maps and cuts agree). -/
def gblk0 (c : Dev nD) (t : Fin cfg0.N) : (win0_0.xblock (grid0.coords t)).Idx → Elt F .f32 :=
  (win0_1.blk t).view.read (Elt F) (V c (Pipeline.arrRef spec0 1))

/-- The word the proof data puts on the rows past the array's end (nothing reads it). -/
def pad0 : S1024x512.Idx → Elt F .f32 := fun _ => Scalar.ofBits .f32 0#32

/-- The three staging buffers after the body at point `t`, on the rows inside the array. -/
def kfull0 (c : Dev nD) (t : Fin cfg0.N) : S1024x512.Idx → Elt F .f32 :=
  win0_0.fill (grid0.coords t) pad0 (kblk0 V c t)
def gfull0 (c : Dev nD) (t : Fin cfg0.N) : S1024x512.Idx → Elt F .f32 :=
  win0_0.fill (grid0.coords t) pad0 (gblk0 V c t)
def ofull0 (c : Dev nD) (t : Fin cfg0.N) : S1024x512.Idx → Elt F .f32 :=
  win0_0.fill (grid0.coords t) pad0 (fun j => edgeW (kblk0 V c t j) (gblk0 V c t j))

/-- The body's one rectangle: the whole staging block. -/
abbrev r0 : Rect S1024x512 := Rect.unit (s := S1024x512) ![0, 0] S1024x512.size inb_S1024x512_S1024x512_0_0

/-- The result's staging buffer after the body, from the two input buffers (gains, gathered states): its one store. -/
def out0 (x0 x1 : Vec F S1024x512 .f32) : Vec F S1024x512 .f32 :=
  View.canon [⟨r0, k0_pay1 (View.ld x1 r0) (View.ld x0 r0)⟩]

/-- The store covers the buffer. -/
theorem cover0 (p0 : Vec F S1024x512 .f32) (y : S1024x512.Idx) :
    ∃ pc ∈ ([⟨r0, p0⟩] : List (View.Piece (Elt F) S1024x512 .f32)), y ∈ pc.1.set :=
  View.cover_of_tiled [⟨r0, p0⟩] S1024x512.size (by rfl) y

/-- What the one store leaves, entry by entry: the product of the gain with the square of the gathered state. -/
theorem out0_apply (x0 x1 : Vec F S1024x512 .f32) (j : S1024x512.Idx) : out0 x0 x1 j = edgeW (x0 j) (x1 j) := by
  have hz : (![0, 0] : Fin 2 → Nat) = fun _ => 0 := funext fun a => by fin_cases a <;> rfl
  unfold out0
  rw [View.canon_unit_zero hz]
  simp only [View.ld_unit_zero (S := S1024x512) hz]
  unfold k0_pay1
  simp only [shapeCast_self]
  rfl

/-! ## The body's triple -/

set_option maxHeartbeats 4000000 in
/-- The body on whole staging memrefs — the two inputs' at contents `x0`, `x1`, the result's at anything — runs to the
    continuation holding the inputs' as they were and the result's at `out0 x0 x1`. -/
theorem sound_kernel0 (c : Dev nD) (E : Set ℕ) (i : grid0.Coords)
    (a1 : Memref sig .tc .vmem S1024x512 .f32) (h1 : a1.IsWhole) (a2 : Memref sig .tc .vmem S1024x512 .f32) (h2 : a2.IsWhole)
    (a3 : Memref sig .tc .vmem S1024x512 .f32) (h3 : a3.IsWhole)
    (x0 x1 : Vec F S1024x512 .f32) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1
            ∗ owns (c : Thread nD τ) a3 fullShare (out0 x0 x1)) -∗ K ⟨⟩))
      ⊢ wp frame (wpE (defs₀ (F := F)) Variants.none c none) E (cc0__edge_pow_kernel i a1 h1 a2 h2 a3 h3) K := by
  simp only [cc0__edge_pow_kernel_eq_skeleton]; unfold cc0__edge_pow_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-! ## The pipeline's proof data -/

/-- The proof data of the pipeline on core `c`: the arrays as the region finds them; after the body at point `t` the
    three staging buffers at `kfull0`, `gfull0`, `ofull0`; the invariant holds the scoped buffers no window stages and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => kfull0 V c t
    | ⟨1, _⟩ => gfull0 V c t
    | ⟨2, _⟩ => ofull0 V c t
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = kfull0 V c t := by dsimp only [dat0]
theorem after0_1 (c : Dev nD) (t : Fin cfg0.N) : (dat0 V c).after 1 t = gfull0 V c t := by dsimp only [dat0]
theorem after0_2 (c : Dev nD) (t : Fin cfg0.N) : (dat0 V c).after 2 t = ofull0 V c t := by dsimp only [dat0]

/-- What the body finds in the inputs' buffers, just fetched: the block on the rows inside the array, `d` elsewhere. -/
theorem before0_0 (c : Dev nD) (t : Fin cfg0.N) (d) :
    (dat0 V c).before (0 : Fin 3) t d = win0_0.fill (grid0.coords t) d (kblk0 V c t) :=
  ((dat0 V c).before_fetched 0 t (fetch0_0 t) d).trans (by unfold Dat.fetched Dat.blockOf kblk0; rw [A_eq0]; try rfl)
theorem before0_1 (c : Dev nD) (t : Fin cfg0.N) (d) :
    (dat0 V c).before (1 : Fin 3) t d = win0_0.fill (grid0.coords t) d (gblk0 V c t) :=
  ((dat0 V c).before_fetched 1 t (fetch0_1 t) d).trans (by unfold Dat.fetched Dat.blockOf gblk0; rw [A_eq0]; try rfl)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns: each buffer stated on the part its transfers move, anything elsewhere. -/
def bodyPost0 (c : Dev nD) (t : Fin cfg0.N) : sProp 𝕄 :=
  iprop((dat0 V c).Φ t.succ ∗ (dat0 V c).owesAt () t.succ
    ∗ (∃ d, owns (c : Thread nD τ) (st0_0 t) fullShare
        ((cfg0.win 0).fill (cfg0.grid.coords t) d ((cfg0.win 0).cut (cfg0.grid.coords t) ((dat0 V c).after 0 t))))
    ∗ (∃ d, owns (c : Thread nD τ) (st0_1 t) fullShare
        ((cfg0.win 1).fill (cfg0.grid.coords t) d ((cfg0.win 1).cut (cfg0.grid.coords t) ((dat0 V c).after 1 t))))
    ∗ (∃ d, owns (c : Thread nD τ) (st0_2 t) fullShare
        ((cfg0.win 2).fill (cfg0.grid.coords t) d ((cfg0.win 2).cut (cfg0.grid.coords t) ((dat0 V c).after 2 t)))))

set_option maxHeartbeats 4000000 in
/-- The body at any point: the inputs' buffers hold their blocks filled out past the array's end with whatever was
    there; the body stores, entry by entry, the product of the two; on the rows inside the array that is the proof
    data's block, which is all the obligation states. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  rw [before0_0 V c t d0, before0_1 V c t d1]
  iapply (sound_kernel0 c Set.univ _ _ _ _ _ _ _ (win0_0.fill (grid0.coords t) d0 (kblk0 V c t))
    (win0_0.fill (grid0.coords t) d1 (gblk0 V c t)) _)
  isplitl [H0]; · iexact H0
  isplitl [H1]; · iexact H1
  isplitl [H2]; · iexists _; iexact H2
  iintro ⟨H0, H1, H2⟩
  isplitl [HΦ]; · iexact HΦ
  isplitl [Ho]; · iexact Ho
  have hk : win0_0.cut (grid0.coords t) (kfull0 V c t) = kblk0 V c t := win0_0.cut_fill _ _ _
  have hg : win0_0.cut (grid0.coords t) (gfull0 V c t) = gblk0 V c t := win0_0.cut_fill _ _ _
  have ho : win0_0.cut (grid0.coords t) (ofull0 V c t) = fun j => edgeW (kblk0 V c t j) (gblk0 V c t j) :=
    win0_0.cut_fill _ _ _
  have hpay : out0 (win0_0.fill (grid0.coords t) d0 (kblk0 V c t)) (win0_0.fill (grid0.coords t) d1 (gblk0 V c t))
      = win0_0.fill (grid0.coords t) (fun j => edgeW (d0 j) (d1 j)) (fun j => edgeW (kblk0 V c t j) (gblk0 V c t j)) := by
    funext j; rw [out0_apply]; unfold Window.fill; split <;> rfl
  isplitl [H0]
  · iexists d0
    change _ ⊢ owns (c : Thread nD τ) (st0_0 t) fullShare (win0_0.fill (grid0.coords t) d0 (win0_0.cut (grid0.coords t) (kfull0 V c t)))
    rw [hk]; try iexact H0
  isplitl [H1]
  · iexists d1
    change _ ⊢ owns (c : Thread nD τ) (st0_1 t) fullShare (win0_0.fill (grid0.coords t) d1 (win0_0.cut (grid0.coords t) (gfull0 V c t)))
    rw [hg]; try iexact H1
  · iexists (fun j => edgeW (d0 j) (d1 j))
    change _ ⊢ owns (c : Thread nD τ) (st0_2 t) fullShare (win0_0.fill (grid0.coords t) (fun j => edgeW (d0 j) (d1 j))
      (win0_0.cut (grid0.coords t) (ofull0 V c t)))
    rw [ho, ← hpay]; try iexact H2

/-- The library's body obligation, at every point, in the form for windows stated on their moved part. -/
theorem body_obligation0 (c : Dev nD) : BodyObligationLoose (dat0 (F := F) V c) (defs₀ (F := F)) Variants.none () Set.univ := fun t => by
  rw [bigSep_W0, bigSep_W0]
  simp only
  exact sound_body0 V c t

end Cert.KernelIdeal.Hand

end
-- ==== Proof.KiRegion1.lean ====
/-
  Kernel region 1 (one edge list's contributions k * (g * g) over a [15625, 512] array in sixteen blocks of 1024
  rows), at any float instance and any buffer contents `V` at its entry. The last block overhangs the array: of
  its 1024 rows only 265 are inside, the transfers are cut to those, and what the staging buffers hold on the other
  rows is not determined. The proof data therefore states each staging buffer only on the rows inside the array —
  the gains' block, the gathered states' block, and rowwise the product k * (g * g) — and fills the rest with a
  fixed word that nothing reads; the body obligation is the one for windows stated on their moved part only.
-/
import proofs.«135522_j14551349199581_2_alg».proof.Proof.KiCommon
import proofs.«135522_j14551349199581_2_alg».proof.Proof.Gen.KernelIdeal.Launch
import proofs.«135522_j14551349199581_2_alg».proof.Proof.Gen.KernelIdeal.Skeleton
import proofs.«135522_j14551349199581_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks, inside the array -/

/-- The gains' block at point `t` as the fetch reads it: its part inside the array. -/
def kblk1 (c : Dev nD) (t : Fin cfg1.N) : (win1_0.xblock (grid1.coords t)).Idx → Elt F .f32 :=
  (win1_0.blk t).view.read (Elt F) (V c (Pipeline.arrRef spec1 0))
/-- The gathered states' block likewise (the two windows' index maps and cuts agree). -/
def gblk1 (c : Dev nD) (t : Fin cfg1.N) : (win1_0.xblock (grid1.coords t)).Idx → Elt F .f32 :=
  (win1_1.blk t).view.read (Elt F) (V c (Pipeline.arrRef spec1 1))

/-- The word the proof data puts on the rows past the array's end (nothing reads it). -/
def pad1 : S1024x512.Idx → Elt F .f32 := fun _ => Scalar.ofBits .f32 0#32

/-- The three staging buffers after the body at point `t`, on the rows inside the array. -/
def kfull1 (c : Dev nD) (t : Fin cfg1.N) : S1024x512.Idx → Elt F .f32 :=
  win1_0.fill (grid1.coords t) pad1 (kblk1 V c t)
def gfull1 (c : Dev nD) (t : Fin cfg1.N) : S1024x512.Idx → Elt F .f32 :=
  win1_0.fill (grid1.coords t) pad1 (gblk1 V c t)
def ofull1 (c : Dev nD) (t : Fin cfg1.N) : S1024x512.Idx → Elt F .f32 :=
  win1_0.fill (grid1.coords t) pad1 (fun j => edgeW (kblk1 V c t j) (gblk1 V c t j))

/-- The body's one rectangle: the whole staging block. -/
abbrev r1 : Rect S1024x512 := Rect.unit (s := S1024x512) ![0, 0] S1024x512.size inb_S1024x512_S1024x512_0_0

/-- The result's staging buffer after the body, from the two input buffers (gains, gathered states): its one store. -/
def out1 (x0 x1 : Vec F S1024x512 .f32) : Vec F S1024x512 .f32 :=
  View.canon [⟨r1, k1_pay1 (View.ld x1 r1) (View.ld x0 r1)⟩]

/-- The store covers the buffer. -/
theorem cover1 (p0 : Vec F S1024x512 .f32) (y : S1024x512.Idx) :
    ∃ pc ∈ ([⟨r1, p0⟩] : List (View.Piece (Elt F) S1024x512 .f32)), y ∈ pc.1.set :=
  View.cover_of_tiled [⟨r1, p0⟩] S1024x512.size (by rfl) y

/-- What the one store leaves, entry by entry: the product of the gain with the square of the gathered state. -/
theorem out1_apply (x0 x1 : Vec F S1024x512 .f32) (j : S1024x512.Idx) : out1 x0 x1 j = edgeW (x0 j) (x1 j) := by
  have hz : (![0, 0] : Fin 2 → Nat) = fun _ => 0 := funext fun a => by fin_cases a <;> rfl
  unfold out1
  rw [View.canon_unit_zero hz]
  simp only [View.ld_unit_zero (S := S1024x512) hz]
  unfold k1_pay1
  simp only [shapeCast_self]
  rfl

/-! ## The body's triple -/

set_option maxHeartbeats 4000000 in
/-- The body on whole staging memrefs — the two inputs' at contents `x0`, `x1`, the result's at anything — runs to the
    continuation holding the inputs' as they were and the result's at `out1 x0 x1`. -/
theorem sound_kernel1 (c : Dev nD) (E : Set ℕ) (i : grid1.Coords)
    (a1 : Memref sig .tc .vmem S1024x512 .f32) (h1 : a1.IsWhole) (a2 : Memref sig .tc .vmem S1024x512 .f32) (h2 : a2.IsWhole)
    (a3 : Memref sig .tc .vmem S1024x512 .f32) (h3 : a3.IsWhole)
    (x0 x1 : Vec F S1024x512 .f32) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1
            ∗ owns (c : Thread nD τ) a3 fullShare (out1 x0 x1)) -∗ K ⟨⟩))
      ⊢ wp frame (wpE (defs₀ (F := F)) Variants.none c none) E (cc1__edge_pow_kernel i a1 h1 a2 h2 a3 h3) K := by
  simp only [cc1__edge_pow_kernel_eq_skeleton]; unfold cc1__edge_pow_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-! ## The pipeline's proof data -/

/-- The proof data of the pipeline on core `c`: the arrays as the region finds them; after the body at point `t` the
    three staging buffers at `kfull1`, `gfull1`, `ofull1`; the invariant holds the scoped buffers no window stages and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => kfull1 V c t
    | ⟨1, _⟩ => gfull1 V c t
    | ⟨2, _⟩ => ofull1 V c t
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = kfull1 V c t := by dsimp only [dat1]
theorem after1_1 (c : Dev nD) (t : Fin cfg1.N) : (dat1 V c).after 1 t = gfull1 V c t := by dsimp only [dat1]
theorem after1_2 (c : Dev nD) (t : Fin cfg1.N) : (dat1 V c).after 2 t = ofull1 V c t := by dsimp only [dat1]

/-- What the body finds in the inputs' buffers, just fetched: the block on the rows inside the array, `d` elsewhere. -/
theorem before1_0 (c : Dev nD) (t : Fin cfg1.N) (d) :
    (dat1 V c).before (0 : Fin 3) t d = win1_0.fill (grid1.coords t) d (kblk1 V c t) :=
  ((dat1 V c).before_fetched 0 t (fetch1_0 t) d).trans (by unfold Dat.fetched Dat.blockOf kblk1; rw [A_eq1]; try rfl)
theorem before1_1 (c : Dev nD) (t : Fin cfg1.N) (d) :
    (dat1 V c).before (1 : Fin 3) t d = win1_0.fill (grid1.coords t) d (gblk1 V c t) :=
  ((dat1 V c).before_fetched 1 t (fetch1_1 t) d).trans (by unfold Dat.fetched Dat.blockOf gblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: each buffer stated on the part its transfers move, anything elsewhere. -/
def bodyPost1 (c : Dev nD) (t : Fin cfg1.N) : sProp 𝕄 :=
  iprop((dat1 V c).Φ t.succ ∗ (dat1 V c).owesAt () t.succ
    ∗ (∃ d, owns (c : Thread nD τ) (st1_0 t) fullShare
        ((cfg1.win 0).fill (cfg1.grid.coords t) d ((cfg1.win 0).cut (cfg1.grid.coords t) ((dat1 V c).after 0 t))))
    ∗ (∃ d, owns (c : Thread nD τ) (st1_1 t) fullShare
        ((cfg1.win 1).fill (cfg1.grid.coords t) d ((cfg1.win 1).cut (cfg1.grid.coords t) ((dat1 V c).after 1 t))))
    ∗ (∃ d, owns (c : Thread nD τ) (st1_2 t) fullShare
        ((cfg1.win 2).fill (cfg1.grid.coords t) d ((cfg1.win 2).cut (cfg1.grid.coords t) ((dat1 V c).after 2 t)))))

set_option maxHeartbeats 4000000 in
/-- The body at any point: the inputs' buffers hold their blocks filled out past the array's end with whatever was
    there; the body stores, entry by entry, the product of the two; on the rows inside the array that is the proof
    data's block, which is all the obligation states. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  rw [before1_0 V c t d0, before1_1 V c t d1]
  iapply (sound_kernel1 c Set.univ _ _ _ _ _ _ _ (win1_0.fill (grid1.coords t) d0 (kblk1 V c t))
    (win1_0.fill (grid1.coords t) d1 (gblk1 V c t)) _)
  isplitl [H0]; · iexact H0
  isplitl [H1]; · iexact H1
  isplitl [H2]; · iexists _; iexact H2
  iintro ⟨H0, H1, H2⟩
  isplitl [HΦ]; · iexact HΦ
  isplitl [Ho]; · iexact Ho
  have hk : win1_0.cut (grid1.coords t) (kfull1 V c t) = kblk1 V c t := win1_0.cut_fill _ _ _
  have hg : win1_0.cut (grid1.coords t) (gfull1 V c t) = gblk1 V c t := win1_0.cut_fill _ _ _
  have ho : win1_0.cut (grid1.coords t) (ofull1 V c t) = fun j => edgeW (kblk1 V c t j) (gblk1 V c t j) :=
    win1_0.cut_fill _ _ _
  have hpay : out1 (win1_0.fill (grid1.coords t) d0 (kblk1 V c t)) (win1_0.fill (grid1.coords t) d1 (gblk1 V c t))
      = win1_0.fill (grid1.coords t) (fun j => edgeW (d0 j) (d1 j)) (fun j => edgeW (kblk1 V c t j) (gblk1 V c t j)) := by
    funext j; rw [out1_apply]; unfold Window.fill; split <;> rfl
  isplitl [H0]
  · iexists d0
    change _ ⊢ owns (c : Thread nD τ) (st1_0 t) fullShare (win1_0.fill (grid1.coords t) d0 (win1_0.cut (grid1.coords t) (kfull1 V c t)))
    rw [hk]; try iexact H0
  isplitl [H1]
  · iexists d1
    change _ ⊢ owns (c : Thread nD τ) (st1_1 t) fullShare (win1_0.fill (grid1.coords t) d1 (win1_0.cut (grid1.coords t) (gfull1 V c t)))
    rw [hg]; try iexact H1
  · iexists (fun j => edgeW (d0 j) (d1 j))
    change _ ⊢ owns (c : Thread nD τ) (st1_2 t) fullShare (win1_0.fill (grid1.coords t) (fun j => edgeW (d0 j) (d1 j))
      (win1_0.cut (grid1.coords t) (ofull1 V c t)))
    rw [ho, ← hpay]; try iexact H2

/-- The library's body obligation, at every point, in the form for windows stated on their moved part. -/
theorem body_obligation1 (c : Dev nD) : BodyObligationLoose (dat1 (F := F) V c) (defs₀ (F := F)) Variants.none () Set.univ := fun t => by
  rw [bigSep_W1, bigSep_W1]
  simp only
  exact sound_body1 V c t

end Cert.KernelIdeal.Hand

end
-- ==== Proof.KiRegion2.lean ====
/-
  The third kernel region (the per-node combine over eight [1024, 1024] arrays in four blocks of 256 rows), at any
  float instance and any buffer contents `V` at its entry: each window's block at a grid point, what the body
  leaves in the result's staging buffer (one whole store of the body's arithmetic on the eight whole loads), the
  body's triple, the pipeline's proof data and its body obligation at every point. No window is cut (256 divides
  1024), every input is fetched at every point and the result is written back at every point.
-/
import proofs.«135522_j14551349199581_2_alg».proof.Proof.Gen.KernelIdeal.Launch
import proofs.«135522_j14551349199581_2_alg».proof.Proof.Gen.KernelIdeal.Skeleton
import proofs.«135522_j14551349199581_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The body's one rectangle: the whole staging block. -/
abbrev r2 : Rect S256x1024 := Rect.unit (s := S256x1024) ![0, 0] S256x1024.size inb_S256x1024_S256x1024_0_0

/-- The result's staging buffer after the body, from the eight input blocks (in window order: x, nu, decay, growth,
    the two sums, the two counts): its one store. -/
def out2 (x0 x1 x2 x3 x4 x5 x6 x7 : Vec F S256x1024 .f32) : Vec F S256x1024 .f32 :=
  View.canon [⟨r2, k2_pay1 (View.ld x4 r2) (View.ld x5 r2) (View.ld x6 r2) (View.ld x7 r2) (View.ld x1 r2) (View.ld x2 r2)
    (View.ld x0 r2) (View.ld x3 r2)⟩]

/-- The store covers the buffer. -/
theorem cover2 (p0 : Vec F S256x1024 .f32) (y : S256x1024.Idx) :
    ∃ pc ∈ ([⟨r2, p0⟩] : List (View.Piece (Elt F) S256x1024 .f32)), y ∈ pc.1.set :=
  View.cover_of_tiled [⟨r2, p0⟩] S256x1024.size (by rfl) y

/-! ## The body's triple -/

set_option maxHeartbeats 4000000 in
/-- The body on whole staging memrefs — the eight inputs' at contents `x0 … x7`, the result's at anything — runs to
    the continuation holding the inputs' as they were and the result's at `out2` of them. -/
theorem sound_kernel2 (c : Dev nD) (E : Set ℕ) (i : grid2.Coords)
    (a1 : Memref sig .tc .vmem S256x1024 .f32) (h1 : a1.IsWhole) (a2 : Memref sig .tc .vmem S256x1024 .f32) (h2 : a2.IsWhole)
    (a3 : Memref sig .tc .vmem S256x1024 .f32) (h3 : a3.IsWhole) (a4 : Memref sig .tc .vmem S256x1024 .f32) (h4 : a4.IsWhole)
    (a5 : Memref sig .tc .vmem S256x1024 .f32) (h5 : a5.IsWhole) (a6 : Memref sig .tc .vmem S256x1024 .f32) (h6 : a6.IsWhole)
    (a7 : Memref sig .tc .vmem S256x1024 .f32) (h7 : a7.IsWhole) (a8 : Memref sig .tc .vmem S256x1024 .f32) (h8 : a8.IsWhole)
    (a9 : Memref sig .tc .vmem S256x1024 .f32) (h9 : a9.IsWhole)
    (x0 x1 x2 x3 x4 x5 x6 x7 : Vec F S256x1024 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ owns (c : Thread nD τ) a8 fullShare x7 ∗ (∃ d, owns (c : Thread nD τ) a9 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare x6 ∗ owns (c : Thread nD τ) a8 fullShare x7
            ∗ owns (c : Thread nD τ) a9 fullShare (out2 x0 x1 x2 x3 x4 x5 x6 x7)) -∗ K ⟨⟩))
      ⊢ wp frame (wpE (defs₀ (F := F)) Variants.none c none) E (cc2__combine_kernel i a1 h1 a2 h2 a3 h3 a4 h4 a5 h5 a6 h6 a7 h7 a8 h8 a9 h9) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2 _)

/-! ## The pipeline's proof data -/

/-- The proof data of the pipeline on core `c`: the arrays as the region finds them; after the body at point `t`
    each input's buffer at its block and the result's at `out2` of the eight input blocks; the invariant holds the
    scoped buffers no window stages and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2 (iblk2 V c 0 t) (iblk2 V c 1 t) (iblk2 V c 2 t) (iblk2 V c 3 t) (iblk2 V c 4 t) (iblk2 V c 5 t)
        (iblk2 V c 6 t) (iblk2 V c 7 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t
    = out2 (iblk2 V c 0 t) (iblk2 V c 1 t) (iblk2 V c 2 t) (iblk2 V c 3 t) (iblk2 V c 4 t) (iblk2 V c 5 t) (iblk2 V c 6 t) (iblk2 V c 7 t) := by
  dsimp only [dat2]

/-- Each input's current staging buffer holds its block at every point: it is fetched at every point, and an uncut
    window's fetch fills the whole buffer with the block. -/
theorem before2_0 (c : Dev nD) (t : Fin cfg2.N) (d) : (dat2 V c).before 0 t d = iblk2 V c 0 t :=
  ((dat2 V c).before_fetched 0 t (fetch2_0 t) d).trans (by unfold Dat.fetched Dat.blockOf iblk2; rw [A_eq2]; try rfl)
theorem before2_1 (c : Dev nD) (t : Fin cfg2.N) (d) : (dat2 V c).before 1 t d = iblk2 V c 1 t :=
  ((dat2 V c).before_fetched 1 t (fetch2_1 t) d).trans (by unfold Dat.fetched Dat.blockOf iblk2; rw [A_eq2]; try rfl)
theorem before2_2 (c : Dev nD) (t : Fin cfg2.N) (d) : (dat2 V c).before 2 t d = iblk2 V c 2 t :=
  ((dat2 V c).before_fetched 2 t (fetch2_2 t) d).trans (by unfold Dat.fetched Dat.blockOf iblk2; rw [A_eq2]; try rfl)
theorem before2_3 (c : Dev nD) (t : Fin cfg2.N) (d) : (dat2 V c).before 3 t d = iblk2 V c 3 t :=
  ((dat2 V c).before_fetched 3 t (fetch2_3 t) d).trans (by unfold Dat.fetched Dat.blockOf iblk2; rw [A_eq2]; try rfl)
theorem before2_4 (c : Dev nD) (t : Fin cfg2.N) (d) : (dat2 V c).before 4 t d = iblk2 V c 4 t :=
  ((dat2 V c).before_fetched 4 t (fetch2_4 t) d).trans (by unfold Dat.fetched Dat.blockOf iblk2; rw [A_eq2]; try rfl)
theorem before2_5 (c : Dev nD) (t : Fin cfg2.N) (d) : (dat2 V c).before 5 t d = iblk2 V c 5 t :=
  ((dat2 V c).before_fetched 5 t (fetch2_5 t) d).trans (by unfold Dat.fetched Dat.blockOf iblk2; rw [A_eq2]; try rfl)
theorem before2_6 (c : Dev nD) (t : Fin cfg2.N) (d) : (dat2 V c).before 6 t d = iblk2 V c 6 t :=
  ((dat2 V c).before_fetched 6 t (fetch2_6 t) d).trans (by unfold Dat.fetched Dat.blockOf iblk2; rw [A_eq2]; try rfl)
theorem before2_7 (c : Dev nD) (t : Fin cfg2.N) (d) : (dat2 V c).before 7 t d = iblk2 V c 7 t :=
  ((dat2 V c).before_fetched 7 t (fetch2_7 t) d).trans (by unfold Dat.fetched Dat.blockOf iblk2; rw [A_eq2]; try rfl)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

set_option maxHeartbeats 4000000 in
/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t)
    (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KiFrame.lean ====
/-
  The kernel program's run, assembled. Between the items of @main (stretches of host operations and the three kernel
  regions) each core holds every unscoped buffer at a valuation: the launch contents, then each host stretch applied,
  and at each region the result array replaced by what the region's write-backs leave (the pipeline's final array).
  The three regions are segments entered from and left at these valuations; the conditional frame of the generated
  module then gives the run: every weakly fair execution terminates with the arguments as launched and the result
  buffer at the last valuation.
-/
import proofs.«135522_j14551349199581_2_alg».proof.Proof.KiRegion0
import proofs.«135522_j14551349199581_2_alg».proof.Proof.KiRegion1
import proofs.«135522_j14551349199581_2_alg».proof.Proof.KiRegion2
import proofs.«135522_j14551349199581_2_alg».proof.Proof.Gen.KernelIdeal.Regions
import proofs.«135522_j14551349199581_2_alg».proof.Proof.KiFrameValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- A valuation read at the TensorCore's references (what a region's proof data take). -/
abbrev tcOf (W : Dev nD → Valuation τ sig (Elt F)) : (c : Dev nD) → (b : Ref sig .tc) → Buf (Elt F) ((c : Thread nD τ).loc b) :=
  fun c b => W c b

/-- Before region 0: the launch contents after the first host stretch. -/
abbrev U1 (c : Dev nD) : Valuation τ sig (Elt F) := Gen.V1 m c
/-- What region 0 leaves in its result array. -/
def o16 (c : Dev nD) : Buf (Elt F) ((c : Thread nD τ).loc main_v16) := (dat0 (tcOf (U1 m)) c).arrAt 2 cfg0.N
/-- After region 0. -/
abbrev U2 (c : Dev nD) : Valuation τ sig (Elt F) := Function.update (U1 m c) main_v16 (o16 m c)
/-- Before region 1. -/
abbrev U3 (c : Dev nD) : Valuation τ sig (Elt F) := StableHlo.after hostOps1 (U2 m c)
/-- What region 1 leaves in its result array. -/
def o20 (c : Dev nD) : Buf (Elt F) ((c : Thread nD τ).loc main_v20) := (dat1 (tcOf (U3 m)) c).arrAt 2 cfg1.N
/-- After region 1. -/
abbrev U4 (c : Dev nD) : Valuation τ sig (Elt F) := Function.update (U3 m c) main_v20 (o20 m c)
/-- Before region 2: the seventeen host stretches between the second and third region applied in order. -/
abbrev U21 (c : Dev nD) : Valuation τ sig (Elt F) :=
  StableHlo.after hostOps2_16 (StableHlo.after hostOps2_15 (StableHlo.after hostOps2_14 (StableHlo.after hostOps2_13
    (StableHlo.after hostOps2_12 (StableHlo.after hostOps2_11 (StableHlo.after hostOps2_10 (StableHlo.after hostOps2_9
    (StableHlo.after hostOps2_8 (StableHlo.after hostOps2_7 (StableHlo.after hostOps2_6 (StableHlo.after hostOps2_5
    (StableHlo.after hostOps2_4 (StableHlo.after hostOps2_3 (StableHlo.after hostOps2_2 (StableHlo.after hostOps2_1
    (StableHlo.after hostOps2 (U4 m c)))))))))))))))))
/-- What region 2 leaves in its result array. -/
def o60 (c : Dev nD) : Buf (Elt F) ((c : Thread nD τ).loc main_v60) := (dat2 (tcOf (U21 m)) c).arrAt 8 cfg2.N
/-- After region 2. -/
abbrev U22 (c : Dev nD) : Valuation τ sig (Elt F) := Function.update (U21 m c) main_v60 (o60 m c)

/-- What the regions leave, as the generated valuations ask for it: after a region, the whole valuation after it. -/
def outsH : Outs (F := F) := fun J r c =>
  match J with
  | 2 => U2 m c r
  | 4 => U4 m c r
  | 22 => U22 m c r
  | _ => U1 m c r

/-- The generated valuations at these contents are the ones above. -/
theorem V2_eq (c : Dev nD) : Gen.V2 m (outsH m) c = U2 m c := by
  show Function.update (U1 m c) main_v16 (Function.update (U1 m c) main_v16 (o16 m c) main_v16) = _
  rw [Function.update_self]
theorem V3_eq (c : Dev nD) : Gen.V3 m (outsH m) c = U3 m c := by
  show StableHlo.after hostOps1 (Gen.V2 m (outsH m) c) = _
  rw [V2_eq]
theorem V4_eq (c : Dev nD) : Gen.V4 m (outsH m) c = U4 m c := by
  show Function.update (Gen.V3 m (outsH m) c) main_v20 (Function.update (U3 m c) main_v20 (o20 m c) main_v20) = _
  rw [V3_eq, Function.update_self]
theorem V21_eq (c : Dev nD) : Gen.V21 m (outsH m) c = U21 m c := by
  show StableHlo.after hostOps2_16 (StableHlo.after hostOps2_15 (StableHlo.after hostOps2_14 (StableHlo.after hostOps2_13
    (StableHlo.after hostOps2_12 (StableHlo.after hostOps2_11 (StableHlo.after hostOps2_10 (StableHlo.after hostOps2_9
    (StableHlo.after hostOps2_8 (StableHlo.after hostOps2_7 (StableHlo.after hostOps2_6 (StableHlo.after hostOps2_5
    (StableHlo.after hostOps2_4 (StableHlo.after hostOps2_3 (StableHlo.after hostOps2_2 (StableHlo.after hostOps2_1
    (StableHlo.after hostOps2 (Gen.V4 m (outsH m) c))))))))))))))))) = _
  rw [V4_eq]
theorem V22_eq (c : Dev nD) : Gen.V22 m (outsH m) c = U22 m c := by
  show Function.update (Gen.V21 m (outsH m) c) main_v60 (Function.update (U21 m c) main_v60 (o60 m c) main_v60) = _
  rw [V21_eq, Function.update_self]

/-! ## The proof data family and the thread state -/

/-- Every pipeline's proof data, each at its region's entry contents (a literal match on the pipeline's index). -/
def pdatsH : (p : Fin 3) → (c : Dev nD) → Dat τ (Elt F) Unit ℕ (UR sig nD τ) ℕ (cfgs p) c
  | ⟨0, _⟩ => fun c => dat0 (tcOf (U1 m)) c
  | ⟨1, _⟩ => fun c => dat1 (tcOf (U3 m)) c
  | ⟨2, _⟩ => fun c => dat2 (tcOf (U21 m)) c

/-- No core owes another anything: no level is assigned. -/
abbrev LH : GSem nD τ sig → Finset Unit := fun _ => ∅
abbrev lvH : GSem nD τ sig → Unit → ℕ := fun _ _ => 0

/-- What rides beside the buffers through every segment: the generator register at some state, and nothing owed. -/
abbrev RH (c : Dev nD) : sProp 𝕄 := iprop((∃ r, prngReg c r) ∗ ∃ W, owes (c : Thread nD τ) (0 : CellTallies nD τ sig Unit) W)

/-- The body obligations in the form the regions' records take. -/
theorem hbody0 (c : Dev nD) : BodyObligationLoose (pdatsH m 0 c) (defs₀ (F := F)) Variants.none () Set.univ :=
  body_obligation0 (tcOf (U1 m)) c
theorem hbody1 (c : Dev nD) : BodyObligationLoose (pdatsH m 1 c) (defs₀ (F := F)) Variants.none () Set.univ :=
  body_obligation1 (tcOf (U3 m)) c
theorem hbody2 (c : Dev nD) : BodyObligationLoose (pdatsH m 2 c) (defs₀ (F := F)) Variants.none () Set.univ :=
  (body_obligation2 (tcOf (U21 m)) c).loose

/-! ## Each region's arrays at its exit: the inputs as entered, the result at what the write-backs leave -/

theorem hF0 (c : Dev nD) : ∀ w : Fin cfg0.W, (pdatsH m 0 c).arrAt w cfg0.N = tcOf (U2 m) c (Pipeline.arrRef spec0 w)
  | ⟨0, _⟩ => ((dat0 (tcOf (U1 m)) c).arrAt_in 0 rfl _).trans ((A_eq0 (tcOf (U1 m)) c 0).trans
      (Function.update_of_ne (StableHlo.devRef_ne_of_ne (by decide)) _ _).symm)
  | ⟨1, _⟩ => ((dat0 (tcOf (U1 m)) c).arrAt_in 1 rfl _).trans ((A_eq0 (tcOf (U1 m)) c 1).trans
      (Function.update_of_ne (StableHlo.devRef_ne_of_ne (by decide)) _ _).symm)
  | ⟨2, _⟩ => by show _ = Function.update (U1 m c) main_v16 (o16 m c) main_v16; rw [Function.update_self]; rfl
theorem hrest0 (c : Dev nD) : ∀ b, b ∉ Finset.univ.image (Pipeline.arrRef spec0) → tcOf (U2 m) c b = tcOf (U1 m) c b :=
  fun b hb => Function.update_of_ne (StableHlo.devRef_ne_of_ne fun e => hb (Finset.mem_image.mpr ⟨2, Finset.mem_univ _, e.symm⟩)) _ _

theorem hF1 (c : Dev nD) : ∀ w : Fin cfg1.W, (pdatsH m 1 c).arrAt w cfg1.N = tcOf (U4 m) c (Pipeline.arrRef spec1 w)
  | ⟨0, _⟩ => ((dat1 (tcOf (U3 m)) c).arrAt_in 0 rfl _).trans ((A_eq1 (tcOf (U3 m)) c 0).trans
      (Function.update_of_ne (StableHlo.devRef_ne_of_ne (by decide)) _ _).symm)
  | ⟨1, _⟩ => ((dat1 (tcOf (U3 m)) c).arrAt_in 1 rfl _).trans ((A_eq1 (tcOf (U3 m)) c 1).trans
      (Function.update_of_ne (StableHlo.devRef_ne_of_ne (by decide)) _ _).symm)
  | ⟨2, _⟩ => by show _ = Function.update (U3 m c) main_v20 (o20 m c) main_v20; rw [Function.update_self]; rfl
theorem hrest1 (c : Dev nD) : ∀ b, b ∉ Finset.univ.image (Pipeline.arrRef spec1) → tcOf (U4 m) c b = tcOf (U3 m) c b :=
  fun b hb => Function.update_of_ne (StableHlo.devRef_ne_of_ne fun e => hb (Finset.mem_image.mpr ⟨2, Finset.mem_univ _, e.symm⟩)) _ _

set_option maxHeartbeats 4000000 in
theorem hF2 (c : Dev nD) : ∀ w : Fin cfg2.W, (pdatsH m 2 c).arrAt w cfg2.N = tcOf (U22 m) c (Pipeline.arrRef spec2 w)
  | ⟨0, _⟩ => ((dat2 (tcOf (U21 m)) c).arrAt_in 0 rfl _).trans ((A_eq2 (tcOf (U21 m)) c 0).trans
      (Function.update_of_ne (StableHlo.devRef_ne_of_ne (by decide)) _ _).symm)
  | ⟨1, _⟩ => ((dat2 (tcOf (U21 m)) c).arrAt_in 1 rfl _).trans ((A_eq2 (tcOf (U21 m)) c 1).trans
      (Function.update_of_ne (StableHlo.devRef_ne_of_ne (by decide)) _ _).symm)
  | ⟨2, _⟩ => ((dat2 (tcOf (U21 m)) c).arrAt_in 2 rfl _).trans ((A_eq2 (tcOf (U21 m)) c 2).trans
      (Function.update_of_ne (StableHlo.devRef_ne_of_ne (by decide)) _ _).symm)
  | ⟨3, _⟩ => ((dat2 (tcOf (U21 m)) c).arrAt_in 3 rfl _).trans ((A_eq2 (tcOf (U21 m)) c 3).trans
      (Function.update_of_ne (StableHlo.devRef_ne_of_ne (by decide)) _ _).symm)
  | ⟨4, _⟩ => ((dat2 (tcOf (U21 m)) c).arrAt_in 4 rfl _).trans ((A_eq2 (tcOf (U21 m)) c 4).trans
      (Function.update_of_ne (StableHlo.devRef_ne_of_ne (by decide)) _ _).symm)
  | ⟨5, _⟩ => ((dat2 (tcOf (U21 m)) c).arrAt_in 5 rfl _).trans ((A_eq2 (tcOf (U21 m)) c 5).trans
      (Function.update_of_ne (StableHlo.devRef_ne_of_ne (by decide)) _ _).symm)
  | ⟨6, _⟩ => ((dat2 (tcOf (U21 m)) c).arrAt_in 6 rfl _).trans ((A_eq2 (tcOf (U21 m)) c 6).trans
      (Function.update_of_ne (StableHlo.devRef_ne_of_ne (by decide)) _ _).symm)
  | ⟨7, _⟩ => ((dat2 (tcOf (U21 m)) c).arrAt_in 7 rfl _).trans ((A_eq2 (tcOf (U21 m)) c 7).trans
      (Function.update_of_ne (StableHlo.devRef_ne_of_ne (by decide)) _ _).symm)
  | ⟨8, _⟩ => by show _ = Function.update (U21 m c) main_v60 (o60 m c) main_v60; rw [Function.update_self]; rfl
theorem hrest2 (c : Dev nD) : ∀ b, b ∉ Finset.univ.image (Pipeline.arrRef spec2) → tcOf (U22 m) c b = tcOf (U21 m) c b :=
  fun b hb => Function.update_of_ne (StableHlo.devRef_ne_of_ne fun e => hb (Finset.mem_image.mpr ⟨8, Finset.mem_univ _, e.symm⟩)) _ _

/-! ## The regions as segments -/

-- a library lemma stated over the pinned configuration unifies with the printed one only when unification may unfold
-- plain definitions in a metavariable's type
set_option backward.isDefEq.respectTransparency.types false in
/-- Region 0 over the thread state: entered from every unscoped buffer at `U1`, left at `U2`. Its arrays are split
    out of the unscoped buffers at entry and put back at their exit contents; the generator register goes into the
    pipeline's invariant and comes back; nothing is owed; the kernel has no semaphore of its own. -/
def reg0 : Pipeline.RegionSeg (pcfgs (F := F)) adm (pdatsH m) () defs₀ Variants.none LH lvH 0 where
  win := launch0.win.to₀
  block_pos := launch0.block_pos
  stage_whole := launch0.stage_whole
  K := PEmpty
  osem k := k.elim
  ho := Pipeline.OwnSemFacts.none _
  hbody c := hbody0 m c
  hwaits := Pipeline.hwaits_of_owed_zero _ _ _ _ LH lvH 0 fun _ _ => rfl
  pre c := iprop(StableHlo.held (c : Thread nD τ) (Pipeline.ucRefs τ sig) (U1 m c) ∗ RH c)
  post c := iprop(StableHlo.held (c : Thread nD τ) (Pipeline.ucRefs τ sig) (U2 m c) ∗ RH c)
  X c := iprop(∃ r, prngReg c r)
  Y c := iprop(∃ r, prngReg c r)
  Z c := Pipeline.unscopedRest (Ix := Unit) (Name := ℕ) (U := UR sig nD τ) (Lvl := ℕ) spec0 c (tcOf (U1 m) c)
  hentry c := by
    rw [Pipeline.ownSems0_none]
    have hsplit := Pipeline.arrays_of_unscopedBufs (p := 0) (pcfgs (F := F)) adm (pdatsH m) launch0.win launch0.arr_whole c
      ((pdatsH m 0 c).share_full fun _ => rfl) (tcOf (U1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m) ((pdatsH m 0 c).share_full fun _ => rfl)
      (tcOf (U1 m) c) (tcOf (U2 m) c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `U3`, left at `U4`. Its arrays are split
    out of the unscoped buffers at entry and put back at their exit contents; the generator register goes into the
    pipeline's invariant and comes back; nothing is owed; the kernel has no semaphore of its own. -/
def reg1 : Pipeline.RegionSeg (pcfgs (F := F)) adm (pdatsH m) () defs₀ Variants.none LH lvH 1 where
  win := launch1.win.to₀
  block_pos := launch1.block_pos
  stage_whole := launch1.stage_whole
  K := PEmpty
  osem k := k.elim
  ho := Pipeline.OwnSemFacts.none _
  hbody c := hbody1 m c
  hwaits := Pipeline.hwaits_of_owed_zero _ _ _ _ LH lvH 1 fun _ _ => rfl
  pre c := iprop(StableHlo.held (c : Thread nD τ) (Pipeline.ucRefs τ sig) (U3 m c) ∗ RH c)
  post c := iprop(StableHlo.held (c : Thread nD τ) (Pipeline.ucRefs τ sig) (U4 m c) ∗ RH c)
  X c := iprop(∃ r, prngReg c r)
  Y c := iprop(∃ r, prngReg c r)
  Z c := Pipeline.unscopedRest (Ix := Unit) (Name := ℕ) (U := UR sig nD τ) (Lvl := ℕ) spec1 c (tcOf (U3 m) c)
  hentry c := by
    rw [Pipeline.ownSems0_none]
    have hsplit := Pipeline.arrays_of_unscopedBufs (p := 1) (pcfgs (F := F)) adm (pdatsH m) launch1.win launch1.arr_whole c
      ((pdatsH m 1 c).share_full fun _ => rfl) (tcOf (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m) ((pdatsH m 1 c).share_full fun _ => rfl)
      (tcOf (U3 m) c) (tcOf (U4 m) c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at `U21`, left at `U22`. Its arrays are split
    out of the unscoped buffers at entry and put back at their exit contents; the generator register goes into the
    pipeline's invariant and comes back; nothing is owed; the kernel has no semaphore of its own. -/
def reg2 : Pipeline.RegionSeg (pcfgs (F := F)) adm (pdatsH m) () defs₀ Variants.none LH lvH 2 where
  win := launch2.win.to₀
  block_pos := launch2.block_pos
  stage_whole := launch2.stage_whole
  K := PEmpty
  osem k := k.elim
  ho := Pipeline.OwnSemFacts.none _
  hbody c := hbody2 m c
  hwaits := Pipeline.hwaits_of_owed_zero _ _ _ _ LH lvH 2 fun _ _ => rfl
  pre c := iprop(StableHlo.held (c : Thread nD τ) (Pipeline.ucRefs τ sig) (U21 m c) ∗ RH c)
  post c := iprop(StableHlo.held (c : Thread nD τ) (Pipeline.ucRefs τ sig) (U22 m c) ∗ RH c)
  X c := iprop(∃ r, prngReg c r)
  Y c := iprop(∃ r, prngReg c r)
  Z c := Pipeline.unscopedRest (Ix := Unit) (Name := ℕ) (U := UR sig nD τ) (Lvl := ℕ) spec2 c (tcOf (U21 m) c)
  hentry c := by
    rw [Pipeline.ownSems0_none]
    have hsplit := Pipeline.arrays_of_unscopedBufs (p := 2) (pcfgs (F := F)) adm (pdatsH m) launch2.win launch2.arr_whole c
      ((pdatsH m 2 c).share_full fun _ => rfl) (tcOf (U21 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdatsH m) ((pdatsH m 2 c).share_full fun _ => rfl)
      (tcOf (U21 m) c) (tcOf (U22 m) c) ((pdatsH m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

variable (ρ : Dev nD → PrngReg)

/-- The launch's ghost element: every staging cell's owner at round 0 and a duty token per transfer. -/
abbrev u0H : UR sig nD τ := initOf (Pipeline.cells cfgs cellOf_inj) (Pipeline.launchToks cfgs cellOf_inj)

/-- The launch element is the pipelines' and nothing else is needed per core. -/
theorem hu0H : (ownU u0H : sProp 𝕄) ⊢ |={Set.univ}=> iprop(BI.own (emb₁ (initOf (Pipeline.cells cfgs cellOf_inj)
    (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- One core's share of the launch makes what rides beside its buffers: its generator register, and nothing owed. -/
theorem rest_of_launch (c : Dev nD) :
    (iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)) : sProp 𝕄) ⊢ RH c := by
  iintro ⟨-, HO, -, Hp, -⟩
  isplitl [Hp]; · iexists _; iexact Hp
  iexists ∅; iexact HO

/-- The launch makes the rest state on every core at once. -/
theorem hE0H : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts LH lvH)
      ⊢ (|={Set.univ}=> bigSep Finset.univ (fun c : Dev nD => RH c) : sProp 𝕄) := by
  have hall : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
      ⊢ (bigSep Finset.univ (fun c : Dev nD => RH c) : sProp 𝕄) := bigSep_mono fun c _ => rest_of_launch ρ c
  iintro ⟨H, -⟩
  imodintro
  iapply hall
  iexact H

/-- The rest state ends owing nothing. -/
theorem hE3H (c : Dev nD) : RH c ⊢ (iprop(∃ W, owes (c : Thread nD τ) (0 : CellTallies nD τ sig Unit) W) : sProp 𝕄) := by
  iintro ⟨-, HO⟩; iexact HO

-- the conditional frame's implicit arguments are found by unifying its conclusion with this one
set_option backward.isDefEq.respectTransparency.types false in
/-- THE FRAME, at any float instance: from any memory with zero counters every weakly fair execution of @main
    terminates, nothing faulting, with each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Gen.frame_cond m emb₁ () Variants.none LH lvH (fun _ _ => rfl) ρ (outsH m) (pdatsH m) 0 (fun _ => iprop(emp)) u0H hu0H
    (fun _ c => RH c) (hE0H ρ) hE3H
    (reg0 m) (fun c => .rfl) (fun c => by rw [V2_eq]; exact .rfl)
    (reg1 m) (fun c => by rw [V3_eq]; exact .rfl) (fun c => by rw [V4_eq]; exact .rfl)
    (reg2 m) (fun c => by rw [V21_eq]; exact .rfl) (fun c => by rw [V22_eq]; exact .rfl)

-- the conditional frame's implicit arguments are found by unifying its conclusion with this one
set_option backward.isDefEq.respectTransparency.types false in
/-- THE RUN WITH ITS RESULT: the same, and the result buffer ends at the last valuation's contents. -/
theorem run_value : θ_run defs (onTc (τ := τ) (main (F := F))) ⟨m, fun _ => 0, ρ⟩ (fun r => ∀ c : Dev nD,
      r.2.mem ((c.tc : Thread nD τ).loc main_v62) = Gen.V23 m (outsH m) c main_v62
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  GenP.frame_cond_value m emb₁ () Variants.none LH lvH (fun _ _ => rfl) ρ (outsH m) (pdatsH m) 0 (fun _ => iprop(emp)) u0H hu0H
    (fun _ c => RH c) (hE0H ρ) hE3H
    (reg0 m) (fun c => .rfl) (fun c => by rw [V2_eq]; exact .rfl)
    (reg1 m) (fun c => by rw [V3_eq]; exact .rfl) (fun c => by rw [V4_eq]; exact .rfl)
    (reg2 m) (fun c => by rw [V21_eq]; exact .rfl) (fun c => by rw [V22_eq]; exact .rfl)

end Cert.KernelIdeal.Hand

end
-- ==== Proof.Spec.lean ====
/-
  The node update both programs compute, as one function of the argument arrays, index by index, on the
  extended reals.

  A graph of `NN` nodes carries a state `x`. Two lists of `NE` directed edges (activating, inhibiting) name a
  source and a destination node each. Edge `e` contributes `k e * (g e * g e)`, where `g e` is the state at
  its source; node `j` sums the contributions of the edges whose destination word, read as a signed integer,
  is `j`. With `sA`, `sI` the two sums at `j`:

    num = sA if some activating edge ends at j, else 1
    den = 1 + sI
    agg = num / den if some edge of either list ends at j, else 0
    result j = nu j * agg - decay j * x j + growth j

  The state at an edge's source is read as both programs read it: the source word is normalised as jnp
  normalises an index (a negative word counts from the end), read signed, and clamped into the array
  (`srcState`). `result` is the whole update; `edgeVal` and `combine` are its two scalar stages — one edge's
  contribution from its gain and gathered state, and one node's update from the node's own entries, its two sums
  and its two edge counts (a node has an edge of a list exactly when that list's count there is positive).
-/
import Idealize.ShloMosaic.PureOps.Ideal
import Idealize.ShloMosaic.Lib.ValueIdx

noncomputable section

namespace Cert.Spec

open Idealize.ShloMosaic

/-- The number of nodes and of edges in each list. -/
abbrev NN : Nat := 1000000
abbrev NE : Nat := 8000000

/-- One edge's contribution from its gain `k` and the state `g` at its source. -/
def edgeVal (k g : EReal) : EReal := k * (g * g)

/-- One edge's contribution: its gain times the square of the state at its source. -/
def edge (k g : Fin NE → EReal) (e : Fin NE) : EReal := edgeVal (k e) (g e)

/-- jnp's normalisation of an index word over `NN` nodes: a negative word counts from the end. -/
def wrapIdx (s : BitVec 32) : BitVec 32 :=
  Scalar.select (IntOp.cmpi .slt s 0#32) (IntOp.addi s 1000000#32) s

/-- The state at an edge's source: the source word normalised, read signed and clamped into the array. -/
def srcState (x : Fin NN → EReal) (src : Fin NE → BitVec 32) (e : Fin NE) : EReal :=
  x ⟨min (wrapIdx (src e)).toInt.toNat (NN - 1), Nat.lt_of_le_of_lt (Nat.min_le_right _ _) (by decide)⟩

/-- One node's update from its own entries, its two sums `sA`, `sI` and its two edge counts `cA`, `cI`. -/
def combine (x nu decay growth sA sI cA cI : EReal) : EReal :=
  nu * (if 0 < cA ∨ 0 < cI then Ideal.div (if 0 < cA then sA else 1) (1 + sI) else 0) - decay * x + growth

/-- The edges of a list that end at node `j`: those whose destination word, read signed, is `j`. -/
def into (dst : Fin NE → BitVec 32) (j : Fin NN) : Finset (Fin NE) :=
  Finset.univ.filter fun e => (dst e).toInt = (j.val : Int)

/-- The sum of a list's contributions at node `j`. -/
def total (dst : Fin NE → BitVec 32) (k g : Fin NE → EReal) (j : Fin NN) : EReal :=
  ∑ e ∈ into dst j, edge k g e

/-- The aggregate at node `j`: the activating sum (or one, when no activating edge ends there) over one plus the
    inhibiting sum; zero at a node where no edge ends. -/
def agg (kA kI gA gI : Fin NE → EReal) (dA dI : Fin NE → BitVec 32) (j : Fin NN) : EReal :=
  if (into dA j).Nonempty ∨ (into dI j).Nonempty then
    Ideal.div (if (into dA j).Nonempty then total dA kA gA j else 1) (1 + total dI kI gI j)
  else 0

/-- The updated state at node `j`. -/
def node (x nu decay growth : Fin NN → EReal) (kA kI gA gI : Fin NE → EReal) (dA dI : Fin NE → BitVec 32)
    (j : Fin NN) : EReal :=
  nu j * agg kA kI gA gI dA dI j - decay j * x j + growth j

/-- The whole update at node `j` as a function of the ten argument arrays. -/
def result (x nu decay growth : Fin NN → EReal) (kA kI : Fin NE → EReal) (sA dA sI dI : Fin NE → BitVec 32)
    (j : Fin NN) : EReal :=
  node x nu decay growth kA kI (srcState x sA) (srcState x sI) dA dI j

end Cert.Spec

end
-- ==== Proof.KiValue0.lean ====
/-
  What kernel region 0 leaves in its result array: every entry the edge stage of the two operands' entries.

  The result window's sixteen blocks of 1024 rows cover the 15625 rows of the array, the last block cut to the 265 rows
  inside it. What the write-back at a point writes — the rows of the staging buffer that lie inside the array — is that
  point's block of ONE function of the two operand arrays, the gain times the square of the gathered state entry by
  entry, because the three windows cut the same block at the same place. Row `r` is written by point `r / 1024`.
-/
import proofs.«135522_j14551349199581_2_alg».proof.Proof.KiRegion0
import proofs.«135522_j14551349199581_2_alg».proof.Proof.Spec

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

-- the TensorCore's buffer contents when the region is entered, on the extended reals
variable (V : (c : Dev nD) → (b : Ref sig .tc) → Buf (Elt Ideal) ((c : Thread nD τ).loc b))

/-- The whole result array as one function of the two operand arrays. -/
def edgeArr0 (c : Dev nD) : S15625x512.Idx → EReal :=
  fun i => Cert.Spec.edgeVal ((V c main_v14 : S15625x512.Idx → EReal) i) ((V c main_v15 : S15625x512.Idx → EReal) i)

/-- What the write-back at point `t` writes is point `t`'s block of that function. -/
theorem flushed0_eq (c : Dev nD) (t : Fin cfg0.N) :
    (dat0 (F := Ideal) V c).flushed 2 t = ((cfg0.win 2).blk t).view.read (Elt Ideal) (edgeArr0 V c) := by
  change win0_0.cut (grid0.coords t) (ofull0 V c t) = fun j => edgeW (kblk0 V c t j) (gblk0 V c t j)
  exact win0_0.cut_fill _ _ _

/-- The result window's blocks over the grid: point `t` holds rows `1024 t` and up, all 512 columns, 1024 rows of them
    but at the last point, which holds 265. -/
theorem blocks0 : ∀ t : Fin cfg0.N,
    win0_2.index t 0 = t.val ∧ win0_2.index t 1 = 0
      ∧ win0_2.xsize (grid0.coords t) 1 = 512
      ∧ (t.val < 15 → win0_2.xsize (grid0.coords t) 0 = 1024)
      ∧ (t.val = 15 → win0_2.xsize (grid0.coords t) 0 = 265) :=
  (by decide +kernel : ∀ t : Fin grid0.N, _)

/-- Every entry of the array lies in the block of the point its row names. -/
theorem cover0_arr (i : S15625x512.Idx) :
    ∃ t : Fin cfg0.N, (cfg0.win 2).flush t = true ∧ i ∈ ((cfg0.win 2).blk t).view.set := by
  obtain ⟨r, q, rfl⟩ : ∃ (r : Fin 15625) (q : Fin 512), i = ValueIdx.ix2 r q := ⟨i 0, i 1, ValueIdx.eq_ix2 i⟩
  have hr := r.isLt
  have hq := q.isLt
  have hN : cfg0.N = 16 := N_0
  let t : Fin cfg0.N := ⟨r.val / 1024, by rw [hN]; omega⟩
  have ht : t.val = r.val / 1024 := rfl
  refine ⟨t, flush0_2 t, ?_⟩
  obtain ⟨h0, h1, hx1, hlt, heq⟩ := blocks0 t
  show ValueIdx.ix2 r q ∈ ((View.whole main_v16).slice (win0_2.rect t)).set
  rw [View.set_slice_whole, Rect.mem_set_unit]
  intro a
  match a with
  | ⟨0, _⟩ =>
    show win0_2.index t 0 * 1024 ≤ r.val ∧ r.val < win0_2.index t 0 * 1024 + win0_2.xsize (grid0.coords t) 0
    rw [h0]
    by_cases h15 : t.val < 15
    · rw [hlt h15]; omega
    · have : t.val = 15 := by have := t.isLt; omega
      rw [heq this]; omega
  | ⟨1, _⟩ =>
    show win0_2.index t 1 * 512 ≤ q.val ∧ q.val < win0_2.index t 1 * 512 + win0_2.xsize (grid0.coords t) 1
    rw [h1, hx1]; omega

/-- THE RESULT ARRAY after the region: entry by entry the edge stage of the two operands' entries. -/
theorem arrAt0_eq (V : (c : Dev nD) → (b : Ref sig .tc) → Buf (Elt Ideal) ((c : Thread nD τ).loc b)) (c : Dev nD) :
    ((dat0 (F := Ideal) V c).arrAt 2 cfg0.N : S15625x512.Idx → EReal)
      = fun i => Cert.Spec.edgeVal (V c main_v14 i) (V c main_v15 i) :=
  (dat0 (F := Ideal) V c).arrAt_eq_of_cover 2 (edgeArr0 V c) (fun t _ => flushed0_eq V c t) (cover0_arr)

end Cert.KernelIdeal.Hand

end
-- ==== Proof.KiValue1.lean ====
/-
  What kernel region 1 leaves in its result array: every entry the edge stage of the two operands' entries.

  The result window's sixteen blocks of 1024 rows cover the 15625 rows of the array, the last block cut to the 265 rows
  inside it. What the write-back at a point writes — the rows of the staging buffer that lie inside the array — is that
  point's block of ONE function of the two operand arrays, the gain times the square of the gathered state entry by
  entry, because the three windows cut the same block at the same place. Row `r` is written by point `r / 1024`.
-/
import proofs.«135522_j14551349199581_2_alg».proof.Proof.KiRegion1
import proofs.«135522_j14551349199581_2_alg».proof.Proof.Spec

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

-- the TensorCore's buffer contents when the region is entered, on the extended reals
variable (V : (c : Dev nD) → (b : Ref sig .tc) → Buf (Elt Ideal) ((c : Thread nD τ).loc b))

/-- The whole result array as one function of the two operand arrays. -/
def edgeArr1 (c : Dev nD) : S15625x512.Idx → EReal :=
  fun i => Cert.Spec.edgeVal ((V c main_v18 : S15625x512.Idx → EReal) i) ((V c main_v19 : S15625x512.Idx → EReal) i)

/-- What the write-back at point `t` writes is point `t`'s block of that function. -/
theorem flushed1_eq (c : Dev nD) (t : Fin cfg1.N) :
    (dat1 (F := Ideal) V c).flushed 2 t = ((cfg1.win 2).blk t).view.read (Elt Ideal) (edgeArr1 V c) := by
  change win1_0.cut (grid1.coords t) (ofull1 V c t) = fun j => edgeW (kblk1 V c t j) (gblk1 V c t j)
  exact win1_0.cut_fill _ _ _

/-- The result window's blocks over the grid: point `t` holds rows `1024 t` and up, all 512 columns, 1024 rows of them
    but at the last point, which holds 265. -/
theorem blocks1 : ∀ t : Fin cfg1.N,
    win1_2.index t 0 = t.val ∧ win1_2.index t 1 = 0
      ∧ win1_2.xsize (grid1.coords t) 1 = 512
      ∧ (t.val < 15 → win1_2.xsize (grid1.coords t) 0 = 1024)
      ∧ (t.val = 15 → win1_2.xsize (grid1.coords t) 0 = 265) :=
  (by decide +kernel : ∀ t : Fin grid1.N, _)

/-- Every entry of the array lies in the block of the point its row names. -/
theorem cover1_arr (i : S15625x512.Idx) :
    ∃ t : Fin cfg1.N, (cfg1.win 2).flush t = true ∧ i ∈ ((cfg1.win 2).blk t).view.set := by
  obtain ⟨r, q, rfl⟩ : ∃ (r : Fin 15625) (q : Fin 512), i = ValueIdx.ix2 r q := ⟨i 0, i 1, ValueIdx.eq_ix2 i⟩
  have hr := r.isLt
  have hq := q.isLt
  have hN : cfg1.N = 16 := N_1
  let t : Fin cfg1.N := ⟨r.val / 1024, by rw [hN]; omega⟩
  have ht : t.val = r.val / 1024 := rfl
  refine ⟨t, flush1_2 t, ?_⟩
  obtain ⟨h0, h1, hx1, hlt, heq⟩ := blocks1 t
  show ValueIdx.ix2 r q ∈ ((View.whole main_v20).slice (win1_2.rect t)).set
  rw [View.set_slice_whole, Rect.mem_set_unit]
  intro a
  match a with
  | ⟨0, _⟩ =>
    show win1_2.index t 0 * 1024 ≤ r.val ∧ r.val < win1_2.index t 0 * 1024 + win1_2.xsize (grid1.coords t) 0
    rw [h0]
    by_cases h15 : t.val < 15
    · rw [hlt h15]; omega
    · have : t.val = 15 := by have := t.isLt; omega
      rw [heq this]; omega
  | ⟨1, _⟩ =>
    show win1_2.index t 1 * 512 ≤ q.val ∧ q.val < win1_2.index t 1 * 512 + win1_2.xsize (grid1.coords t) 1
    rw [h1, hx1]; omega

/-- THE RESULT ARRAY after the region: entry by entry the edge stage of the two operands' entries. -/
theorem arrAt1_eq (V : (c : Dev nD) → (b : Ref sig .tc) → Buf (Elt Ideal) ((c : Thread nD τ).loc b)) (c : Dev nD) :
    ((dat1 (F := Ideal) V c).arrAt 2 cfg1.N : S15625x512.Idx → EReal)
      = fun i => Cert.Spec.edgeVal (V c main_v18 i) (V c main_v19 i) :=
  (dat1 (F := Ideal) V c).arrAt_eq_of_cover 2 (edgeArr1 V c) (fun t _ => flushed1_eq V c t) (cover1_arr)

end Cert.KernelIdeal.Hand

end
-- ==== Proof.KiValue2.lean ====
/-
  The third kernel region's result array at the exact-real instance: the node update, entry by entry.

  The region walks a [1024, 1024] array in four blocks of 256 rows. At a point the body loads the eight input blocks
  whole, computes one entry of the result from the eight entries at the same position, and stores the block whole. The
  arithmetic is the specification's `combine`: the first count being positive is the test `0 < cA` (a comparison with
  the zero word), the union of the two tests is the bitwise or of the two one-bit words, and the two selections are the
  two conditionals. Block `t` of every window is rows `256 t … 256 t + 255` of its array, so what point `t` writes back is
  block `t` of the entrywise `combine` of the eight input arrays; row `r` lies in the block of point `r / 256`, the four
  blocks cover the array, and the result array ends holding that entrywise function.
-/
import proofs.«135522_j14551349199581_2_alg».proof.Proof.KiRegion2
import proofs.«135522_j14551349199581_2_alg».proof.Proof.Spec
import Idealize.ShloMosaic.Lib.IdealHost

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The body's arithmetic at an entry -/

/-- The comparison `c > 0` is the set bit when `c` is positive, -/
theorem cmp_ogt_zero_of_pos {c : EReal} (h : 0 < c) : Ideal.cmp .ogt c 0 = 1#1 := by
  show BitVec.ofBool (decide (0 < c)) = 1#1
  rw [decide_eq_true h]; rfl

/-- and the cleared bit when it is not. -/
theorem cmp_ogt_zero_of_not_pos {c : EReal} (h : ¬ 0 < c) : Ideal.cmp .ogt c 0 = 0#1 := by
  show BitVec.ofBool (decide (0 < c)) = 0#1
  rw [decide_eq_false h]; rfl

/-- The body's scalar arithmetic is the specification's node update. -/
theorem combine_scalar (x nu decay growth sA sI cA cI : EReal) :
    nu * Scalar.select (IntOp.ori (Ideal.cmp .ogt cA (Ideal.ofBits .f32 0x00000000#32)) (Ideal.cmp .ogt cI (Ideal.ofBits .f32 0x00000000#32)))
        (Ideal.div (Scalar.select (Ideal.cmp .ogt cA (Ideal.ofBits .f32 0x00000000#32)) sA (Ideal.ofBits .f32 0x3F800000#32))
          (Ideal.ofBits .f32 0x3F800000#32 + sI))
        (Ideal.ofBits .f32 0x00000000#32) - decay * x + growth
      = Spec.combine x nu decay growth sA sI cA cI := by
  rw [Ideal.ofBits_zero_f32, Ideal.ofBits_one_f32]
  unfold Spec.combine
  by_cases hA : 0 < cA <;> by_cases hI : 0 < cI
  · rw [cmp_ogt_zero_of_pos hA, cmp_ogt_zero_of_pos hI, if_pos (Or.inl hA), if_pos hA,
      show IntOp.ori 1#1 1#1 = 1#1 from rfl, select_one, select_one]
  · rw [cmp_ogt_zero_of_pos hA, cmp_ogt_zero_of_not_pos hI, if_pos (Or.inl hA), if_pos hA,
      show IntOp.ori 1#1 0#1 = 1#1 from rfl, select_one, select_one]
  · rw [cmp_ogt_zero_of_not_pos hA, cmp_ogt_zero_of_pos hI, if_pos (Or.inr hI), if_neg hA,
      show IntOp.ori 0#1 1#1 = 1#1 from rfl, select_one, select_zero]
  · rw [cmp_ogt_zero_of_not_pos hA, cmp_ogt_zero_of_not_pos hI, if_neg (fun h => h.elim hA hI),
      show IntOp.ori 0#1 0#1 = 0#1 from rfl, select_zero]

/-- The node update of equal entries is equal. -/
theorem combine_congr {x nu decay growth sA sI cA cI x' nu' decay' growth' sA' sI' cA' cI' : EReal}
    (h0 : x = x') (h1 : nu = nu') (h2 : decay = decay') (h3 : growth = growth') (h4 : sA = sA') (h5 : sI = sI')
    (h6 : cA = cA') (h7 : cI = cI') :
    Spec.combine x nu decay growth sA sI cA cI = Spec.combine x' nu' decay' growth' sA' sI' cA' cI' := by
  subst h0 h1 h2 h3 h4 h5 h6 h7; rfl

/-- THE PAYLOAD AT AN ENTRY: the node update of the eight loaded entries (the two sums, the two counts, then `nu`,
    `decay`, the state and `growth`, in the body's load order). -/
theorem k2_pay1_apply (v0 v2 v4 v8 v20 v23 v25 v29 : FVec Ideal S256x1024 .f32) (j : S256x1024.Idx) :
    k2_pay1 (F := Ideal) v0 v2 v4 v8 v20 v23 v25 v29 j
      = Spec.combine (v25 j) (v20 j) (v23 j) (v29 j) (v0 j) (v2 j) (v4 j) (v8 j) := by
  unfold k2_pay1
  simp only [shapeCast_self]
  exact combine_scalar (v25 j) (v20 j) (v23 j) (v29 j) (v0 j) (v2 j) (v4 j) (v8 j)

theorem hz2 : (![0, 0] : Fin 2 → Nat) = fun _ => 0 := funext fun a => by fin_cases a <;> rfl

/-- WHAT THE BODY LEAVES in the result's staging buffer, at an entry: the node update of the eight input blocks' entries. -/
theorem out2_apply (x0 x1 x2 x3 x4 x5 x6 x7 : FVec Ideal S256x1024 .f32) (j : S256x1024.Idx) :
    out2 (F := Ideal) x0 x1 x2 x3 x4 x5 x6 x7 j
      = Spec.combine (x0 j) (x1 j) (x2 j) (x3 j) (x4 j) (x5 j) (x6 j) (x7 j) := by
  unfold out2
  rw [View.canon_unit_zero hz2]
  simp only [View.ld_unit_zero (S := S256x1024) hz2]
  exact k2_pay1_apply x4 x5 x6 x7 x1 x2 x0 x3 j

/-! ## From the blocks to the array -/

-- the TensorCore's buffer contents when the region is entered
variable (V : (c : Dev nD) → (b : Ref sig .tc) → Buf (Elt Ideal) ((c : Thread nD τ).loc b))

/-- The node update of the eight input arrays as the region finds them, entry by entry. -/
abbrev G2 (c : Dev nD) : S1024x1024.Idx → EReal := fun i =>
  Spec.combine (V c main_v45 i) (V c main_v47 i) (V c main_v49 i) (V c main_v51 i) (V c main_v53 i) (V c main_v55 i)
    (V c main_v57 i) (V c main_v59 i)

/-- The index maps over the four points: every input window's block index is the result window's, which is the
    point's number along the rows and zero along the columns. -/
theorem idx_facts2 : ∀ t : Fin cfg2.N,
    win2_0.index t (0 : Fin 2) = win2_8.index t (0 : Fin 2) ∧ win2_0.index t (1 : Fin 2) = win2_8.index t (1 : Fin 2)
    ∧ win2_1.index t (0 : Fin 2) = win2_8.index t (0 : Fin 2) ∧ win2_1.index t (1 : Fin 2) = win2_8.index t (1 : Fin 2)
    ∧ win2_2.index t (0 : Fin 2) = win2_8.index t (0 : Fin 2) ∧ win2_2.index t (1 : Fin 2) = win2_8.index t (1 : Fin 2)
    ∧ win2_3.index t (0 : Fin 2) = win2_8.index t (0 : Fin 2) ∧ win2_3.index t (1 : Fin 2) = win2_8.index t (1 : Fin 2)
    ∧ win2_4.index t (0 : Fin 2) = win2_8.index t (0 : Fin 2) ∧ win2_4.index t (1 : Fin 2) = win2_8.index t (1 : Fin 2)
    ∧ win2_5.index t (0 : Fin 2) = win2_8.index t (0 : Fin 2) ∧ win2_5.index t (1 : Fin 2) = win2_8.index t (1 : Fin 2)
    ∧ win2_6.index t (0 : Fin 2) = win2_8.index t (0 : Fin 2) ∧ win2_6.index t (1 : Fin 2) = win2_8.index t (1 : Fin 2)
    ∧ win2_7.index t (0 : Fin 2) = win2_8.index t (0 : Fin 2) ∧ win2_7.index t (1 : Fin 2) = win2_8.index t (1 : Fin 2)
    ∧ win2_8.index t (0 : Fin 2) = t.val ∧ win2_8.index t (1 : Fin 2) = 0 :=
  (by decide +kernel : ∀ t : Fin grid2.N, _)

/-- An entry of an input window's block at point `t` sits in its array where the same entry of the result's block sits
    in the result array: on each axis at the block index times the block's extent plus the coordinate inside the block. -/
theorem emb2_0 (t : Fin cfg2.N) (j : ((cfg2.win 8).xblock (cfg2.grid.coords t)).Idx) :
    ((cfg2.win 0).blk t).view.emb j = ((cfg2.win 8).blk t).view.emb j := by
  obtain ⟨a0, b0, a1, b1, a2, b2, a3, b3, a4, b4, a5, b5, a6, b6, a7, b7, e0, e1⟩ := idx_facts2 t
  funext a; apply Fin.ext
  match a with
  | ⟨0, _⟩ => show win2_0.index t (0 : Fin 2) * 256 + 1 * (j 0).val = win2_8.index t (0 : Fin 2) * 256 + 1 * (j 0).val; omega
  | ⟨1, _⟩ => show win2_0.index t (1 : Fin 2) * 1024 + 1 * (j 1).val = win2_8.index t (1 : Fin 2) * 1024 + 1 * (j 1).val; omega
theorem emb2_1 (t : Fin cfg2.N) (j : ((cfg2.win 8).xblock (cfg2.grid.coords t)).Idx) :
    ((cfg2.win 1).blk t).view.emb j = ((cfg2.win 8).blk t).view.emb j := by
  obtain ⟨a0, b0, a1, b1, a2, b2, a3, b3, a4, b4, a5, b5, a6, b6, a7, b7, e0, e1⟩ := idx_facts2 t
  funext a; apply Fin.ext
  match a with
  | ⟨0, _⟩ => show win2_1.index t (0 : Fin 2) * 256 + 1 * (j 0).val = win2_8.index t (0 : Fin 2) * 256 + 1 * (j 0).val; omega
  | ⟨1, _⟩ => show win2_1.index t (1 : Fin 2) * 1024 + 1 * (j 1).val = win2_8.index t (1 : Fin 2) * 1024 + 1 * (j 1).val; omega
theorem emb2_2 (t : Fin cfg2.N) (j : ((cfg2.win 8).xblock (cfg2.grid.coords t)).Idx) :
    ((cfg2.win 2).blk t).view.emb j = ((cfg2.win 8).blk t).view.emb j := by
  obtain ⟨a0, b0, a1, b1, a2, b2, a3, b3, a4, b4, a5, b5, a6, b6, a7, b7, e0, e1⟩ := idx_facts2 t
  funext a; apply Fin.ext
  match a with
  | ⟨0, _⟩ => show win2_2.index t (0 : Fin 2) * 256 + 1 * (j 0).val = win2_8.index t (0 : Fin 2) * 256 + 1 * (j 0).val; omega
  | ⟨1, _⟩ => show win2_2.index t (1 : Fin 2) * 1024 + 1 * (j 1).val = win2_8.index t (1 : Fin 2) * 1024 + 1 * (j 1).val; omega
theorem emb2_3 (t : Fin cfg2.N) (j : ((cfg2.win 8).xblock (cfg2.grid.coords t)).Idx) :
    ((cfg2.win 3).blk t).view.emb j = ((cfg2.win 8).blk t).view.emb j := by
  obtain ⟨a0, b0, a1, b1, a2, b2, a3, b3, a4, b4, a5, b5, a6, b6, a7, b7, e0, e1⟩ := idx_facts2 t
  funext a; apply Fin.ext
  match a with
  | ⟨0, _⟩ => show win2_3.index t (0 : Fin 2) * 256 + 1 * (j 0).val = win2_8.index t (0 : Fin 2) * 256 + 1 * (j 0).val; omega
  | ⟨1, _⟩ => show win2_3.index t (1 : Fin 2) * 1024 + 1 * (j 1).val = win2_8.index t (1 : Fin 2) * 1024 + 1 * (j 1).val; omega
theorem emb2_4 (t : Fin cfg2.N) (j : ((cfg2.win 8).xblock (cfg2.grid.coords t)).Idx) :
    ((cfg2.win 4).blk t).view.emb j = ((cfg2.win 8).blk t).view.emb j := by
  obtain ⟨a0, b0, a1, b1, a2, b2, a3, b3, a4, b4, a5, b5, a6, b6, a7, b7, e0, e1⟩ := idx_facts2 t
  funext a; apply Fin.ext
  match a with
  | ⟨0, _⟩ => show win2_4.index t (0 : Fin 2) * 256 + 1 * (j 0).val = win2_8.index t (0 : Fin 2) * 256 + 1 * (j 0).val; omega
  | ⟨1, _⟩ => show win2_4.index t (1 : Fin 2) * 1024 + 1 * (j 1).val = win2_8.index t (1 : Fin 2) * 1024 + 1 * (j 1).val; omega
theorem emb2_5 (t : Fin cfg2.N) (j : ((cfg2.win 8).xblock (cfg2.grid.coords t)).Idx) :
    ((cfg2.win 5).blk t).view.emb j = ((cfg2.win 8).blk t).view.emb j := by
  obtain ⟨a0, b0, a1, b1, a2, b2, a3, b3, a4, b4, a5, b5, a6, b6, a7, b7, e0, e1⟩ := idx_facts2 t
  funext a; apply Fin.ext
  match a with
  | ⟨0, _⟩ => show win2_5.index t (0 : Fin 2) * 256 + 1 * (j 0).val = win2_8.index t (0 : Fin 2) * 256 + 1 * (j 0).val; omega
  | ⟨1, _⟩ => show win2_5.index t (1 : Fin 2) * 1024 + 1 * (j 1).val = win2_8.index t (1 : Fin 2) * 1024 + 1 * (j 1).val; omega
theorem emb2_6 (t : Fin cfg2.N) (j : ((cfg2.win 8).xblock (cfg2.grid.coords t)).Idx) :
    ((cfg2.win 6).blk t).view.emb j = ((cfg2.win 8).blk t).view.emb j := by
  obtain ⟨a0, b0, a1, b1, a2, b2, a3, b3, a4, b4, a5, b5, a6, b6, a7, b7, e0, e1⟩ := idx_facts2 t
  funext a; apply Fin.ext
  match a with
  | ⟨0, _⟩ => show win2_6.index t (0 : Fin 2) * 256 + 1 * (j 0).val = win2_8.index t (0 : Fin 2) * 256 + 1 * (j 0).val; omega
  | ⟨1, _⟩ => show win2_6.index t (1 : Fin 2) * 1024 + 1 * (j 1).val = win2_8.index t (1 : Fin 2) * 1024 + 1 * (j 1).val; omega
theorem emb2_7 (t : Fin cfg2.N) (j : ((cfg2.win 8).xblock (cfg2.grid.coords t)).Idx) :
    ((cfg2.win 7).blk t).view.emb j = ((cfg2.win 8).blk t).view.emb j := by
  obtain ⟨a0, b0, a1, b1, a2, b2, a3, b3, a4, b4, a5, b5, a6, b6, a7, b7, e0, e1⟩ := idx_facts2 t
  funext a; apply Fin.ext
  match a with
  | ⟨0, _⟩ => show win2_7.index t (0 : Fin 2) * 256 + 1 * (j 0).val = win2_8.index t (0 : Fin 2) * 256 + 1 * (j 0).val; omega
  | ⟨1, _⟩ => show win2_7.index t (1 : Fin 2) * 1024 + 1 * (j 1).val = win2_8.index t (1 : Fin 2) * 1024 + 1 * (j 1).val; omega

/-- WHAT POINT `t` WRITES BACK is block `t` of the entrywise node update of the eight input arrays. -/
theorem flushed2_eq (c : Dev nD) (t : Fin cfg2.N) :
    (dat2 (F := Ideal) V c).flushed 8 t = ((cfg2.win 8).blk t).view.read (Elt Ideal) (G2 V c) := by
  show (cfg2.win 8).cut (grid2.coords t) ((dat2 (F := Ideal) V c).after 8 t) = _
  rw [after2_8]
  funext j
  rw [View.read_apply]
  refine (out2_apply _ _ _ _ _ _ _ _ _).trans ?_
  show Spec.combine (V c main_v45 (((cfg2.win 0).blk t).view.emb j))
      (V c main_v47 (((cfg2.win 1).blk t).view.emb j))
      (V c main_v49 (((cfg2.win 2).blk t).view.emb j))
      (V c main_v51 (((cfg2.win 3).blk t).view.emb j))
      (V c main_v53 (((cfg2.win 4).blk t).view.emb j))
      (V c main_v55 (((cfg2.win 5).blk t).view.emb j))
      (V c main_v57 (((cfg2.win 6).blk t).view.emb j))
      (V c main_v59 (((cfg2.win 7).blk t).view.emb j))
    = Spec.combine (V c main_v45 (((cfg2.win 8).blk t).view.emb j))
      (V c main_v47 (((cfg2.win 8).blk t).view.emb j))
      (V c main_v49 (((cfg2.win 8).blk t).view.emb j))
      (V c main_v51 (((cfg2.win 8).blk t).view.emb j))
      (V c main_v53 (((cfg2.win 8).blk t).view.emb j))
      (V c main_v55 (((cfg2.win 8).blk t).view.emb j))
      (V c main_v57 (((cfg2.win 8).blk t).view.emb j))
      (V c main_v59 (((cfg2.win 8).blk t).view.emb j))
  exact combine_congr (congrArg (V c main_v45) (emb2_0 t j)) (congrArg (V c main_v47) (emb2_1 t j))
    (congrArg (V c main_v49) (emb2_2 t j)) (congrArg (V c main_v51) (emb2_3 t j)) (congrArg (V c main_v53) (emb2_4 t j))
    (congrArg (V c main_v55) (emb2_5 t j)) (congrArg (V c main_v57) (emb2_6 t j)) (congrArg (V c main_v59) (emb2_7 t j))

/-- An entry of the array is in point `t`'s block iff each coordinate is in the block's range on its axis. -/
theorem mem_blk2 (t : Fin cfg2.N) (i : S1024x1024.Idx) :
    i ∈ ((cfg2.win 8).blk t).view.set
      ↔ ∀ a : Fin 2, win2_8.index t a * S256x1024.size a ≤ (i a).val
          ∧ (i a).val < win2_8.index t a * S256x1024.size a + S256x1024.size a := by
  show i ∈ ((View.whole main_v60).slice (win2_8.rect t)).set ↔ _
  rw [View.set_slice_whole, Rect.mem_set_unit]
  exact Iff.rfl

/-- THE FOUR BLOCKS COVER THE ARRAY: row `r` lies in the block of point `r / 256`. -/
theorem covered2 (i : S1024x1024.Idx) :
    ∃ t : Fin cfg2.N, (cfg2.win 8).flush t = true ∧ i ∈ ((cfg2.win 8).blk t).view.set := by
  have hi0 : (i 0).val < 1024 := (i 0).isLt
  have hi1 : (i 1).val < 1024 := (i 1).isLt
  have hN : cfg2.N = 4 := N_2
  obtain ⟨t, ht⟩ : ∃ t : Fin cfg2.N, t.val = (i 0).val / 256 := ⟨⟨(i 0).val / 256, by rw [hN]; omega⟩, rfl⟩
  refine ⟨t, flush2_8 t, ?_⟩
  rw [mem_blk2]
  obtain ⟨a0, b0, a1, b1, a2, b2, a3, b3, a4, b4, a5, b5, a6, b6, a7, b7, e0, e1⟩ := idx_facts2 t
  intro a
  match a with
  | ⟨0, _⟩ =>
    show win2_8.index t (0 : Fin 2) * 256 ≤ (i 0).val ∧ (i 0).val < win2_8.index t (0 : Fin 2) * 256 + 256
    omega
  | ⟨1, _⟩ =>
    show win2_8.index t (1 : Fin 2) * 1024 ≤ (i 1).val ∧ (i 1).val < win2_8.index t (1 : Fin 2) * 1024 + 1024
    omega

/-- THE RESULT ARRAY after the region: the node update of the eight input arrays as the region finds them, entry by
    entry. -/
theorem arrAt2_eq (c : Dev nD) :
    ((dat2 (F := Ideal) V c).arrAt 8 cfg2.N : S1024x1024.Idx → EReal)
      = fun i => Cert.Spec.combine (V c main_v45 i) (V c main_v47 i) (V c main_v49 i) (V c main_v51 i) (V c main_v53 i)
          (V c main_v55 i) (V c main_v57 i) (V c main_v59 i) :=
  (dat2 (F := Ideal) V c).arrAt_eq_of_cover 8 (G2 V c) (fun t _ => flushed2_eq V c t) covered2

end Cert.KernelIdeal.Hand

end
-- ==== Proof.LibEdgeOps.lean ====
/-
  Indexing by an edge list, read at an index: `x[idx]`, `x[idx, :]`, `zeros.at[idx].add(v)`, `zeros.at[idx, :].add(v)`.

  An integer array `idx` of `E` entries, laid out `[E, 1]`, names for each edge `e` a position of an array of extent `N`
  (or a row of an `[N, C]` array). A gather reads the named position, the index read signed and clamped into
  `[0, N − 1]`; an accumulating scatter adds update `e` at the named position, and drops it when the index, read
  signed, falls outside `[0, N)`. Over the extended reals the accumulated array at `j` is the operand at `j` plus the sum
  of the updates of the edges that name `j`.
-/
import Idealize.ShloMosaic.PureOps.Ideal
import Idealize.ShloMosaic.PureOps.Contract
import Idealize.ShloMosaic.Lib.ValueIdx

noncomputable section

namespace Cert.EdgeOps

open Idealize.ShloMosaic Idealize.ShloMosaic.ValueIdx

/-! ## Accumulating at positions of a one-axis array -/

/-- The dimension numbers of `x.at[idx].add(v)` for `x : [N]`, `idx : [E, 1]`, `v : [E]`. -/
abbrev addDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat}

theorem addDims_start (wf : ScatterDims.WF ⟨1, ![N]⟩ ⟨2, ![E, 1]⟩ ⟨1, ![E]⟩ [] [0] [0] 1) (idx : IVec ⟨2, ![E, 1]⟩ w) (e : Fin E) :
    (addDims N E wf).start (ix1 e) idx 0 = (idx (ix2 e (0 : Fin 1))).toInt := by
  unfold ScatterDims.start
  rw [dif_pos (show (0 : Fin 1) ∈ (addDims N E wf).scatterDimsToOperandDims from List.mem_singleton.mpr rfl)]
  congr 2
  funext b; refine Fin.ext ?_
  match b with
  | ⟨0, _⟩ => rfl
  | ⟨1, _⟩ => rfl

theorem addDims_window (wf : ScatterDims.WF ⟨1, ![N]⟩ ⟨2, ![E, 1]⟩ ⟨1, ![E]⟩ [] [0] [0] 1) (e : Fin E) :
    (addDims N E wf).window (ix1 e) 0 = 0 := by
  unfold ScatterDims.window
  rw [dif_neg]
  simp [ScatterDims.sKept, Shape.kept]

/-- WHERE UPDATE `e` LANDS: at the position its index names, when that is inside the array. -/
theorem addDims_resultIdx_eq_some_iff (wf : ScatterDims.WF ⟨1, ![N]⟩ ⟨2, ![E, 1]⟩ ⟨1, ![E]⟩ [] [0] [0] 1)
    (idx : IVec ⟨2, ![E, 1]⟩ w) (e : Fin E) (j : Fin N) :
    (addDims N E wf).resultIdx? (ix1 e) idx = some (ix1 j) ↔ (idx (ix2 e (0 : Fin 1))).toInt = (j.val : Int) := by
  unfold ScatterDims.resultIdx?
  have hs := addDims_start wf idx e
  have hw := addDims_window (N := N) wf e
  split
  · next h =>
    have h0 := h 0
    rw [hs, hw] at h0
    constructor
    · intro heq
      have := congrFun (Option.some.inj heq) 0
      have hv := congrArg Fin.val this
      simp only at hv
      rw [hs, hw] at hv
      simp only [Nat.cast_zero, add_zero] at hv h0
      show _ = ((ix1 j (0 : Fin 1)).val : Int)
      have h1 : ((idx (ix2 e (0 : Fin 1))).toInt.toNat : Int) = (idx (ix2 e (0 : Fin 1))).toInt := Int.toNat_of_nonneg h0.1
      exact h1.symm.trans (congrArg (fun n : Nat => (n : Int)) hv)
    · intro heq
      congr 1
      funext a
      obtain rfl : a = 0 := Subsingleton.elim _ _
      refine Fin.ext ?_
      show ((addDims N E wf).start (ix1 e) idx 0 + ((addDims N E wf).window (ix1 e) 0 : Int)).toNat = j.val
      rw [hs, hw, heq]; simp
  · next h =>
    constructor
    · intro heq; exact absurd heq (by simp)
    · intro heq
      exfalso; apply h
      intro a
      obtain rfl : a = 0 := Subsingleton.elim _ _
      rw [hs, hw, heq]
      have := j.isLt
      simp only [Nat.cast_zero, add_zero]
      exact ⟨by omega, by exact_mod_cast this⟩

/-- An index of a one-axis array is its one coordinate. -/
def idx1Equiv (n : Nat) : (⟨1, ![n]⟩ : Shape).Idx ≃ Fin n where
  toFun u := u 0
  invFun := ix1
  left_inv u := (eq_ix1 u).symm
  right_inv _ := rfl

/-- THE ACCUMULATED ARRAY AT `j`, over the extended reals: the operand there plus the updates of the edges that name `j`. -/
theorem scatterAdd_addDims_apply {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (j : Fin N) :
    Host.scatterAdd (addDims N E wf) x idx upd (ix1 j)
      = x (ix1 j) + ∑ e : Fin E with (idx (ix2 e (0 : Fin 1))).toInt = (j.val : Int), upd (ix1 e) := by
  show Ideal.hostScatterAdd (addDims N E wf) x idx upd (ix1 j) = _
  unfold Ideal.hostScatterAdd
  congr 1
  refine Finset.sum_equiv (idx1Equiv E) (fun u => ?_) (fun u _ => ?_)
  · obtain ⟨e, rfl⟩ : ∃ e : Fin E, u = ix1 e := ⟨u 0, eq_ix1 u⟩
    simp only [Finset.mem_filter, Finset.mem_univ, true_and]
    exact addDims_resultIdx_eq_some_iff wf idx e j
  · obtain ⟨e, rfl⟩ : ∃ e : Fin E, u = ix1 e := ⟨u 0, eq_ix1 u⟩
    rfl

/-! ## The same accumulation as a fold of single updates (an integer `.at[idx].add(v)`: a histogram) -/

/-- A fold of single updates — entry `n` adds `val n` at the position `tgt n` names, or is dropped — leaves at `i₀` the
    start there plus the values of the entries that name `i₀`. -/
theorem foldl_update_apply {ι κ A : Type*} [DecidableEq ι] [AddCommMonoid A] (tgt : κ → Option ι) (val : κ → A)
    (l : List κ) (x : ι → A) (i₀ : ι) :
    (l.foldl (fun r n => match tgt n with
        | some i => fun i' => if i' = i then r i + val n else r i'
        | none => r) x) i₀
      = x i₀ + ((l.filter fun n => decide (tgt n = some i₀)).map val).sum := by
  induction l generalizing x with
  | nil => simp
  | cons a l ih =>
    rw [List.foldl_cons, ih]
    cases hta : tgt a with
    | none => simp [hta]
    | some i =>
      by_cases hi : i₀ = i
      · subst hi
        simp [hta, add_assoc]
      · have : ¬ (some i = some i₀) := fun h => hi (Option.some.inj h).symm
        simp [hta, hi, this]

/-- The sum over the entries a test keeps is the sum of the entries' values where the test holds, zero elsewhere. -/
theorem sum_filter_map {κ A : Type*} [AddCommMonoid A] (l : List κ) (p : κ → Bool) (val : κ → A) :
    ((l.filter p).map val).sum = (l.map fun n => if p n then val n else 0).sum := by
  induction l with
  | nil => rfl
  | cons a l ih => by_cases h : p a <;> simp [List.filter_cons, h, ih]

/-- THE FOLDED ACCUMULATION AT `j`: `Host.scatter` with an adding body, over a commutative monoid, leaves at `j` the operand
    there plus the updates of the edges that name `j`. -/
theorem scatter_add_addDims_apply {A : Type} [AddCommMonoid A] (wf : ScatterDims.WF ⟨1, ![N]⟩ ⟨2, ![E, 1]⟩ ⟨1, ![E]⟩ [] [0] [0] 1)
    (x : (⟨1, ![N]⟩ : Shape).Idx → A) (idx : IVec ⟨2, ![E, 1]⟩ w) (upd : (⟨1, ![E]⟩ : Shape).Idx → A) (j : Fin N) :
    Host.scatter (addDims N E wf) (fun a b => a + b) x idx upd (ix1 j)
      = x (ix1 j) + ∑ e : Fin E with (idx (ix2 e (0 : Fin 1))).toInt = (j.val : Int), upd (ix1 e) := by
  unfold Host.scatter
  have key := foldl_update_apply (fun n => (addDims N E wf).resultIdx? ((⟨1, ![E]⟩ : Shape).rowMajor.symm n) idx)
    (fun n => upd ((⟨1, ![E]⟩ : Shape).rowMajor.symm n)) (List.finRange (⟨1, ![E]⟩ : Shape).numel) x (ix1 j)
  beta_reduce
  refine Eq.trans ?_ (key.trans ?_)
  · congr!
    funext motive o h₁ h₂
    cases o <;> rfl
  congr 1
  rw [sum_filter_map, ← Fin.sum_univ_def, ← Finset.sum_filter]
  refine Finset.sum_equiv ((⟨1, ![E]⟩ : Shape).rowMajor.symm.trans (idx1Equiv E)) (fun n => ?_) (fun n _ => ?_)
  · obtain ⟨e, he⟩ : ∃ e : Fin E, (⟨1, ![E]⟩ : Shape).rowMajor.symm n = ix1 e := ⟨_, eq_ix1 _⟩
    simp only [Finset.mem_filter, Finset.mem_univ, true_and, decide_eq_true_eq, Equiv.trans_apply]
    rw [he]
    exact addDims_resultIdx_eq_some_iff wf idx e j
  · obtain ⟨e, he⟩ : ∃ e : Fin E, (⟨1, ![E]⟩ : Shape).rowMajor.symm n = ix1 e := ⟨_, eq_ix1 _⟩
    simp only [Equiv.trans_apply]
    rw [he]
    rfl

/-! ## Accumulating rows of a two-axis array -/

/-- The dimension numbers of `x.at[idx].add(v)` for `x : [N, C]`, `idx : [E, 1]`, `v : [E, C]`: update row `e` lands on row `idx e`. -/
abbrev addRows (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {C : Nat}

theorem addRows_start0 (wf : ScatterDims.WF ⟨2, ![N, C]⟩ ⟨2, ![E, 1]⟩ ⟨2, ![E, C]⟩ [1] [0] [0] 1) (idx : IVec ⟨2, ![E, 1]⟩ w)
    (e : Fin E) (o : Fin C) : (addRows N C E wf).start (ix2 e o) idx 0 = (idx (ix2 e (0 : Fin 1))).toInt := by
  unfold ScatterDims.start
  rw [dif_pos (show (0 : Fin 2) ∈ (addRows N C E wf).scatterDimsToOperandDims from List.mem_singleton.mpr rfl)]
  congr 2
  funext b; refine Fin.ext ?_
  match b with
  | ⟨0, _⟩ => rfl
  | ⟨1, _⟩ => rfl

theorem addRows_start1 (wf : ScatterDims.WF ⟨2, ![N, C]⟩ ⟨2, ![E, 1]⟩ ⟨2, ![E, C]⟩ [1] [0] [0] 1) (idx : IVec ⟨2, ![E, 1]⟩ w)
    (e : Fin E) (o : Fin C) : (addRows N C E wf).start (ix2 e o) idx 1 = 0 := by
  unfold ScatterDims.start
  rw [dif_neg]
  simp

theorem addRows_window0 (wf : ScatterDims.WF ⟨2, ![N, C]⟩ ⟨2, ![E, 1]⟩ ⟨2, ![E, C]⟩ [1] [0] [0] 1) (e : Fin E) (o : Fin C) :
    (addRows N C E wf).window (ix2 e o) 0 = 0 := by
  unfold ScatterDims.window
  rw [dif_neg]
  simp [ScatterDims.sKept, Shape.kept]

theorem addRows_window1 (wf : ScatterDims.WF ⟨2, ![N, C]⟩ ⟨2, ![E, 1]⟩ ⟨2, ![E, C]⟩ [1] [0] [0] 1) (e : Fin E) (o : Fin C) :
    (addRows N C E wf).window (ix2 e o) 1 = o.val := by
  unfold ScatterDims.window
  rw [dif_pos (by simp [ScatterDims.sKept, Shape.kept])]
  rfl

/-- WHERE UPDATE ENTRY (e, o') LANDS: on row `idx e`, same column, when the row is inside the array. -/
theorem addRows_resultIdx_eq_some_iff (wf : ScatterDims.WF ⟨2, ![N, C]⟩ ⟨2, ![E, 1]⟩ ⟨2, ![E, C]⟩ [1] [0] [0] 1)
    (idx : IVec ⟨2, ![E, 1]⟩ w) (e : Fin E) (o' : Fin C) (j : Fin N) (o : Fin C) :
    (addRows N C E wf).resultIdx? (ix2 e o') idx = some (ix2 j o)
      ↔ (idx (ix2 e (0 : Fin 1))).toInt = (j.val : Int) ∧ o' = o := by
  unfold ScatterDims.resultIdx?
  have hs0 := addRows_start0 wf idx e o'
  have hs1 := addRows_start1 wf idx e o'
  have hw0 := addRows_window0 (N := N) wf e o'
  have hw1 := addRows_window1 (N := N) wf e o'
  split
  · next h =>
    have h0 := h 0
    rw [hs0, hw0] at h0
    simp only [Nat.cast_zero, add_zero] at h0
    constructor
    · intro heq
      have e0 := congrArg Fin.val (congrFun (Option.some.inj heq) 0)
      have e1 := congrArg Fin.val (congrFun (Option.some.inj heq) 1)
      simp only at e0 e1
      rw [hs0, hw0] at e0
      rw [hs1, hw1] at e1
      simp only [Nat.cast_zero, add_zero, zero_add, Int.toNat_natCast] at e0 e1
      have h1 : ((idx (ix2 e (0 : Fin 1))).toInt.toNat : Int) = (idx (ix2 e (0 : Fin 1))).toInt := Int.toNat_of_nonneg h0.1
      exact ⟨h1.symm.trans (congrArg (fun n : Nat => (n : Int)) e0), Fin.ext e1⟩
    · rintro ⟨heq, rfl⟩
      congr 1
      funext a
      refine Fin.ext ?_
      match a with
      | ⟨0, _⟩ =>
        show ((addRows N C E wf).start (ix2 e o') idx 0 + ((addRows N C E wf).window (ix2 e o') 0 : Int)).toNat = j.val
        rw [hs0, hw0, heq]; simp
      | ⟨1, _⟩ =>
        show ((addRows N C E wf).start (ix2 e o') idx 1 + ((addRows N C E wf).window (ix2 e o') 1 : Int)).toNat = o'.val
        rw [hs1, hw1]; simp
  · next h =>
    constructor
    · intro heq; exact absurd heq (by simp)
    · rintro ⟨heq, rfl⟩
      exfalso; apply h
      intro a
      match a with
      | ⟨0, _⟩ =>
        show 0 ≤ (addRows N C E wf).start (ix2 e o') idx 0 + ((addRows N C E wf).window (ix2 e o') 0 : Int)
          ∧ (addRows N C E wf).start (ix2 e o') idx 0 + ((addRows N C E wf).window (ix2 e o') 0 : Int) < (N : Int)
        rw [hs0, hw0, heq]
        have := j.isLt
        simp only [Nat.cast_zero, add_zero]
        exact ⟨by omega, by exact_mod_cast this⟩
      | ⟨1, _⟩ =>
        show 0 ≤ (addRows N C E wf).start (ix2 e o') idx 1 + ((addRows N C E wf).window (ix2 e o') 1 : Int)
          ∧ (addRows N C E wf).start (ix2 e o') idx 1 + ((addRows N C E wf).window (ix2 e o') 1 : Int) < (C : Int)
        rw [hs1, hw1]
        have := o'.isLt
        simp only [zero_add]
        exact ⟨by omega, by exact_mod_cast this⟩

/-- THE ACCUMULATED ARRAY AT (j, o), over the extended reals: the operand there plus the entries, in column `o`, of the
    update rows of the edges that name row `j`. -/
theorem scatterAdd_addRows_apply {φ : FTy} (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (j : Fin N) (o : Fin C) :
    Host.scatterAdd (addRows N C E wf) x idx upd (ix2 j o)
      = x (ix2 j o) + ∑ e : Fin E with (idx (ix2 e (0 : Fin 1))).toInt = (j.val : Int), upd (ix2 e o) := by
  show Ideal.hostScatterAdd (addRows N C E wf) x idx upd (ix2 j o) = _
  unfold Ideal.hostScatterAdd
  congr 1
  symm
  refine Finset.sum_nbij (fun e => ix2 e o) ?_ ?_ ?_ (fun _ _ => rfl)
  · intro e he
    simp only [Finset.mem_filter, Finset.mem_univ, true_and] at he ⊢
    exact (addRows_resultIdx_eq_some_iff wf idx e o j o).mpr ⟨he, rfl⟩
  · intro a _ b _ hab
    have := congrFun hab 0
    exact this
  · intro u hu
    obtain ⟨e, o', rfl⟩ : ∃ (e : Fin E) (o' : Fin C), u = ix2 e o' := ⟨u 0, u 1, eq_ix2 u⟩
    simp only [Finset.coe_filter, Finset.mem_univ, true_and, Set.mem_setOf_eq] at hu
    obtain ⟨he, rfl⟩ := (addRows_resultIdx_eq_some_iff wf idx e o' j o).mp hu
    exact ⟨e, by simpa using he, rfl⟩

/-! ## Reading at the positions an edge list names -/

/-- The dimension numbers of `x[idx]` for `x : [N]`, `idx : [E, 1]`: result `[E]`. -/
abbrev takeDims1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- `x[idx]` AT EDGE `e`: the operand at `idx e`, read signed and clamped into `[0, N − 1]`. -/
theorem gather_take1_apply {α : Type} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (takeDims1 N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (takeDims1 N E wf).start (ix1 e) idx 0 + (takeDims1 N E wf).batchCoord (ix1 e) 0 + (takeDims1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeDims1 N E wf).startIndexMap from List.mem_singleton.mpr rfl)]
  have hsi : (takeDims1 N E wf).siIdx (ix1 e) ⟨List.idxOf (0 : Fin 1) (takeDims1 N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The dimension numbers of `x[idx, :]` for `x : [N, C]`, `idx : [E, 1]`: result `[E, C]`, row `e` the operand's row `idx e`. -/
abbrev takeRows (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- `x[idx, :]` AT (e, o): the operand at row `idx e` (read signed, clamped into `[0, N − 1]`), column `o`. -/
theorem gather_rows_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (o : Fin C) :
    Host.gather (takeRows N C E wf) x idx (ix2 e o)
      = x (ix2 ⟨min (idx (ix2 e (0 : Fin 1))).toInt.toNat (N - 1), by omega⟩ o) := by
  unfold Host.gather
  congr 1
  funext a
  refine Fin.ext ?_
  match a with
  | ⟨0, _⟩ =>
    show (takeRows N C E wf).start (ix2 e o) idx 0 + (takeRows N C E wf).batchCoord (ix2 e o) 0 + (takeRows N C E wf).offCoord (ix2 e o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRows N C E wf).startIndexMap from List.mem_singleton.mpr rfl)]
    have hsi : (takeRows N C E wf).siIdx (ix2 e o) ⟨List.idxOf (0 : Fin 2) (takeRows N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (takeRows N C E wf).start (ix2 e o) idx 1 + (takeRows N C E wf).batchCoord (ix2 e o) 1 + (takeRows N C E wf).offCoord (ix2 e o) 1 = o.val
    rw [GatherDims.batchCoord_eq_zero _ _ _ List.not_mem_nil]
    have hst : (takeRows N C E wf).start (ix2 e o) idx 1 = 0 := by
      unfold GatherDims.start
      rw [dif_neg]
      simp
    rw [hst]
    simp only [Nat.zero_add, Nat.add_zero]
    unfold GatherDims.offCoord
    rw [dif_pos (by simp [GatherDims.sKept, Shape.kept])]
    rfl

end Cert.EdgeOps

end
-- ==== Proof.LibFlatLayout.lean ====
/-
  Layout operations between a flat array and its two-axis forms, read at an index.

  A flat array of `n` entries is reshaped to rows of `b` (entry (r, q) is entry `r * b + q`) and back, laid out as a
  column `[n, 1]` and back, put beside another column as `[n, 2]`, cut to one column again, padded at its end and cut
  back to a leading segment. Each lemma reads one such operation at an index built from coordinates and names the
  operand's index; the coordinates' arithmetic is a hypothesis where it is not evident.
-/
import Idealize.ShloMosaic.Lib.Pipeline.Value
import Idealize.ShloMosaic.Lib.KernelVsHost
import Idealize.ShloMosaic.Lib.ValueIdx

noncomputable section

namespace Cert.FlatLayout

open Idealize.ShloMosaic Idealize.ShloMosaic.ValueIdx

variable {α : Type}

/-- A flat array reshaped to rows of `b`: entry (r, q) is the flat entry `r * b + q`. -/
theorem reshape_rows_apply {n a b : Nat} (x : (⟨1, ![n]⟩ : Shape).Idx → α)
    (h : (⟨1, ![n]⟩ : Shape).ShapeCasts ⟨2, ![a, b]⟩) (r : Fin a) (q : Fin b) (e : Fin n)
    (he : e.val = r.val * b + q.val) :
    shapeCast ⟨2, ![a, b]⟩ x h (ix2 r q) = x (ix1 e) := by
  refine shapeCast_apply x h (ix2 r q) (ix1 e) ?_
  rw [Shape.rowMajor_val_one, Shape.rowMajor_val_two]
  exact he

/-- Rows of `b` flattened: the flat entry `r * b + q` is entry (r, q). -/
theorem reshape_flat_apply {n a b : Nat} (x : (⟨2, ![a, b]⟩ : Shape).Idx → α)
    (h : (⟨2, ![a, b]⟩ : Shape).ShapeCasts ⟨1, ![n]⟩) (e : Fin n) (r : Fin a) (q : Fin b)
    (he : e.val = r.val * b + q.val) :
    shapeCast ⟨1, ![n]⟩ x h (ix1 e) = x (ix2 r q) := by
  refine shapeCast_apply x h (ix1 e) (ix2 r q) ?_
  rw [Shape.rowMajor_val_one, Shape.rowMajor_val_two]
  exact he.symm

/-- A column `[n, 1]` flattened: entry `j` is entry (j, 0). -/
theorem reshape_col_apply {n : Nat} (x : (⟨2, ![n, 1]⟩ : Shape).Idx → α)
    (h : (⟨2, ![n, 1]⟩ : Shape).ShapeCasts ⟨1, ![n]⟩) (j : Fin n) :
    shapeCast ⟨1, ![n]⟩ x h (ix1 j) = x (ix2 j (0 : Fin 1)) :=
  reshape_flat_apply x h j j 0 (by simp)

/-- A flat array laid out as a column `[n, 1]`: entry (e, 0) is entry `e`. -/
theorem bcast_col_apply {n : Nat} (h : (⟨1, ![n]⟩ : Shape).BroadcastsInDim ⟨2, ![n, 1]⟩ (![0] : Fin 1 → Fin 2))
    (x : (⟨1, ![n]⟩ : Shape).Idx → α) (e : Fin n) (o : Fin 1) :
    broadcastInDim ⟨2, ![n, 1]⟩ ![0] h x (ix2 e o) = x (ix1 e) := by
  refine broadcastInDim_apply _ h x (ix2 e o) (ix1 e) fun a => ?_
  match a with
  | ⟨0, _⟩ =>
    show e.val = if n = 1 then 0 else e.val
    split
    · next h1 => have := e.isLt; omega
    · rfl

/-- A scalar broadcast to any shape reads the scalar everywhere. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun a => a.elim0

/-- Two columns side by side: column 0 of the pair is the first column. -/
theorem concat_cols_apply_zero {n : Nat} (x₁ x₂ : (⟨2, ![n, 1]⟩ : Shape).Idx → α)
    (h : Shape.Concatenates [(⟨2, ![n, 1]⟩ : Shape), ⟨2, ![n, 1]⟩] ⟨2, ![n, 2]⟩ 1) (e : Fin n) :
    concatenate ⟨2, ![n, 2]⟩ 1 [⟨⟨2, ![n, 1]⟩, x₁⟩, ⟨⟨2, ![n, 1]⟩, x₂⟩] h (ix2 e (0 : Fin 2)) = x₁ (ix2 e (0 : Fin 1)) := by
  refine concatenate_pair_apply_left 1 x₁ x₂ h (ix2 e 0) rfl (ix2 e 0) fun b => ?_
  match b with
  | ⟨0, _⟩ => rfl
  | ⟨1, _⟩ => rfl

/-- Two columns side by side: column 1 of the pair is the second column. -/
theorem concat_cols_apply_one {n : Nat} (x₁ x₂ : (⟨2, ![n, 1]⟩ : Shape).Idx → α)
    (h : Shape.Concatenates [(⟨2, ![n, 1]⟩ : Shape), ⟨2, ![n, 1]⟩] ⟨2, ![n, 2]⟩ 1) (e : Fin n) :
    concatenate ⟨2, ![n, 2]⟩ 1 [⟨⟨2, ![n, 1]⟩, x₁⟩, ⟨⟨2, ![n, 1]⟩, x₂⟩] h (ix2 e (1 : Fin 2)) = x₂ (ix2 e (0 : Fin 1)) := by
  refine concatenate_pair_apply_right 1 x₁ x₂ h (ix2 e 1) rfl rfl (ix2 e 0) (fun b hb => ?_) ?_
  · match b with
    | ⟨0, _⟩ => rfl
    | ⟨1, _⟩ => exact absurd rfl hb
  · rfl

/-- One column of a two-column array: entry (j, 0) of the cut at column `k` is entry (j, k). -/
theorem slice_col_apply {n : Nat} (k : Nat) (hk : k < 2) (x : (⟨2, ![n, 2]⟩ : Shape).Idx → α)
    (h : (⟨2, ![n, 2]⟩ : Shape).Slices ![0, k] ⟨2, ![n, 1]⟩) (j : Fin n) (o : Fin 1) :
    extractStridedSlice ⟨2, ![n, 1]⟩ ![0, k] x h (ix2 j o) = x (ix2 j (⟨k, hk⟩ : Fin 2)) := by
  refine extractStridedSlice_apply _ x h (ix2 j o) (ix2 j ⟨k, hk⟩) fun a => ?_
  match a with
  | ⟨0, _⟩ => show j.val = 0 + j.val; omega
  | ⟨1, _⟩ => show k = k + o.val; have := o.isLt; omega

/-- A leading segment of a flat array: entry `j` is entry `j`. -/
theorem slice_head_apply {n n' : Nat} (x : (⟨1, ![n']⟩ : Shape).Idx → α)
    (h : (⟨1, ![n']⟩ : Shape).Slices ![0] ⟨1, ![n]⟩) (j : Fin n) (j' : Fin n') (hj : j'.val = j.val) :
    extractStridedSlice ⟨1, ![n]⟩ ![0] x h (ix1 j) = x (ix1 j') := by
  refine extractStridedSlice_apply _ x h (ix1 j) (ix1 j') fun a => ?_
  match a with
  | ⟨0, _⟩ => show j'.val = 0 + j.val; omega

/-- A flat array padded at its end: below the operand's extent, entry `j` is the operand's entry `j`. -/
theorem pad_tail_apply {n n' p : Nat} (x : (⟨1, ![n]⟩ : Shape).Idx → α) {u : Shape} (v : u.Idx → α)
    (h : (⟨1, ![n]⟩ : Shape).Pads (![0] : Fin 1 → Nat) ![p] ![0] ⟨1, ![n']⟩) (hu : 0 < u.numel)
    (j' : Fin n') (j : Fin n) (hj : j'.val = j.val) :
    pad ⟨1, ![n']⟩ ![0] ![p] ![0] x v h hu (ix1 j') = x (ix1 j) := by
  refine pad_apply_of_inside _ _ _ x v h hu (ix1 j') (ix1 j) fun a => ?_
  match a with
  | ⟨0, _⟩ => show j'.val = 0 + j.val * (0 + 1); omega

end Cert.FlatLayout

end
-- ==== Proof.KerArgs.lean ====
/-
  The kernel program's ten argument arrays on a core, as plain functions: the launch contents of each argument buffer,
  read as a function of its index, and the same arrays indexed by node or edge number as the specification takes them.
-/
import proofs.«135522_j14551349199581_2_alg».proof.Proof.Gen.KernelIdeal.Regions
import proofs.«135522_j14551349199581_2_alg».proof.Proof.Spec
import Idealize.ShloMosaic.Lib.ValueIdx

noncomputable section

namespace Cert.KerValue

open Cert.KernelIdeal Cert.KernelIdeal.Gen Idealize.ShloMosaic Idealize.ShloMosaic.ValueIdx
open Idealize.ShloMosaic.TcCoe Idealize.ShloMosaic.StableHlo Idealize.SL.Sem

variable (m : (ℓ : Loc nD τ sig) → Buf (Elt Ideal) ℓ) (c : Dev nD)

/-- The node state `x` at launch. -/
abbrev a0 : S1000000.Idx → EReal := m ((c.tc : Thread nD τ).loc main_arg0)
/-- The activating list's gains at launch. -/
abbrev a1 : S8000000.Idx → EReal := m ((c.tc : Thread nD τ).loc main_arg1)
/-- The inhibiting list's gains at launch. -/
abbrev a2 : S8000000.Idx → EReal := m ((c.tc : Thread nD τ).loc main_arg2)
/-- `nu` at launch. -/
abbrev a3 : S1000000.Idx → EReal := m ((c.tc : Thread nD τ).loc main_arg3)
/-- `decay` at launch. -/
abbrev a4 : S1000000.Idx → EReal := m ((c.tc : Thread nD τ).loc main_arg4)
/-- `growth` at launch. -/
abbrev a5 : S1000000.Idx → EReal := m ((c.tc : Thread nD τ).loc main_arg5)
/-- The activating list's source words at launch. -/
abbrev a6 : S8000000.Idx → BitVec 32 := m ((c.tc : Thread nD τ).loc main_arg6)
/-- The activating list's destination words at launch. -/
abbrev a7 : S8000000.Idx → BitVec 32 := m ((c.tc : Thread nD τ).loc main_arg7)
/-- The inhibiting list's source words at launch. -/
abbrev a8 : S8000000.Idx → BitVec 32 := m ((c.tc : Thread nD τ).loc main_arg8)
/-- The inhibiting list's destination words at launch. -/
abbrev a9 : S8000000.Idx → BitVec 32 := m ((c.tc : Thread nD τ).loc main_arg9)

/-- A one-axis array over the nodes, by node number. -/
abbrev byNode {α : Type} (f : S1000000.Idx → α) : Fin Cert.Spec.NN → α := fun j => f (ix1 j)
/-- A one-axis array over the edges, by edge number. -/
abbrev byEdge {α : Type} (f : S8000000.Idx → α) : Fin Cert.Spec.NE → α := fun e => f (ix1 e)

end Cert.KerValue

end
-- ==== Proof.KerEdge.lean ====
/-
  The edge side of the kernel program, read at an edge.

  Before the first pallas_call the program normalises each list's source words as jnp normalises an index, gathers the
  node state at them and reshapes gains and gathered states to rows of 512. With what the two edge pallas_calls leave
  given (each entry the edge stage of its two operands), the contribution of edge `e` of either list, after the reshape
  back to a flat array, is the specification's: the edge's gain times the square of the state at its source.
-/
import proofs.«135522_j14551349199581_2_alg».proof.Proof.Gen.KernelIdeal.Regions
import proofs.«135522_j14551349199581_2_alg».proof.Proof.Spec
import proofs.«135522_j14551349199581_2_alg».proof.Proof.LibEdgeOps
import proofs.«135522_j14551349199581_2_alg».proof.Proof.LibFlatLayout
import proofs.«135522_j14551349199581_2_alg».proof.Proof.KerArgs
import Idealize.ShloMosaic.Lib.Pipeline.Value
import Idealize.ShloMosaic.Lib.StableHlo.Run

noncomputable section

namespace Cert.KerValue

open Cert.KernelIdeal Cert.KernelIdeal.Gen Idealize.ShloMosaic Idealize.ShloMosaic.ValueIdx
open Idealize.ShloMosaic.TcCoe Idealize.ShloMosaic.StableHlo Idealize.SL.Sem

variable (m : (ℓ : Loc nD τ sig) → Buf (Elt Ideal) ℓ) (outs : Outs (F := Ideal)) (c : Dev nD)

/-- A list's source words normalised as jnp normalises an index, laid out `[E, 1]` as the gather reads them. -/
def wrapVec (s : S8000000.Idx → BitVec 32) : S8000000x1.Idx → BitVec 32 :=
  broadcastInDim S8000000x1 ![0] bcast_S8000000_S8000000x1_0
    (select (cmpi .slt s (broadcastInDim S8000000 ![] bcast_S_S8000000 (constantI S_ 32 0#32)))
      (addi s (broadcastInDim S8000000 ![] bcast_S_S8000000 (constantI S_ 32 1000000#32))) s)

/-- The node state gathered at a list's normalised source words. -/
def gathered (x : S1000000.Idx → EReal) (s : S8000000.Idx → BitVec 32) : S8000000.Idx → EReal :=
  Host.gather gather_S1000000_S8000000x1_S8000000_n_0_n_n_0_1_1 x (wrapVec s)

/-- The normalised word of edge `e` is the specification's. -/
theorem wrapVec_apply (s : S8000000.Idx → BitVec 32) (e : Fin 8000000) (o : Fin 1) :
    wrapVec s (ix2 e o) = Cert.Spec.wrapIdx (s (ix1 e)) := by
  unfold wrapVec
  exact (Cert.FlatLayout.bcast_col_apply _ _ e o).trans rfl

/-- The gathered state at edge `e` is the specification's state at the edge's source. -/
theorem gathered_apply (x : S1000000.Idx → EReal) (s : S8000000.Idx → BitVec 32) (e : Fin 8000000) :
    gathered x s (ix1 e) = Cert.Spec.srcState (byNode x) (byEdge s) e := by
  unfold gathered
  show Host.gather (Cert.EdgeOps.takeDims1 1000000 8000000 gather_S1000000_S8000000x1_S8000000_n_0_n_n_0_1_1_wf) x (wrapVec s) (ix1 e) = _
  rw [Cert.EdgeOps.gather_take1_apply (by decide)]
  unfold Cert.Spec.srcState
  refine congrArg x (congrArg ix1 (Fin.ext ?_))
  show min (wrapVec s (ix2 e (0 : Fin 1))).toInt.toNat (1000000 - 1) = min (Cert.Spec.wrapIdx (s (ix1 e))).toInt.toNat (Cert.Spec.NN - 1)
  rw [wrapVec_apply]

/-! ## The buffers before the first pallas_call -/

theorem V1_v14 : (V1 m c main_v14 : S15625x512.Idx → EReal) = shapeCast S15625x512 (a1 m c) shapeCasts_S8000000_S15625x512 := by
  show StableHlo.after hostOps0 (V0 m c) (Proc.devRef .tc main_v14) = _
  after_results
  rfl

theorem V1_v15 : (V1 m c main_v15 : S15625x512.Idx → EReal)
    = shapeCast S15625x512 (gathered (a0 m c) (a6 m c)) shapeCasts_S8000000_S15625x512 := by
  show StableHlo.after hostOps0 (V0 m c) (Proc.devRef .tc main_v15) = _
  after_results
  rfl

theorem V1_v13 : (V1 m c main_v13 : S8000000.Idx → EReal) = gathered (a0 m c) (a8 m c) := by
  show StableHlo.after hostOps0 (V0 m c) (Proc.devRef .tc main_v13) = _
  after_results_simp
  rfl

/-! ## The buffers between the two edge pallas_calls -/

theorem V3_v17 : (V3 m outs c main_v17 : S8000000.Idx → EReal)
    = shapeCast S8000000 (outs 2 main_v16 c : S15625x512.Idx → EReal) shapeCasts_S15625x512_S8000000 := by
  have h2 : V2 m outs c main_v16 = outs 2 main_v16 c := Function.update_self _ _ _
  show StableHlo.after hostOps1 (V2 m outs c) (Proc.devRef .tc main_v17) = _
  after_results
  rw [h2]
  rfl

theorem V3_v18 : (V3 m outs c main_v18 : S15625x512.Idx → EReal) = shapeCast S15625x512 (a2 m c) shapeCasts_S8000000_S15625x512 := by
  show StableHlo.after hostOps1 (V2 m outs c) (Proc.devRef .tc main_v18) = _
  after_results
  rw [V2_of m outs c main_arg2 (by decide), V1_of m c main_arg2 (by decide)]
  rfl

theorem V3_v19 : (V3 m outs c main_v19 : S15625x512.Idx → EReal)
    = shapeCast S15625x512 (gathered (a0 m c) (a8 m c)) shapeCasts_S8000000_S15625x512 := by
  show StableHlo.after hostOps1 (V2 m outs c) (Proc.devRef .tc main_v19) = _
  after_results
  rw [V2_of m outs c main_v13 (by decide), V1_v13]
  rfl

/-! ## One edge's contribution -/

/-- Edge `e` sits at row `e / 512`, column `e % 512` of the rows of 512. -/
theorem edge_pos (e : Fin 8000000) :
    e.val = (⟨e.val / 512, by have := e.isLt; omega⟩ : Fin 15625).val * 512 + (⟨e.val % 512, Nat.mod_lt _ (by decide)⟩ : Fin 512).val := by
  show e.val = e.val / 512 * 512 + e.val % 512
  omega

/-- The activating list's contribution of edge `e`, as the scatter reads it. -/
theorem edgeA_apply
    (h16 : (outs 2 main_v16 c : S15625x512.Idx → EReal) = fun i => Cert.Spec.edgeVal ((V1 m c main_v14 : S15625x512.Idx → EReal) i) ((V1 m c main_v15 : S15625x512.Idx → EReal) i))
    (e : Fin 8000000) :
    (V4 m outs c main_v17 : S8000000.Idx → EReal) (ix1 e)
      = Cert.Spec.edge (byEdge (a1 m c)) (Cert.Spec.srcState (byNode (a0 m c)) (byEdge (a6 m c))) e := by
  have h1 : (V4 m outs c main_v17 : S8000000.Idx → EReal)
      = shapeCast S8000000 (outs 2 main_v16 c : S15625x512.Idx → EReal) shapeCasts_S15625x512_S8000000 :=
    (V4_of m outs c main_v17 (by decide)).trans (V3_v17 m outs c)
  rw [h1, Cert.FlatLayout.reshape_flat_apply _ _ e _ _ (edge_pos e), h16]
  show Cert.Spec.edgeVal ((V1 m c main_v14 : S15625x512.Idx → EReal) _) ((V1 m c main_v15 : S15625x512.Idx → EReal) _) = _
  rw [V1_v14, V1_v15, Cert.FlatLayout.reshape_rows_apply _ _ _ _ e (edge_pos e),
    Cert.FlatLayout.reshape_rows_apply _ _ _ _ e (edge_pos e), gathered_apply]
  rfl

/-- The inhibiting list's contribution of edge `e`, as the scatter reads it. -/
theorem edgeI_apply
    (h20 : (outs 4 main_v20 c : S15625x512.Idx → EReal) = fun i => Cert.Spec.edgeVal ((V3 m outs c main_v18 : S15625x512.Idx → EReal) i) ((V3 m outs c main_v19 : S15625x512.Idx → EReal) i))
    (e : Fin 8000000) :
    shapeCast S8000000 (V4 m outs c main_v20 : S15625x512.Idx → EReal) shapeCasts_S15625x512_S8000000 (ix1 e)
      = Cert.Spec.edge (byEdge (a2 m c)) (Cert.Spec.srcState (byNode (a0 m c)) (byEdge (a8 m c))) e := by
  have h4 : V4 m outs c main_v20 = outs 4 main_v20 c := Function.update_self _ _ _
  rw [h4, Cert.FlatLayout.reshape_flat_apply _ _ e _ _ (edge_pos e), h20]
  show Cert.Spec.edgeVal ((V3 m outs c main_v18 : S15625x512.Idx → EReal) _) ((V3 m outs c main_v19 : S15625x512.Idx → EReal) _) = _
  rw [V3_v18, V3_v19, Cert.FlatLayout.reshape_rows_apply _ _ _ _ e (edge_pos e),
    Cert.FlatLayout.reshape_rows_apply _ _ _ _ e (edge_pos e), gathered_apply]
  rfl

end Cert.KerValue

end
-- ==== Proof.LibEdgeCount.lean ====
/-
  Counting the edges that end at a node, on the extended reals.

  A sum of ones over a finite set is the set's cardinality; as an extended real it is positive exactly when the set is
  nonempty. The float literal whose word is 0x3F800000 is the extended real one.
-/
import Idealize.ShloMosaic.PureOps.Ideal

noncomputable section

namespace Cert.EdgeCount

open Idealize.ShloMosaic

/-- A sum of ones over a finite set is its cardinality. -/
theorem sum_one_eq_card {ι : Type*} (s : Finset ι) : (∑ _e ∈ s, (1 : EReal)) = (s.card : EReal) := by
  rw [Finset.sum_const, nsmul_one]

/-- A natural number is positive as an extended real exactly when it is positive. -/
theorem natCast_pos_iff (n : ℕ) : (0 : EReal) < (n : EReal) ↔ 0 < n := by
  rw [← EReal.coe_natCast, EReal.coe_pos, Nat.cast_pos]

/-- A sum of ones over a finite set is positive exactly when the set is nonempty. -/
theorem sum_one_pos_iff {ι : Type*} (s : Finset ι) : (0 : EReal) < ∑ _e ∈ s, (1 : EReal) ↔ s.Nonempty := by
  rw [sum_one_eq_card, natCast_pos_iff, Finset.card_pos]

/-- The single-precision word 0x3F800000 is the extended real one. -/
theorem ofBits_one_f32 : Ideal.ofBits .f32 0x3F800000#32 = 1 := by
  simp [Ideal.ofBits, Ideal.ieee, -EReal.coe_mul]; norm_num

end Cert.EdgeCount

end
-- ==== Proof.KerScatter.lean ====
/-
  The accumulation of the kernel program, read at a node.

  Each list's contributions are paired with a column of ones into rows `[contribution, 1]`, and ONE accumulating
  scatter adds row `e` into the row of a zero array `[nodes, 2]` that the edge's raw destination word names (a word
  that, read signed, names no node drops its row). At node `j` column 0 is therefore the sum of the contributions of
  the edges that end at `j`, and column 1 the number of such edges, as a sum of ones.
-/
import proofs.«135522_j14551349199581_2_alg».proof.Proof.Gen.KernelIdeal.Regions
import proofs.«135522_j14551349199581_2_alg».proof.Proof.Spec
import proofs.«135522_j14551349199581_2_alg».proof.Proof.LibEdgeOps
import proofs.«135522_j14551349199581_2_alg».proof.Proof.LibFlatLayout
import proofs.«135522_j14551349199581_2_alg».proof.Proof.LibEdgeCount
import proofs.«135522_j14551349199581_2_alg».proof.Proof.KerArgs
import Idealize.ShloMosaic.Lib.Pipeline.Value
import Idealize.ShloMosaic.Lib.StableHlo.Run
import Idealize.ShloMosaic.PureOps.Ideal.Laws

noncomputable section

namespace Cert.KerValue

open Cert.KernelIdeal Cert.KernelIdeal.Gen Idealize.ShloMosaic Idealize.ShloMosaic.ValueIdx
open Idealize.ShloMosaic.TcCoe Idealize.ShloMosaic.StableHlo Idealize.SL.Sem

variable (m : (ℓ : Loc nD τ sig) → Buf (Elt Ideal) ℓ) (outs : Outs (F := Ideal)) (c : Dev nD)

/-- A list's contributions beside a column of ones: the rows the scatter adds. -/
def payload (v : S8000000.Idx → EReal) : S8000000x2.Idx → EReal :=
  concatenate S8000000x2 1
    [⟨S8000000x1, broadcastInDim S8000000x1 ![0] bcast_S8000000_S8000000x1_0 v⟩,
     ⟨S8000000x1, broadcastInDim S8000000x1 ![0] bcast_S8000000_S8000000x1_0
        (broadcastInDim S8000000 ![] bcast_S_S8000000 (constant (F := Ideal) S_ .f32 0x3F800000#32))⟩]
    concatenates_S8000000x1_S8000000x1_S8000000x2_d1

/-- The rows accumulated, from zero, at the rows the raw destination words `d` name. -/
def accum (d : S8000000.Idx → BitVec 32) (v : S8000000.Idx → EReal) : S1000000x2.Idx → EReal :=
  Host.scatterAdd (F := Ideal) (φ := .f32) scatter_S1000000x2_S8000000x1_S8000000x2_1_0_0_1
    (broadcastInDim S1000000x2 ![] bcast_S_S1000000x2 (constant (F := Ideal) S_ .f32 0x00000000#32))
    (broadcastInDim S8000000x1 ![0] bcast_S8000000_S8000000x1_0 d) (payload v)

/-- Column `k` of an accumulated array, as a flat array over the nodes. -/
def column (k : Nat) (h : S1000000x2.Slices ![0, k] S1000000x1) (y : S1000000x2.Idx → EReal) : S1000000.Idx → EReal :=
  shapeCast S1000000 (extractStridedSlice S1000000x1 ![0, k] y h) shapeCasts_S1000000x1_S1000000

theorem payload_zero (v : S8000000.Idx → EReal) (e : Fin 8000000) : payload v (ix2 e (0 : Fin 2)) = v (ix1 e) := by
  unfold payload
  rw [Cert.FlatLayout.concat_cols_apply_zero, Cert.FlatLayout.bcast_col_apply]

theorem payload_one (v : S8000000.Idx → EReal) (e : Fin 8000000) : payload v (ix2 e (1 : Fin 2)) = 1 := by
  unfold payload
  rw [Cert.FlatLayout.concat_cols_apply_one, Cert.FlatLayout.bcast_col_apply]
  exact Cert.EdgeCount.ofBits_one_f32

/-- The accumulated array at node `j`, column `o`: the sum, over the edges that end at `j`, of column `o` of their rows. -/
theorem accum_apply (d : S8000000.Idx → BitVec 32) (v : S8000000.Idx → EReal) (j : Fin 1000000) (o : Fin 2) :
    accum d v (ix2 j o) = ∑ e ∈ Cert.Spec.into (byEdge d) j, payload v (ix2 e o) := by
  unfold accum
  show Host.scatterAdd (F := Ideal) (φ := .f32)
    (Cert.EdgeOps.addRows 1000000 2 8000000 scatter_S1000000x2_S8000000x1_S8000000x2_1_0_0_1_wf) _ _ _ (ix2 j o) = _
  rw [Cert.EdgeOps.scatterAdd_addRows_apply]
  have h0 : (broadcastInDim S1000000x2 ![] bcast_S_S1000000x2 (constant (F := Ideal) S_ .f32 0x00000000#32) : S1000000x2.Idx → EReal) (ix2 j o) = 0 :=
    Ideal.ofBits_zero_f32
  rw [h0, zero_add]
  unfold Cert.Spec.into
  refine Finset.sum_congr (Finset.filter_congr fun e _ => ?_) (fun _ _ => rfl)
  rw [Cert.FlatLayout.bcast_col_apply]

/-- A column of the accumulated array at node `j`. -/
theorem column_accum_apply (k : Nat) (hk : k < 2) (h : S1000000x2.Slices ![0, k] S1000000x1)
    (d : S8000000.Idx → BitVec 32) (v : S8000000.Idx → EReal) (j : Fin 1000000) :
    column k h (accum d v) (ix1 j) = ∑ e ∈ Cert.Spec.into (byEdge d) j, payload v (ix2 e (⟨k, hk⟩ : Fin 2)) := by
  unfold column
  rw [Cert.FlatLayout.reshape_col_apply, Cert.FlatLayout.slice_col_apply k hk, accum_apply]

/-! ## The arguments and the buffers after the accumulation -/

theorem V4_arg7 : V4 m outs c main_arg7 = a7 m c :=
  (V4_of m outs c main_arg7 (by decide)).trans <| (V3_of m outs c main_arg7 (by decide)).trans <|
    (V2_of m outs c main_arg7 (by decide)).trans <| V1_of m c main_arg7 (by decide)

theorem V4_arg9 : V4 m outs c main_arg9 = a9 m c :=
  (V4_of m outs c main_arg9 (by decide)).trans <| (V3_of m outs c main_arg9 (by decide)).trans <|
    (V2_of m outs c main_arg9 (by decide)).trans <| V1_of m c main_arg9 (by decide)

/-- The activating list's accumulated array. -/
def accA : S1000000x2.Idx → EReal := accum (a7 m c) (V4 m outs c main_v17)
/-- The inhibiting list's accumulated array. -/
def accI : S1000000x2.Idx → EReal :=
  accum (a9 m c) (shapeCast S8000000 (V4 m outs c main_v20 : S15625x512.Idx → EReal) shapeCasts_S15625x512_S8000000)

theorem V5_v37 : (V5 m outs c main_v37 : S1000000.Idx → EReal) = column 0 slices_S1000000x2_S1000000x1_0_0 (accA m outs c) := by
  show StableHlo.after hostOps2 (V4 m outs c) (Proc.devRef .tc main_v37) = _
  after_results_simp
  rw [V4_arg7]
  rfl

theorem V5_v39 : (V5 m outs c main_v39 : S1000000.Idx → EReal) = column 1 slices_S1000000x2_S1000000x1_0_1 (accA m outs c) := by
  show StableHlo.after hostOps2 (V4 m outs c) (Proc.devRef .tc main_v39) = _
  after_results_simp
  rw [V4_arg7]
  rfl

theorem V5_v41 : (V5 m outs c main_v41 : S1000000.Idx → EReal) = column 0 slices_S1000000x2_S1000000x1_0_0 (accI m outs c) := by
  show StableHlo.after hostOps2 (V4 m outs c) (Proc.devRef .tc main_v41) = _
  after_results_simp
  rw [V4_arg9]
  rfl

theorem V5_v43 : (V5 m outs c main_v43 : S1000000.Idx → EReal) = column 1 slices_S1000000x2_S1000000x1_0_1 (accI m outs c) := by
  show StableHlo.after hostOps2 (V4 m outs c) (Proc.devRef .tc main_v43) = _
  after_results_simp
  rw [V4_arg9]
  rfl

end Cert.KerValue

end
-- ==== Proof.KerNode.lean ====
/-
  Each list's sums and counts over the nodes, read at a node.

  Column 0 of a list's accumulated array at node `j` is the specification's sum of the list's contributions at `j`;
  column 1 is the number of the list's edges that end at `j`, as a sum of ones.
-/
import proofs.«135522_j14551349199581_2_alg».proof.Proof.KerEdge
import proofs.«135522_j14551349199581_2_alg».proof.Proof.KerScatter

noncomputable section

namespace Cert.KerValue

open Cert.KernelIdeal Cert.KernelIdeal.Gen Idealize.ShloMosaic Idealize.ShloMosaic.ValueIdx
open Idealize.ShloMosaic.TcCoe Idealize.ShloMosaic.StableHlo Idealize.SL.Sem

variable (m : (ℓ : Loc nD τ sig) → Buf (Elt Ideal) ℓ) (outs : Outs (F := Ideal)) (c : Dev nD)

/-- The activating list's sum at node `j`. -/
theorem sumA_apply
    (h16 : (outs 2 main_v16 c : S15625x512.Idx → EReal) = fun i => Cert.Spec.edgeVal ((V1 m c main_v14 : S15625x512.Idx → EReal) i) ((V1 m c main_v15 : S15625x512.Idx → EReal) i))
    (j : Fin 1000000) :
    (V5 m outs c main_v37 : S1000000.Idx → EReal) (ix1 j)
      = Cert.Spec.total (byEdge (a7 m c)) (byEdge (a1 m c)) (Cert.Spec.srcState (byNode (a0 m c)) (byEdge (a6 m c))) j := by
  rw [V5_v37]
  unfold accA
  rw [column_accum_apply 0 (by decide)]
  unfold Cert.Spec.total
  show (_ : EReal) = _
  exact Finset.sum_congr rfl fun e _ => (payload_zero _ e).trans (edgeA_apply m outs c h16 e)

/-- The activating list's count at node `j`. -/
theorem cntA_apply (j : Fin 1000000) :
    (V5 m outs c main_v39 : S1000000.Idx → EReal) (ix1 j) = ∑ _e ∈ Cert.Spec.into (byEdge (a7 m c)) j, (1 : EReal) := by
  rw [V5_v39]
  unfold accA
  rw [column_accum_apply 1 (by decide)]
  show (_ : EReal) = _
  exact Finset.sum_congr rfl fun e _ => payload_one _ e

/-- The inhibiting list's sum at node `j`. -/
theorem sumI_apply
    (h20 : (outs 4 main_v20 c : S15625x512.Idx → EReal) = fun i => Cert.Spec.edgeVal ((V3 m outs c main_v18 : S15625x512.Idx → EReal) i) ((V3 m outs c main_v19 : S15625x512.Idx → EReal) i))
    (j : Fin 1000000) :
    (V5 m outs c main_v41 : S1000000.Idx → EReal) (ix1 j)
      = Cert.Spec.total (byEdge (a9 m c)) (byEdge (a2 m c)) (Cert.Spec.srcState (byNode (a0 m c)) (byEdge (a8 m c))) j := by
  rw [V5_v41]
  unfold accI
  rw [column_accum_apply 0 (by decide)]
  unfold Cert.Spec.total
  show (_ : EReal) = _
  exact Finset.sum_congr rfl fun e _ => (payload_zero _ e).trans (edgeI_apply m outs c h20 e)

/-- The inhibiting list's count at node `j`. -/
theorem cntI_apply (j : Fin 1000000) :
    (V5 m outs c main_v43 : S1000000.Idx → EReal) (ix1 j) = ∑ _e ∈ Cert.Spec.into (byEdge (a9 m c)) j, (1 : EReal) := by
  rw [V5_v43]
  unfold accI
  rw [column_accum_apply 1 (by decide)]
  show (_ : EReal) = _
  exact Finset.sum_congr rfl fun e _ => payload_one _ e

end Cert.KerValue

end
-- ==== Proof.KerPad.lean ====
/-
  The node side's layout glue, read at a node's position.

  Eight arrays over the nodes — the state, `nu`, `decay`, `growth`, and each list's sums and counts — are each padded
  at the end to 1048576 entries and reshaped to 1024 rows of 1024 before the node pallas_call. Node `j` sits at row
  `j / 1024`, column `j % 1024`, and there each padded array holds its own entry `j`; the padding is never read.
-/
import proofs.«135522_j14551349199581_2_alg».proof.Proof.Gen.KernelIdeal.Regions
import proofs.«135522_j14551349199581_2_alg».proof.Proof.LibFlatLayout
import proofs.«135522_j14551349199581_2_alg».proof.Proof.KerArgs
import Idealize.ShloMosaic.Lib.Pipeline.Value
import Idealize.ShloMosaic.Lib.StableHlo.Run

noncomputable section

namespace Cert.KerValue

open Cert.KernelIdeal Cert.KernelIdeal.Gen Idealize.ShloMosaic Idealize.ShloMosaic.ValueIdx
open Idealize.ShloMosaic.TcCoe Idealize.ShloMosaic.StableHlo Idealize.SL.Sem

variable (m : (ℓ : Loc nD τ sig) → Buf (Elt Ideal) ℓ) (outs : Outs (F := Ideal)) (c : Dev nD)

/-- The row of node `j` in 1024 rows of 1024. -/
def nodeRow (j : Fin 1000000) : Fin 1024 := ⟨j.val / 1024, by have := j.isLt; omega⟩
/-- The column of node `j` in 1024 rows of 1024. -/
def nodeCol (j : Fin 1000000) : Fin 1024 := ⟨j.val % 1024, Nat.mod_lt _ (by decide)⟩

/-- Node `j` as a position of the padded array. -/
def nodeIdx (j : Fin 1000000) : Fin 1048576 := ⟨j.val, by have := j.isLt; omega⟩

theorem node_pos (j : Fin 1000000) : (nodeIdx j).val = (nodeRow j).val * 1024 + (nodeCol j).val := by
  show j.val = j.val / 1024 * 1024 + j.val % 1024
  omega

/-- An array over the nodes padded at its end and reshaped to 1024 rows of 1024 holds entry `j` at node `j`'s position. -/
theorem padded_read (y : S1048576.Idx → EReal) (x : S1000000.Idx → EReal) (z : S_.Idx → EReal)
    (hy : y = pad S1048576 ![0] ![48576] ![0] x z pads_S1000000_S1048576_0485760 h_S_) (j : Fin 1000000) :
    shapeCast S1024x1024 y shapeCasts_S1048576_S1024x1024 (ix2 (nodeRow j) (nodeCol j)) = x (ix1 j) := by
  rw [Cert.FlatLayout.reshape_rows_apply _ _ _ _ _ (node_pos j), hy]
  exact Cert.FlatLayout.pad_tail_apply _ _ _ _ _ j rfl

theorem V5_arg0 : V5 m outs c main_arg0 = a0 m c :=
  (V5_of m outs c main_arg0 (by decide)).trans <| (V4_of m outs c main_arg0 (by decide)).trans <| (V3_of m outs c main_arg0 (by decide)).trans <| (V2_of m outs c main_arg0 (by decide)).trans <| V1_of m c main_arg0 (by decide)

/-- What the padding stretch of the node state writes, from any contents `V`. -/
theorem padStretch0 (V : Valuation τ sig (Elt Ideal)) :
    (StableHlo.after hostOps2_1 V (Proc.devRef .tc main_v44) : S1048576.Idx → EReal)
      = pad S1048576 ![0] ![48576] ![0] (V (Proc.devRef .tc main_arg0) : S1000000.Idx → EReal)
          (sitofp (F := Ideal) .f32 (V (Proc.devRef .tc main_c_6) : S_.Idx → BitVec 32)) pads_S1000000_S1048576_0485760 h_S_ := by
  after_results
  rfl

/-- What the reshaping stretch of the node state writes, from any contents `V`. -/
theorem rowsStretch0 (V : Valuation τ sig (Elt Ideal)) :
    (StableHlo.after hostOps2_2 V (Proc.devRef .tc main_v45) : S1024x1024.Idx → EReal)
      = shapeCast S1024x1024 (V (Proc.devRef .tc main_v44) : S1048576.Idx → EReal) shapeCasts_S1048576_S1024x1024 := by
  after_results
  rfl

theorem V21_v45 : (V21 m outs c main_v45 : S1024x1024.Idx → EReal)
    = shapeCast S1024x1024 (V6 m outs c main_v44 : S1048576.Idx → EReal) shapeCasts_S1048576_S1024x1024 := by
  refine (V21_of m outs c main_v45 (by decide)).trans ?_
  refine (V20_of m outs c main_v45 (by decide)).trans ?_
  refine (V19_of m outs c main_v45 (by decide)).trans ?_
  refine (V18_of m outs c main_v45 (by decide)).trans ?_
  refine (V17_of m outs c main_v45 (by decide)).trans ?_
  refine (V16_of m outs c main_v45 (by decide)).trans ?_
  refine (V15_of m outs c main_v45 (by decide)).trans ?_
  refine (V14_of m outs c main_v45 (by decide)).trans ?_
  refine (V13_of m outs c main_v45 (by decide)).trans ?_
  refine (V12_of m outs c main_v45 (by decide)).trans ?_
  refine (V11_of m outs c main_v45 (by decide)).trans ?_
  refine (V10_of m outs c main_v45 (by decide)).trans ?_
  refine (V9_of m outs c main_v45 (by decide)).trans ?_
  refine (V8_of m outs c main_v45 (by decide)).trans ?_
  exact rowsStretch0 (V6 m outs c)

/-- The node state, padded and reshaped, at node `j`'s position. -/
theorem v45_apply (j : Fin 1000000) :
    (V21 m outs c main_v45 : S1024x1024.Idx → EReal) (ix2 (nodeRow j) (nodeCol j)) = (a0 m c : S1000000.Idx → EReal) (ix1 j) := by
  rw [V21_v45, padded_read _ _ _ (padStretch0 (V5 m outs c)) j, V5_arg0]

theorem V7_arg3 : V7 m outs c main_arg3 = a3 m c :=
  (V7_of m outs c main_arg3 (by decide)).trans <| (V6_of m outs c main_arg3 (by decide)).trans <| (V5_of m outs c main_arg3 (by decide)).trans <| (V4_of m outs c main_arg3 (by decide)).trans <| (V3_of m outs c main_arg3 (by decide)).trans <| (V2_of m outs c main_arg3 (by decide)).trans <| V1_of m c main_arg3 (by decide)

/-- What the padding stretch of `nu` writes, from any contents `V`. -/
theorem padStretch1 (V : Valuation τ sig (Elt Ideal)) :
    (StableHlo.after hostOps2_3 V (Proc.devRef .tc main_v46) : S1048576.Idx → EReal)
      = pad S1048576 ![0] ![48576] ![0] (V (Proc.devRef .tc main_arg3) : S1000000.Idx → EReal)
          (sitofp (F := Ideal) .f32 (V (Proc.devRef .tc main_c_7) : S_.Idx → BitVec 32)) pads_S1000000_S1048576_0485760 h_S_ := by
  after_results
  rfl

/-- What the reshaping stretch of `nu` writes, from any contents `V`. -/
theorem rowsStretch1 (V : Valuation τ sig (Elt Ideal)) :
    (StableHlo.after hostOps2_4 V (Proc.devRef .tc main_v47) : S1024x1024.Idx → EReal)
      = shapeCast S1024x1024 (V (Proc.devRef .tc main_v46) : S1048576.Idx → EReal) shapeCasts_S1048576_S1024x1024 := by
  after_results
  rfl

theorem V21_v47 : (V21 m outs c main_v47 : S1024x1024.Idx → EReal)
    = shapeCast S1024x1024 (V8 m outs c main_v46 : S1048576.Idx → EReal) shapeCasts_S1048576_S1024x1024 := by
  refine (V21_of m outs c main_v47 (by decide)).trans ?_
  refine (V20_of m outs c main_v47 (by decide)).trans ?_
  refine (V19_of m outs c main_v47 (by decide)).trans ?_
  refine (V18_of m outs c main_v47 (by decide)).trans ?_
  refine (V17_of m outs c main_v47 (by decide)).trans ?_
  refine (V16_of m outs c main_v47 (by decide)).trans ?_
  refine (V15_of m outs c main_v47 (by decide)).trans ?_
  refine (V14_of m outs c main_v47 (by decide)).trans ?_
  refine (V13_of m outs c main_v47 (by decide)).trans ?_
  refine (V12_of m outs c main_v47 (by decide)).trans ?_
  refine (V11_of m outs c main_v47 (by decide)).trans ?_
  refine (V10_of m outs c main_v47 (by decide)).trans ?_
  exact rowsStretch1 (V8 m outs c)

/-- `nu`, padded and reshaped, at node `j`'s position. -/
theorem v47_apply (j : Fin 1000000) :
    (V21 m outs c main_v47 : S1024x1024.Idx → EReal) (ix2 (nodeRow j) (nodeCol j)) = (a3 m c : S1000000.Idx → EReal) (ix1 j) := by
  rw [V21_v47, padded_read _ _ _ (padStretch1 (V7 m outs c)) j, V7_arg3]

theorem V9_arg4 : V9 m outs c main_arg4 = a4 m c :=
  (V9_of m outs c main_arg4 (by decide)).trans <| (V8_of m outs c main_arg4 (by decide)).trans <| (V7_of m outs c main_arg4 (by decide)).trans <| (V6_of m outs c main_arg4 (by decide)).trans <| (V5_of m outs c main_arg4 (by decide)).trans <| (V4_of m outs c main_arg4 (by decide)).trans <| (V3_of m outs c main_arg4 (by decide)).trans <| (V2_of m outs c main_arg4 (by decide)).trans <| V1_of m c main_arg4 (by decide)

/-- What the padding stretch of `decay` writes, from any contents `V`. -/
theorem padStretch2 (V : Valuation τ sig (Elt Ideal)) :
    (StableHlo.after hostOps2_5 V (Proc.devRef .tc main_v48) : S1048576.Idx → EReal)
      = pad S1048576 ![0] ![48576] ![0] (V (Proc.devRef .tc main_arg4) : S1000000.Idx → EReal)
          (sitofp (F := Ideal) .f32 (V (Proc.devRef .tc main_c_8) : S_.Idx → BitVec 32)) pads_S1000000_S1048576_0485760 h_S_ := by
  after_results
  rfl

/-- What the reshaping stretch of `decay` writes, from any contents `V`. -/
theorem rowsStretch2 (V : Valuation τ sig (Elt Ideal)) :
    (StableHlo.after hostOps2_6 V (Proc.devRef .tc main_v49) : S1024x1024.Idx → EReal)
      = shapeCast S1024x1024 (V (Proc.devRef .tc main_v48) : S1048576.Idx → EReal) shapeCasts_S1048576_S1024x1024 := by
  after_results
  rfl

theorem V21_v49 : (V21 m outs c main_v49 : S1024x1024.Idx → EReal)
    = shapeCast S1024x1024 (V10 m outs c main_v48 : S1048576.Idx → EReal) shapeCasts_S1048576_S1024x1024 := by
  refine (V21_of m outs c main_v49 (by decide)).trans ?_
  refine (V20_of m outs c main_v49 (by decide)).trans ?_
  refine (V19_of m outs c main_v49 (by decide)).trans ?_
  refine (V18_of m outs c main_v49 (by decide)).trans ?_
  refine (V17_of m outs c main_v49 (by decide)).trans ?_
  refine (V16_of m outs c main_v49 (by decide)).trans ?_
  refine (V15_of m outs c main_v49 (by decide)).trans ?_
  refine (V14_of m outs c main_v49 (by decide)).trans ?_
  refine (V13_of m outs c main_v49 (by decide)).trans ?_
  refine (V12_of m outs c main_v49 (by decide)).trans ?_
  exact rowsStretch2 (V10 m outs c)

/-- `decay`, padded and reshaped, at node `j`'s position. -/
theorem v49_apply (j : Fin 1000000) :
    (V21 m outs c main_v49 : S1024x1024.Idx → EReal) (ix2 (nodeRow j) (nodeCol j)) = (a4 m c : S1000000.Idx → EReal) (ix1 j) := by
  rw [V21_v49, padded_read _ _ _ (padStretch2 (V9 m outs c)) j, V9_arg4]

theorem V11_arg5 : V11 m outs c main_arg5 = a5 m c :=
  (V11_of m outs c main_arg5 (by decide)).trans <| (V10_of m outs c main_arg5 (by decide)).trans <| (V9_of m outs c main_arg5 (by decide)).trans <| (V8_of m outs c main_arg5 (by decide)).trans <| (V7_of m outs c main_arg5 (by decide)).trans <| (V6_of m outs c main_arg5 (by decide)).trans <| (V5_of m outs c main_arg5 (by decide)).trans <| (V4_of m outs c main_arg5 (by decide)).trans <| (V3_of m outs c main_arg5 (by decide)).trans <| (V2_of m outs c main_arg5 (by decide)).trans <| V1_of m c main_arg5 (by decide)

/-- What the padding stretch of `growth` writes, from any contents `V`. -/
theorem padStretch3 (V : Valuation τ sig (Elt Ideal)) :
    (StableHlo.after hostOps2_7 V (Proc.devRef .tc main_v50) : S1048576.Idx → EReal)
      = pad S1048576 ![0] ![48576] ![0] (V (Proc.devRef .tc main_arg5) : S1000000.Idx → EReal)
          (sitofp (F := Ideal) .f32 (V (Proc.devRef .tc main_c_9) : S_.Idx → BitVec 32)) pads_S1000000_S1048576_0485760 h_S_ := by
  after_results
  rfl

/-- What the reshaping stretch of `growth` writes, from any contents `V`. -/
theorem rowsStretch3 (V : Valuation τ sig (Elt Ideal)) :
    (StableHlo.after hostOps2_8 V (Proc.devRef .tc main_v51) : S1024x1024.Idx → EReal)
      = shapeCast S1024x1024 (V (Proc.devRef .tc main_v50) : S1048576.Idx → EReal) shapeCasts_S1048576_S1024x1024 := by
  after_results
  rfl

theorem V21_v51 : (V21 m outs c main_v51 : S1024x1024.Idx → EReal)
    = shapeCast S1024x1024 (V12 m outs c main_v50 : S1048576.Idx → EReal) shapeCasts_S1048576_S1024x1024 := by
  refine (V21_of m outs c main_v51 (by decide)).trans ?_
  refine (V20_of m outs c main_v51 (by decide)).trans ?_
  refine (V19_of m outs c main_v51 (by decide)).trans ?_
  refine (V18_of m outs c main_v51 (by decide)).trans ?_
  refine (V17_of m outs c main_v51 (by decide)).trans ?_
  refine (V16_of m outs c main_v51 (by decide)).trans ?_
  refine (V15_of m outs c main_v51 (by decide)).trans ?_
  refine (V14_of m outs c main_v51 (by decide)).trans ?_
  exact rowsStretch3 (V12 m outs c)

/-- `growth`, padded and reshaped, at node `j`'s position. -/
theorem v51_apply (j : Fin 1000000) :
    (V21 m outs c main_v51 : S1024x1024.Idx → EReal) (ix2 (nodeRow j) (nodeCol j)) = (a5 m c : S1000000.Idx → EReal) (ix1 j) := by
  rw [V21_v51, padded_read _ _ _ (padStretch3 (V11 m outs c)) j, V11_arg5]

theorem V13_v37 : V13 m outs c main_v37 = V5 m outs c main_v37 :=
  (V13_of m outs c main_v37 (by decide)).trans <| (V12_of m outs c main_v37 (by decide)).trans <| (V11_of m outs c main_v37 (by decide)).trans <| (V10_of m outs c main_v37 (by decide)).trans <| (V9_of m outs c main_v37 (by decide)).trans <| (V8_of m outs c main_v37 (by decide)).trans <| (V7_of m outs c main_v37 (by decide)).trans <| V6_of m outs c main_v37 (by decide)

/-- What the padding stretch of the activating sums writes, from any contents `V`. -/
theorem padStretch4 (V : Valuation τ sig (Elt Ideal)) :
    (StableHlo.after hostOps2_9 V (Proc.devRef .tc main_v52) : S1048576.Idx → EReal)
      = pad S1048576 ![0] ![48576] ![0] (V (Proc.devRef .tc main_v37) : S1000000.Idx → EReal)
          (sitofp (F := Ideal) .f32 (V (Proc.devRef .tc main_c_10) : S_.Idx → BitVec 32)) pads_S1000000_S1048576_0485760 h_S_ := by
  after_results
  rfl

/-- What the reshaping stretch of the activating sums writes, from any contents `V`. -/
theorem rowsStretch4 (V : Valuation τ sig (Elt Ideal)) :
    (StableHlo.after hostOps2_10 V (Proc.devRef .tc main_v53) : S1024x1024.Idx → EReal)
      = shapeCast S1024x1024 (V (Proc.devRef .tc main_v52) : S1048576.Idx → EReal) shapeCasts_S1048576_S1024x1024 := by
  after_results
  rfl

theorem V21_v53 : (V21 m outs c main_v53 : S1024x1024.Idx → EReal)
    = shapeCast S1024x1024 (V14 m outs c main_v52 : S1048576.Idx → EReal) shapeCasts_S1048576_S1024x1024 := by
  refine (V21_of m outs c main_v53 (by decide)).trans ?_
  refine (V20_of m outs c main_v53 (by decide)).trans ?_
  refine (V19_of m outs c main_v53 (by decide)).trans ?_
  refine (V18_of m outs c main_v53 (by decide)).trans ?_
  refine (V17_of m outs c main_v53 (by decide)).trans ?_
  refine (V16_of m outs c main_v53 (by decide)).trans ?_
  exact rowsStretch4 (V14 m outs c)

/-- The activating sums, padded and reshaped, at node `j`'s position. -/
theorem v53_apply (j : Fin 1000000) :
    (V21 m outs c main_v53 : S1024x1024.Idx → EReal) (ix2 (nodeRow j) (nodeCol j)) = (V5 m outs c main_v37 : S1000000.Idx → EReal) (ix1 j) := by
  rw [V21_v53, padded_read _ _ _ (padStretch4 (V13 m outs c)) j, V13_v37]

theorem V15_v41 : V15 m outs c main_v41 = V5 m outs c main_v41 :=
  (V15_of m outs c main_v41 (by decide)).trans <| (V14_of m outs c main_v41 (by decide)).trans <| (V13_of m outs c main_v41 (by decide)).trans <| (V12_of m outs c main_v41 (by decide)).trans <| (V11_of m outs c main_v41 (by decide)).trans <| (V10_of m outs c main_v41 (by decide)).trans <| (V9_of m outs c main_v41 (by decide)).trans <| (V8_of m outs c main_v41 (by decide)).trans <| (V7_of m outs c main_v41 (by decide)).trans <| V6_of m outs c main_v41 (by decide)

/-- What the padding stretch of the inhibiting sums writes, from any contents `V`. -/
theorem padStretch5 (V : Valuation τ sig (Elt Ideal)) :
    (StableHlo.after hostOps2_11 V (Proc.devRef .tc main_v54) : S1048576.Idx → EReal)
      = pad S1048576 ![0] ![48576] ![0] (V (Proc.devRef .tc main_v41) : S1000000.Idx → EReal)
          (sitofp (F := Ideal) .f32 (V (Proc.devRef .tc main_c_11) : S_.Idx → BitVec 32)) pads_S1000000_S1048576_0485760 h_S_ := by
  after_results
  rfl

/-- What the reshaping stretch of the inhibiting sums writes, from any contents `V`. -/
theorem rowsStretch5 (V : Valuation τ sig (Elt Ideal)) :
    (StableHlo.after hostOps2_12 V (Proc.devRef .tc main_v55) : S1024x1024.Idx → EReal)
      = shapeCast S1024x1024 (V (Proc.devRef .tc main_v54) : S1048576.Idx → EReal) shapeCasts_S1048576_S1024x1024 := by
  after_results
  rfl

theorem V21_v55 : (V21 m outs c main_v55 : S1024x1024.Idx → EReal)
    = shapeCast S1024x1024 (V16 m outs c main_v54 : S1048576.Idx → EReal) shapeCasts_S1048576_S1024x1024 := by
  refine (V21_of m outs c main_v55 (by decide)).trans ?_
  refine (V20_of m outs c main_v55 (by decide)).trans ?_
  refine (V19_of m outs c main_v55 (by decide)).trans ?_
  refine (V18_of m outs c main_v55 (by decide)).trans ?_
  exact rowsStretch5 (V16 m outs c)

/-- The inhibiting sums, padded and reshaped, at node `j`'s position. -/
theorem v55_apply (j : Fin 1000000) :
    (V21 m outs c main_v55 : S1024x1024.Idx → EReal) (ix2 (nodeRow j) (nodeCol j)) = (V5 m outs c main_v41 : S1000000.Idx → EReal) (ix1 j) := by
  rw [V21_v55, padded_read _ _ _ (padStretch5 (V15 m outs c)) j, V15_v41]

theorem V17_v39 : V17 m outs c main_v39 = V5 m outs c main_v39 :=
  (V17_of m outs c main_v39 (by decide)).trans <| (V16_of m outs c main_v39 (by decide)).trans <| (V15_of m outs c main_v39 (by decide)).trans <| (V14_of m outs c main_v39 (by decide)).trans <| (V13_of m outs c main_v39 (by decide)).trans <| (V12_of m outs c main_v39 (by decide)).trans <| (V11_of m outs c main_v39 (by decide)).trans <| (V10_of m outs c main_v39 (by decide)).trans <| (V9_of m outs c main_v39 (by decide)).trans <| (V8_of m outs c main_v39 (by decide)).trans <| (V7_of m outs c main_v39 (by decide)).trans <| V6_of m outs c main_v39 (by decide)

/-- What the padding stretch of the activating counts writes, from any contents `V`. -/
theorem padStretch6 (V : Valuation τ sig (Elt Ideal)) :
    (StableHlo.after hostOps2_13 V (Proc.devRef .tc main_v56) : S1048576.Idx → EReal)
      = pad S1048576 ![0] ![48576] ![0] (V (Proc.devRef .tc main_v39) : S1000000.Idx → EReal)
          (sitofp (F := Ideal) .f32 (V (Proc.devRef .tc main_c_12) : S_.Idx → BitVec 32)) pads_S1000000_S1048576_0485760 h_S_ := by
  after_results
  rfl

/-- What the reshaping stretch of the activating counts writes, from any contents `V`. -/
theorem rowsStretch6 (V : Valuation τ sig (Elt Ideal)) :
    (StableHlo.after hostOps2_14 V (Proc.devRef .tc main_v57) : S1024x1024.Idx → EReal)
      = shapeCast S1024x1024 (V (Proc.devRef .tc main_v56) : S1048576.Idx → EReal) shapeCasts_S1048576_S1024x1024 := by
  after_results
  rfl

theorem V21_v57 : (V21 m outs c main_v57 : S1024x1024.Idx → EReal)
    = shapeCast S1024x1024 (V18 m outs c main_v56 : S1048576.Idx → EReal) shapeCasts_S1048576_S1024x1024 := by
  refine (V21_of m outs c main_v57 (by decide)).trans ?_
  refine (V20_of m outs c main_v57 (by decide)).trans ?_
  exact rowsStretch6 (V18 m outs c)

/-- The activating counts, padded and reshaped, at node `j`'s position. -/
theorem v57_apply (j : Fin 1000000) :
    (V21 m outs c main_v57 : S1024x1024.Idx → EReal) (ix2 (nodeRow j) (nodeCol j)) = (V5 m outs c main_v39 : S1000000.Idx → EReal) (ix1 j) := by
  rw [V21_v57, padded_read _ _ _ (padStretch6 (V17 m outs c)) j, V17_v39]

theorem V19_v43 : V19 m outs c main_v43 = V5 m outs c main_v43 :=
  (V19_of m outs c main_v43 (by decide)).trans <| (V18_of m outs c main_v43 (by decide)).trans <| (V17_of m outs c main_v43 (by decide)).trans <| (V16_of m outs c main_v43 (by decide)).trans <| (V15_of m outs c main_v43 (by decide)).trans <| (V14_of m outs c main_v43 (by decide)).trans <| (V13_of m outs c main_v43 (by decide)).trans <| (V12_of m outs c main_v43 (by decide)).trans <| (V11_of m outs c main_v43 (by decide)).trans <| (V10_of m outs c main_v43 (by decide)).trans <| (V9_of m outs c main_v43 (by decide)).trans <| (V8_of m outs c main_v43 (by decide)).trans <| (V7_of m outs c main_v43 (by decide)).trans <| V6_of m outs c main_v43 (by decide)

/-- What the padding stretch of the inhibiting counts writes, from any contents `V`. -/
theorem padStretch7 (V : Valuation τ sig (Elt Ideal)) :
    (StableHlo.after hostOps2_15 V (Proc.devRef .tc main_v58) : S1048576.Idx → EReal)
      = pad S1048576 ![0] ![48576] ![0] (V (Proc.devRef .tc main_v43) : S1000000.Idx → EReal)
          (sitofp (F := Ideal) .f32 (V (Proc.devRef .tc main_c_13) : S_.Idx → BitVec 32)) pads_S1000000_S1048576_0485760 h_S_ := by
  after_results
  rfl

/-- What the reshaping stretch of the inhibiting counts writes, from any contents `V`. -/
theorem rowsStretch7 (V : Valuation τ sig (Elt Ideal)) :
    (StableHlo.after hostOps2_16 V (Proc.devRef .tc main_v59) : S1024x1024.Idx → EReal)
      = shapeCast S1024x1024 (V (Proc.devRef .tc main_v58) : S1048576.Idx → EReal) shapeCasts_S1048576_S1024x1024 := by
  after_results
  rfl

theorem V21_v59 : (V21 m outs c main_v59 : S1024x1024.Idx → EReal)
    = shapeCast S1024x1024 (V20 m outs c main_v58 : S1048576.Idx → EReal) shapeCasts_S1048576_S1024x1024 := by
  exact rowsStretch7 (V20 m outs c)

/-- The inhibiting counts, padded and reshaped, at node `j`'s position. -/
theorem v59_apply (j : Fin 1000000) :
    (V21 m outs c main_v59 : S1024x1024.Idx → EReal) (ix2 (nodeRow j) (nodeCol j)) = (V5 m outs c main_v43 : S1000000.Idx → EReal) (ix1 j) := by
  rw [V21_v59, padded_read _ _ _ (padStretch7 (V19 m outs c)) j, V19_v43]

end Cert.KerValue

end
-- ==== Proof.KerAlg.lean ====
/-
  The node stage on sums and counts is the specification's node update.

  With each list's sum at a node and its count there given as a sum of ones over the edges that end at the node, the
  scalar node stage tests "the count is positive" exactly where the specification tests "some edge ends here".
-/
import proofs.«135522_j14551349199581_2_alg».proof.Proof.Spec
import proofs.«135522_j14551349199581_2_alg».proof.Proof.LibEdgeCount

noncomputable section

namespace Cert.KerValue

open Idealize.ShloMosaic

/-- The node stage at the two sums and the two counts of node `j` is the specification's update at `j`. -/
theorem combine_eq_node (x nu decay growth : Fin Cert.Spec.NN → EReal) (kA kI gA gI : Fin Cert.Spec.NE → EReal)
    (dA dI : Fin Cert.Spec.NE → BitVec 32) (j : Fin Cert.Spec.NN) :
    Cert.Spec.combine (x j) (nu j) (decay j) (growth j) (Cert.Spec.total dA kA gA j) (Cert.Spec.total dI kI gI j)
        (∑ _e ∈ Cert.Spec.into dA j, (1 : EReal)) (∑ _e ∈ Cert.Spec.into dI j, (1 : EReal))
      = Cert.Spec.node x nu decay growth kA kI gA gI dA dI j := by
  unfold Cert.Spec.combine Cert.Spec.node Cert.Spec.agg
  simp only [Cert.EdgeCount.sum_one_pos_iff]

end Cert.KerValue

end
-- ==== Proof.KerValue.lean ====
/-
  The kernel program's result, given what its three pallas_calls leave.

  If each edge pallas_call leaves, entry by entry, the edge stage of its two operands, and the node pallas_call leaves,
  entry by entry, the node stage of its eight operands, then the program's result at node `j` is the specification's
  update at `j` as a function of the ten argument arrays: the final reshape and cut read the node pallas_call's entry
  at row `j / 1024`, column `j % 1024`, where the eight padded operands hold their own entry `j`; the sums and counts
  there are the accumulated columns, and a count is positive exactly when some edge of its list ends at `j`.
-/
import proofs.«135522_j14551349199581_2_alg».proof.Proof.KerNode
import proofs.«135522_j14551349199581_2_alg».proof.Proof.KerPad
import proofs.«135522_j14551349199581_2_alg».proof.Proof.KerAlg

noncomputable section

namespace Cert.KerValue

open Cert.KernelIdeal Cert.KernelIdeal.Gen Idealize.ShloMosaic Idealize.ShloMosaic.ValueIdx
open Idealize.ShloMosaic.TcCoe Idealize.ShloMosaic.StableHlo Idealize.SL.Sem

variable (m : (ℓ : Loc nD τ sig) → Buf (Elt Ideal) ℓ) (outs : Outs (F := Ideal)) (c : Dev nD)

/-- What the last stretch writes to the result buffer, from any contents `V`. -/
theorem tailStretch (V : Valuation τ sig (Elt Ideal)) :
    (StableHlo.after hostOps3 V (Proc.devRef .tc main_v62) : S1000000.Idx → EReal)
      = extractStridedSlice S1000000 ![0]
          (shapeCast S1048576 (V (Proc.devRef .tc main_v60) : S1024x1024.Idx → EReal) shapeCasts_S1024x1024_S1048576)
          slices_S1048576_S1000000_0 := by
  after_results
  rfl

theorem V23_v62 : (V23 m outs c main_v62 : S1000000.Idx → EReal)
    = extractStridedSlice S1000000 ![0]
        (shapeCast S1048576 (outs 22 main_v60 c : S1024x1024.Idx → EReal) shapeCasts_S1024x1024_S1048576)
        slices_S1048576_S1000000_0 := by
  have h22 : V22 m outs c main_v60 = outs 22 main_v60 c := Function.update_self _ _ _
  rw [← h22]
  exact tailStretch (V22 m outs c)

/-- THE RESULT BUFFER, index by index, is the specification's update of the ten argument arrays. -/
theorem v62_eq (m : (ℓ : Loc nD τ sig) → Buf (Elt Ideal) ℓ) (outs : Outs (F := Ideal)) (c : Dev nD)
    (h16 : (outs 2 main_v16 c : S15625x512.Idx → EReal) = fun i => Cert.Spec.edgeVal ((V1 m c main_v14 : S15625x512.Idx → EReal) i) ((V1 m c main_v15 : S15625x512.Idx → EReal) i))
    (h20 : (outs 4 main_v20 c : S15625x512.Idx → EReal) = fun i => Cert.Spec.edgeVal ((V3 m outs c main_v18 : S15625x512.Idx → EReal) i) ((V3 m outs c main_v19 : S15625x512.Idx → EReal) i))
    (h60 : (outs 22 main_v60 c : S1024x1024.Idx → EReal) = fun i => Cert.Spec.combine (V21 m outs c main_v45 i) (V21 m outs c main_v47 i) (V21 m outs c main_v49 i) (V21 m outs c main_v51 i) (V21 m outs c main_v53 i) (V21 m outs c main_v55 i) (V21 m outs c main_v57 i) (V21 m outs c main_v59 i)) :
    (V23 m outs c main_v62 : S1000000.Idx → EReal)
      = fun i => Cert.Spec.result (fun j => m ((c.tc : Thread nD τ).loc main_arg0) (ix1 j)) (fun j => m ((c.tc : Thread nD τ).loc main_arg3) (ix1 j)) (fun j => m ((c.tc : Thread nD τ).loc main_arg4) (ix1 j)) (fun j => m ((c.tc : Thread nD τ).loc main_arg5) (ix1 j)) (fun e => m ((c.tc : Thread nD τ).loc main_arg1) (ix1 e)) (fun e => m ((c.tc : Thread nD τ).loc main_arg2) (ix1 e)) (fun e => m ((c.tc : Thread nD τ).loc main_arg6) (ix1 e)) (fun e => m ((c.tc : Thread nD τ).loc main_arg7) (ix1 e)) (fun e => m ((c.tc : Thread nD τ).loc main_arg8) (ix1 e)) (fun e => m ((c.tc : Thread nD τ).loc main_arg9) (ix1 e)) (i 0) := by
  funext i
  obtain ⟨j, rfl⟩ : ∃ j : Fin 1000000, i = ix1 j := ⟨i 0, eq_ix1 i⟩
  rw [V23_v62, Cert.FlatLayout.slice_head_apply _ _ j (nodeIdx j) rfl,
    Cert.FlatLayout.reshape_flat_apply _ _ _ _ _ (node_pos j), h60]
  show Cert.Spec.combine
      ((V21 m outs c main_v45 : S1024x1024.Idx → EReal) (ix2 (nodeRow j) (nodeCol j)))
      ((V21 m outs c main_v47 : S1024x1024.Idx → EReal) (ix2 (nodeRow j) (nodeCol j)))
      ((V21 m outs c main_v49 : S1024x1024.Idx → EReal) (ix2 (nodeRow j) (nodeCol j)))
      ((V21 m outs c main_v51 : S1024x1024.Idx → EReal) (ix2 (nodeRow j) (nodeCol j)))
      ((V21 m outs c main_v53 : S1024x1024.Idx → EReal) (ix2 (nodeRow j) (nodeCol j)))
      ((V21 m outs c main_v55 : S1024x1024.Idx → EReal) (ix2 (nodeRow j) (nodeCol j)))
      ((V21 m outs c main_v57 : S1024x1024.Idx → EReal) (ix2 (nodeRow j) (nodeCol j)))
      ((V21 m outs c main_v59 : S1024x1024.Idx → EReal) (ix2 (nodeRow j) (nodeCol j)))
    = Cert.Spec.result (byNode (a0 m c)) (byNode (a3 m c)) (byNode (a4 m c)) (byNode (a5 m c)) (byEdge (a1 m c)) (byEdge (a2 m c))
        (byEdge (a6 m c)) (byEdge (a7 m c)) (byEdge (a8 m c)) (byEdge (a9 m c)) j
  rw [v45_apply, v47_apply, v49_apply, v51_apply, v53_apply, v55_apply, v57_apply, v59_apply,
    sumA_apply m outs c h16, sumI_apply m outs c h20, cntA_apply, cntI_apply]
  exact combine_eq_node (byNode (a0 m c)) (byNode (a3 m c)) (byNode (a4 m c)) (byNode (a5 m c)) (byEdge (a1 m c)) (byEdge (a2 m c))
    _ _ (byEdge (a7 m c)) (byEdge (a9 m c)) j

end Cert.KerValue

end
-- ==== Proof.RefEdge.lean ====
/-
  One edge's contribution in the reference, read at an edge.

  The reference normalises an edge's source word as jnp normalises an index (a negative word counts from the end of
  the `1000000` nodes), gathers the state there — the normalised word read signed and clamped into the array — raises
  it to the power `2` and multiplies by the edge's gain. On an entry of the state array that is a real number the
  power `r ^ 2` is the product `r * r`, so the contribution is the edge's gain times the square of the state at the
  edge's source: the specification's `edge` over `srcState`. The two edge lists print the same operations.
-/
import proofs.«135522_j14551349199581_2_alg».proof.Proof.RefRead
import proofs.«135522_j14551349199581_2_alg».proof.Proof.Spec
import proofs.«135522_j14551349199581_2_alg».proof.Proof.LibEdgeOps
import Idealize.ShloMosaic.Lib.IdealHost

noncomputable section

namespace Cert.RefValue

open Cert.ReferenceIdeal Cert.ReferenceIdeal.Gen Cert.ReferenceIdeal.ReadP Idealize.ShloMosaic Idealize.ShloMosaic.ValueIdx

/-- The f32 pattern `0x40000000` is the real number two. -/
theorem ofBits_two_f32 : Ideal.ofBits .f32 0x40000000#32 = ((2 : ℝ) : EReal) := by
  simp [Ideal.ofBits, Ideal.ieee, -EReal.coe_mul]; norm_num

/-- The square of a real number, as the power with exponent two, is the product with itself. -/
theorem pow_two_coe (r : ℝ) : Ideal.pow (r : EReal) ((2 : ℝ) : EReal) = (r : EReal) * (r : EReal) := by
  rw [Ideal.pow_coe_coe, ← EReal.coe_mul]
  congr 1
  show r ^ (2 : ℝ) = r * r
  rw [Real.rpow_two, sq]

/-- A word that is not negative is its own normalisation. -/
theorem wrapIdx_of_nonneg (s : BitVec 32) (h : 0 ≤ s.toInt) : Spec.wrapIdx s = s := by
  unfold Spec.wrapIdx
  have : IntOp.cmpi .slt s 0#32 = 0#1 := by
    unfold IntOp.cmpi
    have hs : s.slt 0#32 = false := by
      rw [BitVec.slt_eq_decide]
      simp only [BitVec.toInt_zero, decide_eq_false_iff_not, not_lt]
      exact h
    simp only [hs]
    rfl
  rw [this]
  exact select_zero _ _

/-- The position `(e, 0)` of an `[E, 1]` index array is read from position `e` of the `[E]` array it was laid out from. -/
theorem idx_col (e : Fin 8000000) : idx_main_v5 (ix2 e (0 : Fin 1)) = ix1 e := by
  funext a
  match a with
  | ⟨0, _⟩ => rfl

/-- The index word the gather reads at edge `e`: the source word, normalised. -/
theorem val_main_v5_at (src : IVec S8000000 32) (e : Fin 8000000) :
    val_main_v5 (F := Ideal) src (ix2 e (0 : Fin 1)) = Spec.wrapIdx (src (ix1 e)) := by
  rw [val_main_v5_apply, idx_col, val_main_v4_apply, val_main_v1_apply, val_main_v3_apply, val_main_v0_apply,
    val_main_v2_apply, val_main_c_apply, val_main_c_0_apply]
  rfl

/-- The printed dimension record of `x[idx]` is the one-axis read through an edge list. -/
theorem gather_rec_eq : gather_S1000000_S8000000x1_S8000000_n_0_n_n_0_1_1
    = EdgeOps.takeDims1 1000000 8000000 Facts₀.gather_S1000000_S8000000x1_S8000000_n_0_n_n_0_1_1_wf := rfl

/-- The printed dimension record of `x.at[idx]` is the one-axis update through an edge list. -/
theorem scatter_rec_eq : scatter_S1000000_S8000000x1_S8000000_n_0_0_1
    = EdgeOps.addDims 1000000 8000000 Facts₀.scatter_S1000000_S8000000x1_S8000000_n_0_0_1_wf := rfl

/-- The gathered state at edge `e`: the state at the edge's source. -/
theorem val_main_v6_at (x : FVec Ideal S1000000 .f32) (src : IVec S8000000 32) (e : Fin 8000000) :
    val_main_v6 (F := Ideal) x src (ix1 e)
      = Spec.srcState (fun j => x (ix1 j)) (fun e => src (ix1 e)) e := by
  unfold val_main_v6
  rw [gather_rec_eq, EdgeOps.gather_take1_apply (by decide)]
  exact congrArg (fun s : BitVec 32 => x (ix1 ⟨min s.toInt.toNat (1000000 - 1), by omega⟩)) (val_main_v5_at src e)

/-- ONE EDGE'S CONTRIBUTION in the reference, on a state array of real numbers: the edge's gain times the square of the
    state at its source. -/
theorem val_main_v9_at (x : FVec Ideal S1000000 .f32) (k : FVec Ideal S8000000 .f32) (src : IVec S8000000 32)
    (hx : ∀ i, ∃ r : ℝ, x i = (r : EReal)) (e : Fin 8000000) :
    val_main_v9 (F := Ideal) x k src (ix1 e)
      = Spec.edge (fun e => k (ix1 e)) (Spec.srcState (fun j => x (ix1 j)) (fun e => src (ix1 e))) e := by
  rw [val_main_v9_apply, val_main_v8_apply, val_main_v7_apply, val_main_cst_apply, val_main_v6_at, Ideal.mulf_def,
    Ideal.hostPowf_def, Ideal.ofBits_def, ofBits_two_f32]
  unfold Spec.edge Spec.edgeVal Spec.srcState
  obtain ⟨r, hr⟩ := hx (ix1 ⟨min (Spec.wrapIdx (src (ix1 e))).toInt.toNat (Spec.NN - 1),
    Nat.lt_of_le_of_lt (Nat.min_le_right _ _) (by decide)⟩)
  beta_reduce
  rw [hr, pow_two_coe]

/-- The second edge list's contribution is the same function of its arrays. -/
theorem val_main_v19_eq (x : FVec Ideal S1000000 .f32) (k : FVec Ideal S8000000 .f32) (src : IVec S8000000 32) :
    val_main_v19 (F := Ideal) x k src = val_main_v9 (F := Ideal) x k src := rfl

end Cert.RefValue

end
-- ==== Proof.RefSum.lean ====
/-
  The reference's two sums, read at a node.

  `segment_sum(c, dst)` accumulates, from an array of zeros, edge `e`'s contribution at the node its destination word
  names, read signed (the RAW word: a word outside the `1000000` nodes names no node and its contribution is dropped).
  On the extended reals the accumulated array at node `j` is the sum of the contributions of the edges whose
  destination word is `j`: the specification's `total` over `into`.
-/
import proofs.«135522_j14551349199581_2_alg».proof.Proof.RefEdge

noncomputable section

namespace Cert.RefValue

open Cert.ReferenceIdeal Cert.ReferenceIdeal.Gen Cert.ReferenceIdeal.ReadP Idealize.ShloMosaic Idealize.ShloMosaic.ValueIdx

/-- The index word the accumulation reads at edge `e`: the destination word itself. -/
theorem val_main_v21_at (dst : IVec S8000000 32) (e : Fin 8000000) :
    val_main_v21 (F := Ideal) dst (ix2 e (0 : Fin 1)) = dst (ix1 e) := by
  rw [val_main_v21_apply]
  exact congrArg dst (idx_col e)

/-- THE SUM AT NODE `j` in the reference, on a state array of real numbers: the contributions of the edges whose
    destination word, read signed, is `j`. -/
theorem val_main_v22_at (x : FVec Ideal S1000000 .f32) (k : FVec Ideal S8000000 .f32) (src dst : IVec S8000000 32)
    (hx : ∀ i, ∃ r : ℝ, x i = (r : EReal)) (j : Fin 1000000) :
    val_main_v22 (F := Ideal) x k src dst (ix1 j)
      = Spec.total (fun e => dst (ix1 e)) (fun e => k (ix1 e))
          (Spec.srcState (fun j => x (ix1 j)) (fun e => src (ix1 e))) j := by
  unfold val_main_v22
  rw [scatter_rec_eq, EdgeOps.scatterAdd_addDims_apply, val_main_v20_apply, val_main_cst_4_apply, Ideal.ofBits_def,
    Ideal.ofBits_zero_f32, zero_add]
  unfold Spec.total Spec.into
  simp only [val_main_v21_at]
  exact Finset.sum_congr rfl (fun e _ => val_main_v9_at x k src hx e)

/-- The second edge list's sum is the same function of its arrays. -/
theorem val_main_v25_eq (x : FVec Ideal S1000000 .f32) (k : FVec Ideal S8000000 .f32) (src dst : IVec S8000000 32) :
    val_main_v25 (F := Ideal) x k src dst = val_main_v22 (F := Ideal) x k src dst := rfl

end Cert.RefValue

end
-- ==== Proof.LibMarkScatter.lean ====
/-
  A scatter that SETS one constant value — `zeros.at[idx].set(c)`, a mark at every position some update names — read at
  an index.

  A setting scatter is a left fold over the update indices: an update that lands at a position replaces the value there,
  an update that lands outside the operand is dropped. When every update carries the same value `c` the order of the fold
  and the repetitions among the named positions do not matter: the result at `i` is `c` when some update lands at `i`,
  and the operand's value there when none does. Any shapes, any scatter dimension numbers, any element type. For a
  one-axis array marked through an edge list `idx : [E, 1]`, an update lands at `j` exactly when its index word, read
  signed, is `j`.
-/
import Idealize.ShloMosaic.PureOps.ShapeOps
import proofs.«135522_j14551349199581_2_alg».proof.Proof.LibEdgeOps

noncomputable section

namespace Cert.MarkScatter

open Idealize.ShloMosaic

/-- A fold of point updates that all write the same value `c` — entry `n` writes at the position `tgt n` names, or is
    dropped — holds `c` at `i₀` once some entry names `i₀`. -/
theorem foldl_mark_of_exists {ι κ α : Type} [DecidableEq ι] (tgt : κ → Option ι) (c : α) (step : (ι → α) → κ → ι → α)
    (hsome : ∀ r n i, tgt n = some i → step r n = fun i' => if i' = i then c else r i')
    (hnone : ∀ r n, tgt n = none → step r n = r) (i₀ : ι) :
    ∀ (l : List κ) (x : ι → α), (x i₀ = c ∨ ∃ n ∈ l, tgt n = some i₀) → (l.foldl step x) i₀ = c
  | [], x, h => by
    rcases h with h | ⟨n, hn, _⟩
    · exact h
    · exact absurd hn List.not_mem_nil
  | a :: l, x, h => by
    rw [List.foldl_cons]
    refine foldl_mark_of_exists tgt c step hsome hnone i₀ l _ ?_
    rcases h with h | ⟨n, hn, hx⟩
    · cases hta : tgt a with
      | none => rw [hnone x a hta]; exact Or.inl h
      | some i =>
        rw [hsome x a i hta]
        by_cases hi : i₀ = i
        · exact Or.inl (if_pos hi)
        · exact Or.inl ((if_neg hi).trans h)
    · rcases List.mem_cons.1 hn with rfl | hn'
      · rw [hsome x n i₀ hx]
        exact Or.inl (if_pos rfl)
      · exact Or.inr ⟨n, hn', hx⟩

/-- The same fold leaves the value at `i₀` alone when no entry names `i₀`. -/
theorem foldl_mark_of_not_exists {ι κ α : Type} [DecidableEq ι] (tgt : κ → Option ι) (c : α) (step : (ι → α) → κ → ι → α)
    (hsome : ∀ r n i, tgt n = some i → step r n = fun i' => if i' = i then c else r i')
    (hnone : ∀ r n, tgt n = none → step r n = r) (i₀ : ι) :
    ∀ (l : List κ) (x : ι → α), (∀ n ∈ l, tgt n ≠ some i₀) → (l.foldl step x) i₀ = x i₀
  | [], x, _ => rfl
  | a :: l, x, h => by
    rw [List.foldl_cons, foldl_mark_of_not_exists tgt c step hsome hnone i₀ l _ (fun n hn => h n (List.mem_cons_of_mem _ hn))]
    cases hta : tgt a with
    | none => rw [hnone x a hta]
    | some i =>
      rw [hsome x a i hta]
      exact if_neg (fun e => h a List.mem_cons_self (by rw [hta, e]))

variable {s si u : Shape} {w : Nat} {α : Type}

/-- MARKED: a setting scatter whose updates all carry `c` holds `c` at a position where some update lands. -/
theorem scatter_mark_of_exists (d : ScatterDims s si u) (x : s.Idx → α) (idx : IVec si w) (upd : u.Idx → α) (c : α)
    (hc : ∀ j, upd j = c) (i₀ : s.Idx) (h : ∃ j : u.Idx, d.resultIdx? j idx = some i₀) :
    Host.scatter d (fun _ b => b) x idx upd i₀ = c := by
  unfold Host.scatter
  refine foldl_mark_of_exists (fun n => d.resultIdx? (u.rowMajor.symm n) idx) c _ (fun r n i hn => ?_) (fun r n hn => ?_) i₀ _ x
    (Or.inr ?_)
  · beta_reduce; rw [hn, hc]
  · beta_reduce; rw [hn]
  · obtain ⟨j, hj⟩ := h
    exact ⟨u.rowMajor j, List.mem_finRange _, by rw [Equiv.symm_apply_apply]; exact hj⟩

/-- NOT MARKED: it holds the operand's value at a position where no update lands. -/
theorem scatter_mark_of_not_exists (d : ScatterDims s si u) (x : s.Idx → α) (idx : IVec si w) (upd : u.Idx → α) (c : α)
    (hc : ∀ j, upd j = c) (i₀ : s.Idx) (h : ¬ ∃ j : u.Idx, d.resultIdx? j idx = some i₀) :
    Host.scatter d (fun _ b => b) x idx upd i₀ = x i₀ := by
  unfold Host.scatter
  refine foldl_mark_of_not_exists (fun n => d.resultIdx? (u.rowMajor.symm n) idx) c _ (fun r n i hn => ?_) (fun r n hn => ?_) i₀ _ x
    (fun n _ hn => h ⟨_, hn⟩)
  · beta_reduce; rw [hn, hc]
  · beta_reduce; rw [hn]

/-! ## Marks along a one-axis array, through an edge list -/

open Idealize.ShloMosaic.ValueIdx

variable {N E : Nat}

/-- Some update of `x.at[idx].set(c)` lands at `j` exactly when some edge's index word, read signed, is `j`. -/
theorem exists_resultIdx_addDims_iff (wf : ScatterDims.WF ⟨1, ![N]⟩ ⟨2, ![E, 1]⟩ ⟨1, ![E]⟩ [] [0] [0] 1)
    (idx : IVec ⟨2, ![E, 1]⟩ w) (j : Fin N) :
    (∃ u : (⟨1, ![E]⟩ : Shape).Idx, (EdgeOps.addDims N E wf).resultIdx? u idx = some (ix1 j))
      ↔ ∃ e : Fin E, (idx (ix2 e (0 : Fin 1))).toInt = (j.val : Int) := by
  constructor
  · rintro ⟨u, hu⟩
    obtain ⟨e, rfl⟩ : ∃ e : Fin E, u = ix1 e := ⟨u 0, eq_ix1 u⟩
    exact ⟨e, (EdgeOps.addDims_resultIdx_eq_some_iff wf idx e j).mp hu⟩
  · rintro ⟨e, he⟩
    exact ⟨ix1 e, (EdgeOps.addDims_resultIdx_eq_some_iff wf idx e j).mpr he⟩

/-- MARKED along one axis: `x.at[idx].set(c)` holds `c` at `j` when some edge names `j`. -/
theorem scatter_mark_addDims_of_exists (wf : ScatterDims.WF ⟨1, ![N]⟩ ⟨2, ![E, 1]⟩ ⟨1, ![E]⟩ [] [0] [0] 1)
    (x : (⟨1, ![N]⟩ : Shape).Idx → α) (idx : IVec ⟨2, ![E, 1]⟩ w) (upd : (⟨1, ![E]⟩ : Shape).Idx → α) (c : α)
    (hc : ∀ u, upd u = c) (j : Fin N) (h : ∃ e : Fin E, (idx (ix2 e (0 : Fin 1))).toInt = (j.val : Int)) :
    Host.scatter (EdgeOps.addDims N E wf) (fun _ b => b) x idx upd (ix1 j) = c :=
  scatter_mark_of_exists _ x idx upd c hc _ ((exists_resultIdx_addDims_iff wf idx j).mpr h)

/-- NOT MARKED along one axis: it holds the operand's value at `j` when no edge names `j`. -/
theorem scatter_mark_addDims_of_not_exists (wf : ScatterDims.WF ⟨1, ![N]⟩ ⟨2, ![E, 1]⟩ ⟨1, ![E]⟩ [] [0] [0] 1)
    (x : (⟨1, ![N]⟩ : Shape).Idx → α) (idx : IVec ⟨2, ![E, 1]⟩ w) (upd : (⟨1, ![E]⟩ : Shape).Idx → α) (c : α)
    (hc : ∀ u, upd u = c) (j : Fin N) (h : ¬ ∃ e : Fin E, (idx (ix2 e (0 : Fin 1))).toInt = (j.val : Int)) :
    Host.scatter (EdgeOps.addDims N E wf) (fun _ b => b) x idx upd (ix1 j) = x (ix1 j) :=
  scatter_mark_of_not_exists _ x idx upd c hc _ (fun h' => h ((exists_resultIdx_addDims_iff wf idx j).mp h'))

end Cert.MarkScatter

end
-- ==== Proof.RefMark.lean ====
/-
  The reference's two node masks, read at a node.

  `zeros(bool).at[dst].set(True)` sets the bit of every node some edge's destination word names. jnp normalises the
  word first (a negative word counts from the end of the `1000000` nodes); a destination word that is not negative is
  its own normalisation, so under that hypothesis the bit of node `j` is set exactly when some edge's destination word,
  read signed, is `j`: when the specification's `into` at `j` is not empty.
-/
import proofs.«135522_j14551349199581_2_alg».proof.Proof.RefEdge
import proofs.«135522_j14551349199581_2_alg».proof.Proof.LibMarkScatter

noncomputable section

namespace Cert.RefValue

open Cert.ReferenceIdeal Cert.ReferenceIdeal.Gen Cert.ReferenceIdeal.ReadP Idealize.ShloMosaic Idealize.ShloMosaic.ValueIdx

/-- The index word the mask's scatter reads at edge `e`: the destination word, normalised. -/
theorem val_main_v32_at (dst : IVec S8000000 32) (e : Fin 8000000) :
    val_main_v32 (F := Ideal) dst (ix2 e (0 : Fin 1)) = Spec.wrapIdx (dst (ix1 e)) := by
  rw [val_main_v32_apply, val_main_v31_apply, val_main_v28_apply, val_main_v30_apply, val_main_v27_apply,
    val_main_v29_apply, val_main_c_7_apply, val_main_c_8_apply]
  exact congrArg (fun u => Spec.wrapIdx (dst u)) (idx_col e)

/-- Every update of the mask's scatter is the set bit. -/
theorem val_main_v33_const (u : S8000000.Idx) : val_main_v33 (F := Ideal) u = 1#1 := by
  rw [val_main_v33_apply, val_main_c_9_apply]

/-- The mask's scatter starts from cleared bits. -/
theorem val_main_v26_const (i : S1000000.Idx) : val_main_v26 (F := Ideal) i = 0#1 := by
  rw [val_main_v26_apply, val_main_c_6_apply]

/-- Some edge's normalised destination word is `j` exactly when some edge ends at `j`, for destination words that are
    not negative. -/
theorem exists_wrap_iff (dst : IVec S8000000 32) (hd : ∀ i, 0 ≤ (dst i).toInt) (j : Fin 1000000) :
    (∃ e : Fin 8000000, (val_main_v32 (F := Ideal) dst (ix2 e (0 : Fin 1))).toInt = (j.val : Int))
      ↔ (Spec.into (fun e => dst (ix1 e)) j).Nonempty := by
  unfold Spec.into
  simp only [val_main_v32_at, Finset.Nonempty, Finset.mem_filter, Finset.mem_univ, true_and]
  exact exists_congr fun e => by rw [wrapIdx_of_nonneg _ (hd (ix1 e))]

/-- THE MASK AT NODE `j`, where some edge ends: set. -/
theorem val_main_v34_of_nonempty (dst : IVec S8000000 32) (hd : ∀ i, 0 ≤ (dst i).toInt) (j : Fin 1000000)
    (h : (Spec.into (fun e => dst (ix1 e)) j).Nonempty) : val_main_v34 (F := Ideal) dst (ix1 j) = 1#1 := by
  unfold val_main_v34
  rw [scatter_rec_eq]
  exact MarkScatter.scatter_mark_addDims_of_exists _ _ _ _ 1#1 val_main_v33_const j ((exists_wrap_iff dst hd j).mpr h)

/-- THE MASK AT NODE `j`, where no edge ends: clear. -/
theorem val_main_v34_of_empty (dst : IVec S8000000 32) (hd : ∀ i, 0 ≤ (dst i).toInt) (j : Fin 1000000)
    (h : ¬ (Spec.into (fun e => dst (ix1 e)) j).Nonempty) : val_main_v34 (F := Ideal) dst (ix1 j) = 0#1 := by
  unfold val_main_v34
  rw [scatter_rec_eq]
  rw [MarkScatter.scatter_mark_addDims_of_not_exists _ _ _ _ 1#1 val_main_v33_const j
    (fun h' => h ((exists_wrap_iff dst hd j).mp h'))]
  exact val_main_v26_const _

/-- The second edge list's mask is the same function of its destination words. -/
theorem val_main_v43_eq (dst : IVec S8000000 32) : val_main_v43 (F := Ideal) dst = val_main_v34 (F := Ideal) dst := rfl

end Cert.RefValue

end
-- ==== Proof.RefValue.lean ====
/-
  The reference's result, read index by index at the exact-real instance: it is the specification's node update.

  At node `j` the reference multiplies `nu j` by the aggregate, subtracts `decay j * x j` and adds `growth j`. The
  aggregate selects, by the node's two masks, between the quotient `num / den` and zero, with `num` the activating sum
  where the activating mask is set and one elsewhere, and `den` one plus the inhibiting sum. The sums are the
  specification's `total`s (on a state array of real numbers), the masks are set exactly where the specification's
  `into` is not empty (for destination words that are not negative), and the rest reads pointwise.
-/
import proofs.«135522_j14551349199581_2_alg».proof.Proof.RefSum
import proofs.«135522_j14551349199581_2_alg».proof.Proof.RefMark

noncomputable section

namespace Cert.RefValue

open Cert.ReferenceIdeal Cert.ReferenceIdeal.Gen Cert.ReferenceIdeal.ReadP Idealize.ShloMosaic Idealize.ShloMosaic.ValueIdx

/-- THE REFERENCE IS THE SPECIFICATION: on a state array of real numbers and destination words that are not negative, the
    reference's result at node `j` is `Spec.result` of the ten argument arrays at `j`. -/
theorem result_eq (x nu decay growth : FVec Ideal Cert.ReferenceIdeal.S1000000 .f32)
    (kA kI : FVec Ideal Cert.ReferenceIdeal.S8000000 .f32) (sA dA sI dI : IVec Cert.ReferenceIdeal.S8000000 32)
    (hx : ∀ i, ∃ r : ℝ, x i = (r : EReal)) (hA : ∀ i, 0 ≤ (dA i).toInt) (hI : ∀ i, 0 ≤ (dI i).toInt) :
    Cert.ReferenceIdeal.ReadP.val_main_v53 (F := Ideal) x kA kI nu decay growth sA dA sI dI
      = fun i => Cert.Spec.result (fun j => x (ix1 j)) (fun j => nu (ix1 j)) (fun j => decay (ix1 j))
          (fun j => growth (ix1 j)) (fun e => kA (ix1 e)) (fun e => kI (ix1 e)) (fun e => sA (ix1 e))
          (fun e => dA (ix1 e)) (fun e => sI (ix1 e)) (fun e => dI (ix1 e)) (i 0) := by
  funext i
  obtain ⟨j, rfl⟩ : ∃ j : Fin 1000000, i = ix1 j := ⟨i 0, eq_ix1 i⟩
  rw [val_main_v53_apply, val_main_v52_apply, val_main_v50_apply, val_main_v51_apply, val_main_v49_apply,
    val_main_v48_apply, val_main_v47_apply, val_main_v45_apply, val_main_v44_apply, val_main_v46_apply,
    val_main_cst_15_apply, val_main_call0_v0_apply, val_main_cst_14_apply, val_main_call1_v0_apply,
    val_main_cst_16_apply, val_main_v25_eq, val_main_v43_eq, val_main_v22_at x kA sA dA hx j,
    val_main_v22_at x kI sI dI hx j]
  simp only [Ideal.addf_def, Ideal.subf_def, Ideal.mulf_def, Ideal.hostDivf_def, Ideal.ofBits_def,
    Ideal.ofBits_one_f32, Ideal.ofBits_zero_f32]
  show _ = Spec.node (fun j => x (ix1 j)) (fun j => nu (ix1 j)) (fun j => decay (ix1 j)) (fun j => growth (ix1 j))
    (fun e => kA (ix1 e)) (fun e => kI (ix1 e)) (Spec.srcState (fun j => x (ix1 j)) (fun e => sA (ix1 e)))
    (Spec.srcState (fun j => x (ix1 j)) (fun e => sI (ix1 e))) (fun e => dA (ix1 e)) (fun e => dI (ix1 e)) j
  unfold Spec.node Spec.agg
  by_cases h1 : (Spec.into (fun e => dA (ix1 e)) j).Nonempty <;>
    by_cases h2 : (Spec.into (fun e => dI (ix1 e)) j).Nonempty
  · rw [val_main_v34_of_nonempty dA hA j h1, val_main_v34_of_nonempty dI hI j h2, if_pos (Or.inl h1), if_pos h1,
      show IntOp.ori 1#1 1#1 = 1#1 from rfl, select_one, select_one]
  · rw [val_main_v34_of_nonempty dA hA j h1, val_main_v34_of_empty dI hI j h2, if_pos (Or.inl h1), if_pos h1,
      show IntOp.ori 1#1 0#1 = 1#1 from rfl, select_one, select_one]
  · rw [val_main_v34_of_empty dA hA j h1, val_main_v34_of_nonempty dI hI j h2, if_pos (Or.inr h2), if_neg h1,
      show IntOp.ori 0#1 1#1 = 1#1 from rfl, select_one, select_zero]
  · rw [val_main_v34_of_empty dA hA j h1, val_main_v34_of_empty dI hI j h2,
      if_neg (fun h => h.elim h1 h2), show IntOp.ori 0#1 0#1 = 0#1 from rfl, select_zero]

end Cert.RefValue

end
-- ==== Proof.LibFiniteReals.lean ====
/-
  A general lemma file: extended reals that are real numbers, and the mean and variance of finitely many of them.

  Over the extended reals sums and products have corners at the infinities, and laws such as distributivity hold only
  away from them. This file keeps track of the entries that ARE real numbers: they are closed under the arithmetic
  operations, finite sums, maxima, quotients by a nonzero real and the reciprocal square root of a positive real, and
  on them every identity of real arithmetic may be used. The identity needed for a batch normalisation is the two ways
  of writing a variance: for `n` real numbers with mean `μ`, the mean of the squared deviations `(y − μ)²` is the mean
  of the squares minus `μ²`.
-/
import Idealize.ShloMosaic.PureOps.Ideal

noncomputable section

namespace Cert.FiniteReals

open Idealize.ShloMosaic

/-- An extended real that is a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨r, rfl⟩ := hx; obtain ⟨s, rfl⟩ := hy; exact ⟨r + s, (EReal.coe_add r s).symm⟩

theorem IsReal.sub {x y : EReal} (hx : IsReal x) (hy : IsReal y) : IsReal (x - y) := by
  obtain ⟨r, rfl⟩ := hx; obtain ⟨s, rfl⟩ := hy; exact ⟨r - s, (EReal.coe_sub r s).symm⟩

theorem IsReal.mul {x y : EReal} (hx : IsReal x) (hy : IsReal y) : IsReal (x * y) := by
  obtain ⟨r, rfl⟩ := hx; obtain ⟨s, rfl⟩ := hy; exact ⟨r * s, (EReal.coe_mul r s).symm⟩

theorem IsReal.max {x y : EReal} (hx : IsReal x) (hy : IsReal y) : IsReal (max x y) := by
  rcases max_cases x y with ⟨h, _⟩ | ⟨h, _⟩ <;> rw [h] <;> assumption

/-- A finite sum of reals, taken in the extended reals, is the real sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The quotient of a real by a nonzero real, in the extended reals' division, is the real quotient. -/
theorem div_coe_coe (x : ℝ) {y : ℝ} (hy : y ≠ 0) : Ideal.div (x : EReal) (y : EReal) = ((x / y : ℝ) : EReal) := by
  rw [Ideal.div_coe hy, ← EReal.coe_mul]
  congr 1
  field_simp

theorem IsReal.div_coe {x : EReal} (hx : IsReal x) {y : ℝ} (hy : y ≠ 0) : IsReal (Ideal.div x (y : EReal)) := by
  obtain ⟨r, rfl⟩ := hx; exact ⟨r / y, div_coe_coe r hy⟩

/-- The reciprocal square root of a positive real is a positive real. -/
theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

theorem isReal_rsqrt_of_pos {r : ℝ} (h : 0 < r) : IsReal (Ideal.rsqrt (r : EReal)) :=
  ⟨_, rsqrt_coe_pos h⟩

/-! ## Mean and variance of `n` reals -/

/-- For `n` real numbers with sum `S`: the mean of the squared deviations from `S / n` is the mean of the squares minus
    the square of the mean. -/
theorem real_variance (n : ℕ) (hn : (n : ℝ) ≠ 0) (y : Fin n → ℝ) :
    (∑ a, (y a - (∑ a, y a) / n) * (y a - (∑ a, y a) / n)) / n
      = (∑ a, y a * y a) / n - ((∑ a, y a) / n) * ((∑ a, y a) / n) := by
  set S := ∑ a, y a with hS
  have h1 : ∑ a, (y a - S / n) * (y a - S / n) = (∑ a, y a * y a) - 2 * (S / n) * S + n * ((S / n) * (S / n)) := by
    have : ∀ a, (y a - S / n) * (y a - S / n) = y a * y a - 2 * (S / n) * y a + (S / n) * (S / n) := fun a => by ring
    simp only [this, Finset.sum_add_distrib, Finset.sum_sub_distrib, ← Finset.mul_sum, Finset.sum_const, Finset.card_univ,
      Fintype.card_fin, nsmul_eq_mul, ← hS]
    ring
  rw [h1]
  field_simp
  ring

/-- The mean of the squared deviations of real numbers is a nonnegative real. -/
theorem real_variance_nonneg (n : ℕ) (μ : ℝ) (y : Fin n → ℝ) : 0 ≤ (∑ a, (y a - μ) * (y a - μ)) / n :=
  div_nonneg (Finset.sum_nonneg fun a _ => mul_self_nonneg _) (Nat.cast_nonneg n)

variable {n : ℕ}

/-- THE MEAN of `n` real entries, computed in the extended reals: the real mean. -/
theorem mean_coe (hn : (n : ℝ) ≠ 0) (y : Fin n → ℝ) :
    Ideal.div (∑ a, ((y a : ℝ) : EReal)) ((n : ℝ) : EReal) = (((∑ a, y a) / n : ℝ) : EReal) := by
  rw [coe_sum, div_coe_coe _ hn]

/-- THE TWO VARIANCES AGREE on real entries: the mean of `(Y − μ)²` (`μ` the mean) is the mean of `Y²` minus `μ²`, all
    computed in the extended reals with the quotient by `n`. -/
theorem variance_eq (hn : (n : ℝ) ≠ 0) (Y : Fin n → EReal) (hY : ∀ a, IsReal (Y a)) :
    Ideal.div (∑ a, (Y a - Ideal.div (∑ a, Y a) ((n : ℝ) : EReal)) * (Y a - Ideal.div (∑ a, Y a) ((n : ℝ) : EReal))) ((n : ℝ) : EReal)
      = Ideal.div (∑ a, Y a * Y a) ((n : ℝ) : EReal)
        - Ideal.div (∑ a, Y a) ((n : ℝ) : EReal) * Ideal.div (∑ a, Y a) ((n : ℝ) : EReal) := by
  choose y hy using hY
  obtain rfl : Y = fun a => ((y a : ℝ) : EReal) := funext hy
  simp only [mean_coe hn, ← EReal.coe_sub, ← EReal.coe_mul, coe_sum, div_coe_coe _ hn]
  exact congrArg _ (real_variance n hn y)

/-- On real entries the mean is real, -/
theorem isReal_mean (hn : (n : ℝ) ≠ 0) (Y : Fin n → EReal) (hY : ∀ a, IsReal (Y a)) :
    IsReal (Ideal.div (∑ a, Y a) ((n : ℝ) : EReal)) :=
  (IsReal.sum _ _ fun a _ => hY a).div_coe hn

/-- and the variance is a nonnegative real. -/
theorem variance_nonneg (hn : (n : ℝ) ≠ 0) (Y : Fin n → EReal) (hY : ∀ a, IsReal (Y a)) (μ : EReal) (hμ : IsReal μ) :
    ∃ v : ℝ, 0 ≤ v ∧ Ideal.div (∑ a, (Y a - μ) * (Y a - μ)) ((n : ℝ) : EReal) = (v : EReal) := by
  choose y hy using hY
  obtain rfl : Y = fun a => ((y a : ℝ) : EReal) := funext hy
  obtain ⟨m, rfl⟩ := hμ
  refine ⟨(∑ a, (y a - m) * (y a - m)) / n, real_variance_nonneg n m y, ?_⟩
  simp only [← EReal.coe_sub, ← EReal.coe_mul, coe_sum, div_coe_coe _ hn]

end Cert.FiniteReals

end
-- ==== Proof.LibFiniteInputs.lean ====
/-
  A general lemma file: the printed precondition "every entry of a float array is finite", read back.

  `jnp.all(jnp.abs(x) < inf)` prints as a reduction by `and`, from the constant 1, of the comparison of `|x|` with the
  splat of the word 0x7F800000 (single precision's +inf). At the ideal values that word is the top element, the
  comparison is the order of the extended reals, and an extended real whose absolute value is below the top is a real
  number. So the reduction being 1 says every entry of `x` is a real number — for any shape and any reduced axes.
-/
import Idealize.ShloMosaic.Lib.ReduceAll
import Idealize.ShloMosaic.Lib.ValueIdx
import proofs.«135522_j14551349199581_2_alg».proof.Proof.LibFiniteReals

noncomputable section

namespace Cert.FiniteInputs

open Idealize.ShloMosaic Idealize.ShloMosaic.ValueIdx Cert.FiniteReals

/-- Single precision's +inf word is the top extended real. -/
theorem ofBits_inf : Ideal.ofBits .f32 0x7F800000#32 = ⊤ := by
  simp [Ideal.ofBits, Ideal.ieee]

/-- An extended real whose absolute value is below the top is a real number. -/
theorem isReal_of_abs_lt_top (x : EReal) (h : max x (-x) < ⊤) : IsReal x := by
  induction x using EReal.rec with
  | bot => simp at h
  | top => simp at h
  | coe r => exact ⟨r, rfl⟩

/-- The scalar shape has one index. -/
instance : Subsingleton (⟨0, ![]⟩ : Shape).Idx := ⟨fun a b => funext fun d => d.elim0⟩

/-- THE PRINTED `jnp.all(jnp.abs(x) < inf)` being 1 says every entry of `x` is a real number. -/
theorem isReal_of_all_finite {s : Shape} {axes : List (Fin s.rank)} (x : FVec Ideal s .f32)
    (hb : (⟨0, ![]⟩ : Shape).BroadcastsInDim s (![] : Fin 0 → Fin s.rank)) (h : s.ReducesTo axes ⟨0, ![]⟩)
    (hu : 0 < (⟨0, ![]⟩ : Shape).numel)
    (e : Host.reduce IntOp.andi
        (cmpf .olt (Host.absf x) (broadcastInDim s ![] hb (constant (F := Ideal) ⟨0, ![]⟩ .f32 0x7F800000#32)))
        (constantI ⟨0, ![]⟩ 1 1#1) h hu ix0 = 1#1) (i : s.Idx) : IsReal (x i) := by
  have hi := Host.reduce_andi_all _ _ h hu ix0 e i
  have hc : Ideal.cmp .olt (max (x i) (-(x i))) (Ideal.ofBits .f32 0x7F800000#32) = 1#1 := hi
  refine isReal_of_abs_lt_top (x i) ?_
  rw [← ofBits_inf]
  by_contra hn
  simp [Ideal.cmp, hn] at hc

end Cert.FiniteInputs

end
-- ==== Proof.LibIndexBounds.lean ====
/-
  A general lemma file: the printed precondition "every entry of an index array is nonnegative", read back.

  `jnp.all(d >= 0)` prints as a reduction by `and`, from the constant 1, of the signed comparison "at least" of the
  32-bit words of `d` with the splat of the word 0. The comparison word at an entry is 1 exactly when zero is at most
  the entry read as a signed integer, and a reduction by `and` that is 1 met only 1s. So the reduction being 1 says
  every entry of `d`, read signed, is nonnegative — for any shape and any reduced axes.
-/
import Idealize.ShloMosaic.Lib.ReduceAll
import Idealize.ShloMosaic.Lib.ValueIdx

namespace Cert.IndexBounds

open Idealize.ShloMosaic Idealize.ShloMosaic.ValueIdx

/-- The 32-bit word 0 reads, signed, as the integer 0. -/
theorem toInt_zero32 : (0#32 : BitVec 32).toInt = 0 := by decide

/-- A word that tests "at least the word 0" in the signed order reads, signed, as a nonnegative integer. -/
theorem nonneg_of_sge_zero (v : BitVec 32) (h : IntOp.cmpi .sge v 0#32 = 1#1) : 0 ≤ v.toInt := by
  have := IntOp.cmpi_sge.1 h
  rwa [toInt_zero32] at this

/-- THE PRINTED `jnp.all(d >= 0)` being 1 says every entry of `d`, read as a signed integer, is nonnegative. -/
theorem nonneg_of_all_sge_zero {s : Shape} {axes : List (Fin s.rank)} (d : IVec s 32)
    (hb : (⟨0, ![]⟩ : Shape).BroadcastsInDim s (![] : Fin 0 → Fin s.rank)) (h : s.ReducesTo axes ⟨0, ![]⟩)
    (hu : 0 < (⟨0, ![]⟩ : Shape).numel)
    (e : Host.reduce IntOp.andi
        (cmpi .sge d (broadcastInDim s ![] hb (constantI ⟨0, ![]⟩ 32 0#32)))
        (constantI ⟨0, ![]⟩ 1 1#1) h hu ix0 = 1#1) (i : s.Idx) : 0 ≤ (d i).toInt := by
  have hi := Host.reduce_andi_eq_one _ _ h hu ix0 e i (funext fun a => a.elim0)
  have hc : IntOp.cmpi .sge (d i) 0#32 = 1#1 := hi
  exact nonneg_of_sge_zero (d i) hc

end Cert.IndexBounds
-- ==== Proof.PreFacts.lean ====
/-
  The printed precondition of this unit, read back as three plain facts about the argument arrays.

  The precondition is the conjunction, by `and` of one-bit words, of eight tests: each of the six float arrays has
  `jnp.all(jnp.abs(a) < inf)`, and each of the two destination arrays has `jnp.all(d >= 0)`. The conjunction being 1
  makes every test 1. Of the float tests only the first (the node state `x`) is kept: every entry of `x` is a real
  number. The two index tests say that every destination word of either edge list, read as a signed integer, is
  nonnegative.
-/
import proofs.«135522_j14551349199581_2_alg».proof.Pre_finite_inputs
import proofs.«135522_j14551349199581_2_alg».proof.Proof.LibFiniteInputs
import proofs.«135522_j14551349199581_2_alg».proof.Proof.LibIndexBounds

namespace Cert.PreFacts

open Idealize.ShloMosaic Idealize.ShloMosaic.ValueIdx Cert.Pre_finite_inputs

/-- An `and` of two arrays of one-bit words that is 1 at an index has both words 1 there. -/
theorem andi_apply_eq_one {s : Shape} (a b : IVec s 1) (i : s.Idx) (h : andi a b i = 1#1) : a i = 1#1 ∧ b i = 1#1 :=
  IntOp.andi_eq_one.1 h

/-- THE PRECONDITION, DECODED: every entry of the state `x` is a real number, and every destination word of the
    activating list `dA` and of the inhibiting list `dI`, read as a signed integer, is nonnegative. -/
theorem of_pre [Cert.Pre_finite_inputs.Facts] (x : FVec Ideal S1000000 .f32) (kA kI : FVec Ideal S8000000 .f32)
    (nu decay growth : FVec Ideal S1000000 .f32) (sA dA sI dI : IVec S8000000 32)
    (h : Cert.Pre_finite_inputs.fn (F := Ideal) x kA kI nu decay growth sA dA sI dI = fun _ => 1#1) :
    (∀ i, ∃ r : ℝ, x i = (r : EReal)) ∧ (∀ i, 0 ≤ (dA i).toInt) ∧ (∀ i, 0 ≤ (dI i).toInt) := by
  have h0 := congrFun h ix0
  dsimp only [fn, fn_part1, fn_part2] at h0
  obtain ⟨h32, hdI⟩ := andi_apply_eq_one _ _ _ h0
  obtain ⟨h28, hdA⟩ := andi_apply_eq_one _ _ _ h32
  obtain ⟨h23, -⟩ := andi_apply_eq_one _ _ _ h28
  obtain ⟨h18, -⟩ := andi_apply_eq_one _ _ _ h23
  obtain ⟨h13, -⟩ := andi_apply_eq_one _ _ _ h18
  obtain ⟨h8, -⟩ := andi_apply_eq_one _ _ _ h13
  obtain ⟨hx, -⟩ := andi_apply_eq_one _ _ _ h8
  exact ⟨fun i => Cert.FiniteInputs.isReal_of_all_finite x _ _ _ hx i,
    fun i => Cert.IndexBounds.nonneg_of_all_sge_zero dA _ _ _ hdA i,
    fun i => Cert.IndexBounds.nonneg_of_all_sge_zero dI _ _ _ hdI i⟩

end Cert.PreFacts
-- ==== Proof.Claims.lean ====
/-
  The five claims.

  The three frames: each kernel program runs as the chain of its host stretches and its three kernel regions, each
  region entered from and left at a stated valuation of the buffers; the reference, a host program, through its run
  with the result dropped.

  The value claim. Run from memories that agree on the ten arguments, both idealized programs end with the result
  array at ONE function of the arguments, `Cert.Spec.result`: at node j, with sA and sI the sums over the activating
  and inhibiting edges ending at j of k · (g · g) (g the state at the edge's source),
      nu j · agg − decay j · x j + growth j,   agg = (sA if an activating edge ends at j, else 1) / (1 + sI)
  where some edge ends at j, and 0 elsewhere.
  The kernel program computes the edge terms in two kernel regions, sums them and counts the edges by one accumulation
  of the pairs (term, 1) over the destination words, and combines per node in a third region; "an edge ends at j" is
  there "the count at j is positive". The reference squares by a power with exponent 2 — the square on real numbers,
  which is where finiteness of the state is used — and marks "an edge ends at j" by writing a one at the destination
  words after normalising negative ones; for destination words that are not negative the normalisation changes
  nothing, which is where the stated domain of the two destination lists is used.
-/
import proofs.«135522_j14551349199581_2_alg».proof.Defs
import proofs.«135522_j14551349199581_2_alg».proof.Proof.KwFrame
import proofs.«135522_j14551349199581_2_alg».proof.Proof.KiFrame
import proofs.«135522_j14551349199581_2_alg».proof.Proof.KiValue0
import proofs.«135522_j14551349199581_2_alg».proof.Proof.KiValue1
import proofs.«135522_j14551349199581_2_alg».proof.Proof.KiValue2
import proofs.«135522_j14551349199581_2_alg».proof.Proof.KerValue
import proofs.«135522_j14551349199581_2_alg».proof.Proof.RefRun
import proofs.«135522_j14551349199581_2_alg».proof.Proof.RefValue
import proofs.«135522_j14551349199581_2_alg».proof.Proof.PreFacts
import proofs.«135522_j14551349199581_2_alg».proof.Proof.Gen.Kernel
import proofs.«135522_j14551349199581_2_alg».proof.Proof.Gen.KernelIdeal
import proofs.«135522_j14551349199581_2_alg».proof.Proof.Gen.ReferenceIdeal
import proofs.«135522_j14551349199581_2_alg».proof.Proof.Gen.Pre_finite_inputs

noncomputable section

namespace Cert.Proof.Claims

open Idealize.ShloMosaic Idealize.ShloMosaic.TcCoe Idealize.ShloMosaic.ValueIdx Idealize.SL.Sem

/-! ## The frames -/

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-! ## The value claim -/

section Value

open Cert.KernelIdeal Cert.KernelIdeal.Gen Cert.KernelIdeal.Hand

variable (m : (ℓ : Loc nD τ sig) → Buf (Elt Ideal) ℓ)

/-- What the first region leaves: the edge terms of the activating list, in the [15625, 512] layout. -/
theorem left16 (c : Dev nD) : (outsH m 2 main_v16 c : S15625x512.Idx → EReal)
    = fun i => Cert.Spec.edgeVal ((V1 m c main_v14 : S15625x512.Idx → EReal) i) ((V1 m c main_v15 : S15625x512.Idx → EReal) i) := by
  show (Function.update (U1 m c) main_v16 (o16 m c) main_v16 : S15625x512.Idx → EReal) = _
  rw [Function.update_self]
  exact arrAt0_eq (tcOf (U1 m)) c

/-- What the second region leaves: the edge terms of the inhibiting list. -/
theorem left20 (c : Dev nD) : (outsH m 4 main_v20 c : S15625x512.Idx → EReal)
    = fun i => Cert.Spec.edgeVal ((V3 m (outsH m) c main_v18 : S15625x512.Idx → EReal) i) ((V3 m (outsH m) c main_v19 : S15625x512.Idx → EReal) i) := by
  rw [V3_eq]
  show (Function.update (U3 m c) main_v20 (o20 m c) main_v20 : S15625x512.Idx → EReal) = _
  rw [Function.update_self]
  exact arrAt1_eq (tcOf (U3 m)) c

/-- What the third region leaves: the per-node combination of its eight input arrays. -/
theorem left60 (c : Dev nD) : (outsH m 22 main_v60 c : S1024x1024.Idx → EReal)
    = fun i => Cert.Spec.combine (V21 m (outsH m) c main_v45 i) (V21 m (outsH m) c main_v47 i) (V21 m (outsH m) c main_v49 i)
        (V21 m (outsH m) c main_v51 i) (V21 m (outsH m) c main_v53 i) (V21 m (outsH m) c main_v55 i) (V21 m (outsH m) c main_v57 i)
        (V21 m (outsH m) c main_v59 i) := by
  rw [V21_eq]
  show (Function.update (U21 m c) main_v60 (o60 m c) main_v60 : S1024x1024.Idx → EReal) = _
  rw [Function.update_self]
  exact arrAt2_eq (tcOf (U21 m)) c

end Value

/-- Both idealized programs end with the result array at `Cert.Spec.result` of the arguments. -/
theorem algebraic : Cert.algebraic_KernelIdeal_ReferenceIdeal := by
  intro m ρ m' ρ' hpre hagree
  refine ⟨fun c => fun i => Cert.Spec.result
      (fun j => m ((c.tc : Thread Cert.KernelIdeal.nD Cert.KernelIdeal.τ).loc Cert.KernelIdeal.main_arg0) (ix1 j))
      (fun j => m ((c.tc : Thread Cert.KernelIdeal.nD Cert.KernelIdeal.τ).loc Cert.KernelIdeal.main_arg3) (ix1 j))
      (fun j => m ((c.tc : Thread Cert.KernelIdeal.nD Cert.KernelIdeal.τ).loc Cert.KernelIdeal.main_arg4) (ix1 j))
      (fun j => m ((c.tc : Thread Cert.KernelIdeal.nD Cert.KernelIdeal.τ).loc Cert.KernelIdeal.main_arg5) (ix1 j))
      (fun e => m ((c.tc : Thread Cert.KernelIdeal.nD Cert.KernelIdeal.τ).loc Cert.KernelIdeal.main_arg1) (ix1 e))
      (fun e => m ((c.tc : Thread Cert.KernelIdeal.nD Cert.KernelIdeal.τ).loc Cert.KernelIdeal.main_arg2) (ix1 e))
      (fun e => m ((c.tc : Thread Cert.KernelIdeal.nD Cert.KernelIdeal.τ).loc Cert.KernelIdeal.main_arg6) (ix1 e))
      (fun e => m ((c.tc : Thread Cert.KernelIdeal.nD Cert.KernelIdeal.τ).loc Cert.KernelIdeal.main_arg7) (ix1 e))
      (fun e => m ((c.tc : Thread Cert.KernelIdeal.nD Cert.KernelIdeal.τ).loc Cert.KernelIdeal.main_arg8) (ix1 e))
      (fun e => m ((c.tc : Thread Cert.KernelIdeal.nD Cert.KernelIdeal.τ).loc Cert.KernelIdeal.main_arg9) (ix1 e)) (i 0), ?_, ?_⟩
  · -- the kernel program: its run with the result read, the result through the three regions' values
    refine (θ_run Cert.KernelIdeal.defs _ _).mono (fun r h c => ⟨(h c).1.trans ?_, (h c).2⟩)
      (Cert.KernelIdeal.Hand.run_value (F := Ideal) m ρ)
    exact Cert.KerValue.v62_eq m (Cert.KernelIdeal.Hand.outsH m) c (left16 m c) (left20 m c) (left60 m c)
  · -- the reference: its run, the result stage by stage, at arguments equal to the kernel program's
    refine (θ_run Cert.ReferenceIdeal.defs _ _).mono (fun r h c => ⟨(h c).1.trans ?_, (h c).2⟩)
      (Cert.ReferenceIdeal.ValueP.run (F := Ideal) m' ρ')
    obtain ⟨hx, hA, hI⟩ := Cert.PreFacts.of_pre _ _ _ _ _ _ _ _ _ _ (hpre c)
    rw [Cert.ReferenceIdeal.ReadP.val_main_v53_eq]
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]
    exact Cert.RefValue.result_eq _ _ _ _ _ _ _ _ _ _ hx hA hI

end Cert.Proof.Claims

end
-- ==== Proof.lean ====
/-
  The certificate of the graph message-passing update: a Pallas kernel program (two gathers, two edge-term kernels,
  one accumulation of sums and counts, a per-node combine kernel) against its jnp reference, over one million nodes and
  two lists of eight million edges.

  Under the precondition — every float input finite, and every destination index of both edge lists non-negative —
  the claim has five parts: each of the three programs (the kernel program on machine words, its idealization, the
  idealized reference) runs to the end on every weakly fair execution without faulting and leaves its ten argument
  arrays as launched; the idealization rewrote nothing; and the two idealized programs, run from memories that agree
  on the arguments, end with equal result arrays as extended reals: both hold, at every node, the function
  `Cert.Spec.result` of the arguments (Proof/Spec.lean states it; Proof/Claims.lean says which two facts about the
  inputs make the two programs' different routes agree).

  The programs' stated side conditions are witnessed by the generated modules.
-/
import proofs.«135522_j14551349199581_2_alg».proof.Defs
import proofs.«135522_j14551349199581_2_alg».proof.Proof.Gen.Kernel
import proofs.«135522_j14551349199581_2_alg».proof.Proof.Gen.KernelIdeal
import proofs.«135522_j14551349199581_2_alg».proof.Proof.Gen.ReferenceIdeal
import proofs.«135522_j14551349199581_2_alg».proof.Proof.Gen.Pre_finite_inputs
import proofs.«135522_j14551349199581_2_alg».proof.Proof.Claims
import Idealize.ShloMosaic.Adequacy
import Idealize.ShloMosaic.Init

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, Cert.Proof.Claims.preserves,
    Cert.Proof.Claims.algebraic⟩

end Cert.Proof

end
